-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S128x128 : Shape := ⟨2, ![128, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S128x128 .f32) : IVec S_ 1 :=
  let main_v0 : FVec F S128x128 .f32 := Host.absf main_arg1
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 127#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S128x128 : Shape := ⟨2, ![128, 128]⟩
abbrev S16384x128 : Shape := ⟨2, ![16384, 128]⟩
abbrev S512 : Shape := ⟨1, ![512]⟩
abbrev S64x128 : Shape := ⟨2, ![64, 128]⟩
abbrev S_ : Shape := ⟨0, ![]⟩
abbrev S448 : Shape := ⟨1, ![448]⟩
abbrev S64 : Shape := ⟨1, ![64]⟩

abbrev nBuf : Table → Nat
  | .hbm => 3
  | .shared => 1
  | .local .scVector .vmem => 3
  | _ => 0

abbrev bufTy : (tb : Table) → Fin (nBuf tb) → BufTy
  | .hbm, ⟨0, _⟩ => ⟨S16384, .i32⟩
  | .hbm, ⟨1, _⟩ => ⟨S128x128, .f32⟩
  | .hbm, ⟨2, _⟩ => ⟨S16384x128, .f32⟩
  | .shared, ⟨0, _⟩ => ⟨S128x128, .f32⟩
  | .local .scVector .vmem, ⟨0, _⟩ => ⟨S512, .i32⟩
  | .local .scVector .vmem, ⟨1, _⟩ => ⟨S64x128, .f32⟩
  | .local .scVector .vmem, ⟨2, _⟩ => ⟨S64x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 5 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c64_i32 : BitVec 32 := 64#32
  let v6 : BitVec 32 := Scalar.addi v2 c64_i32
  ![v6.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off3 (i : grid0.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v24 : BitVec 32 := Scalar.addi v2 c0_i32_16
  let c0_i32_17 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512_S448_64 : ∀ a, (![64] : Fin 1 → Nat) a + S448.size a ≤ S512.size a
  inb_S512_S64_0 : ∀ a, (![0] : Fin 1 → Nat) a + S64.size a ≤ S512.size a
  inb_S128x128_S128x128_0_0 : ∀ a, (![0, 0] : Fin 2 → Nat) a + S128x128.size a ≤ S128x128.size a
  gathers_S128x128_S64x128 : S128x128.Gathers 0 S64x128
  inb_S512_S64_64 : ∀ a, (![64] : Fin 1 → Nat) a + S64.size a ≤ S512.size a
  inb_S512_S64_128 : ∀ a, (![128] : Fin 1 → Nat) a + S64.size a ≤ S512.size a
  inb_S512_S64_192 : ∀ a, (![192] : Fin 1 → Nat) a + S64.size a ≤ S512.size a
  inb_S512_S64_256 : ∀ a, (![256] : Fin 1 → Nat) a + S64.size a ≤ S512.size a
  inb_S512_S64_320 : ∀ a, (![320] : Fin 1 → Nat) a + S64.size a ≤ S512.size a
  inb_S512_S64_384 : ∀ a, (![384] : Fin 1 → Nat) a + S64.size a ≤ S512.size a
  inb_S512_S64_448 : ∀ a, (![448] : Fin 1 → Nat) a + S64.size a ≤ S512.size a
  hcc0_scratch4 : 0 + S_.numel ≤ 7
  hcc0_scratch5 : 1 + S_.numel ≤ 7
  hcc0_scratch6 : 2 + S_.numel ≤ 7
  hcc0_scratch7 : 3 + S_.numel ≤ 7
  hcc0_scratch8 : 4 + S_.numel ≤ 7
  hcc0_scratch9 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S448.size a ≤ S16384.size a
  k0_off2_inb : ∀ i : grid0.Coords, ∀ a, (k0_off2 i) a + S64.size a ≤ S16384.size a
  k0_off3_inb : ∀ i : grid0.Coords, ∀ (r : Fin 8), ∀ a, (k0_off3 i (BitVec.ofNat 32 (64 * r.val))) a + S64x128.size a ≤ S16384x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0

class Facts : Prop extends Facts₀ where

variable [Facts]
-- ==== ReferenceIdeal.lean ====
abbrev S16384 : Shape := ⟨1, ![16384]⟩
abbrev S128x128 : Shape := ⟨2, ![128, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S128x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S128x128_S16384x1_S16384x128_1_0_n_n_0_1_1128_wf : GatherDims.WF S128x128 S16384x1 S16384x128 [1] [0] [] [0] [] 1 ![1, 128]

variable [Facts₀]

def gather_S128x128_S16384x1_S16384x128_1_0_n_n_0_1_1128 : GatherDims S128x128 S16384x1 S16384x128 where
  offsetDims := [1]
  collapsedSliceDims := [0]
  operandBatchingDims := []
  startIndicesBatchingDims := []
  startIndexMap := [0]
  indexVectorDim := 1
  sliceSizes := ![1, 128]
  wf := gather_S128x128_S16384x1_S16384x128_1_0_n_n_0_1_1128_wf

class Facts : Prop extends Facts₀ where

variable [Facts]
-- ==== Proof.PreRange.lean ====
/-
  What the domain predicate says of one index word. The predicate is the conjunction of two reductions by "and": the
  first over the table (every entry finite), the second over the index vector, whose element at position r is the
  conjunction of the two signed comparisons 0 ≤ x r and x r ≤ 127. If the predicate is the bit 1, the second reduction
  is 1, so its operand is 1 at every position, so both comparisons hold at every r. A 32-bit word whose signed reading
  lies between 0 and 127 has the same unsigned reading, which is therefore below 128. The argument uses no property of
  the float instance: the table only enters the first reduction, which is dropped.
-/
import proofs.«205415_g38302518346492_cont_8to1_b_1778_12_alg».proof.Pre_input_domain
import Idealize.ShloMosaic.Lib.ReduceAll
import Idealize.ShloMosaic.Lib.ValueIdx

noncomputable section

namespace Cert.PreRange

open Idealize.ShloMosaic

/-- The scalar shape has one index. -/
instance subsingleton_scalar_idx : Subsingleton Cert.Pre_input_domain.S_.Idx :=
  ⟨fun a b => funext fun d => d.elim0⟩

/-- A 32-bit word that reads between 0 and 127 as a signed integer reads below 128 as a natural number. -/
theorem toNat_lt_of_signed (w : BitVec 32) (h0 : (0#32 : BitVec 32).toInt ≤ w.toInt)
    (h1 : w.toInt ≤ (127#32 : BitVec 32).toInt) : w.toNat < 128 := by
  have e0 : (0#32 : BitVec 32).toInt = 0 := by decide
  have e1 : (127#32 : BitVec 32).toInt = 127 := by decide
  rw [e0] at h0
  rw [e1] at h1
  have hw := w.isLt
  have hc := BitVec.toInt_eq_toNat_cond w
  split at hc <;> omega

/-- On the domain of the claim every index word is a table row number. -/
theorem range_of_pre {F : FTy → Type} [FloatOps F] [Cert.Pre_input_domain.Facts]
    (x : IVec ⟨1, ![16384]⟩ 32) (tbl : FVec F ⟨2, ![128, 128]⟩ .f32)
    (h : Cert.Pre_input_domain.fn (F := F) x tbl = (fun _ => 1#1)) :
    ∀ r : Fin 16384, (x (ValueIdx.ix1 r)).toNat < 128 := by
  intro r
  have e := congrFun h ValueIdx.ix0
  dsimp only [Cert.Pre_input_domain.fn] at e
  obtain ⟨-, e2⟩ := IntOp.andi_eq_one.1 e
  have e3 := Host.reduce_andi_all _ _ _ _ _ e2 (ValueIdx.ix1 r)
  obtain ⟨h0, h1⟩ := IntOp.andi_eq_one.1 e3
  exact toNat_lt_of_signed _ (IntOp.cmpi_sge.1 h0) (IntOp.cmpi_sle.1 h1)

end Cert.PreRange

end
-- ==== Proof.Spec.lean ====
/-
  The function both programs compute: a row lookup. The result has one row per entry of the index vector, and
  row `r` of the result is row `x r` of the table, column by column. The word `x r` is read as a natural
  number and reduced modulo the number of table rows, which makes the function total; on the domain of the
  claim (every entry between 0 and 127) the reduction changes nothing.
-/
import Idealize.ShloMosaic.PureOps.Ideal
import Idealize.ShloMosaic.Lib.ValueIdx

noncomputable section

namespace Cert.Spec

open Idealize.ShloMosaic Idealize.ShloMosaic.ValueIdx

/-- The row of the table that entry `r` of the index vector names. -/
def row (x : IVec ⟨1, ![16384]⟩ 32) (r : Fin 16384) : Fin 128 :=
  ⟨(x (ix1 r)).toNat % 128, Nat.mod_lt _ (by norm_num)⟩

/-- The lookup, for any element type: entry `(r, c)` of the result is entry `(x r, c)` of the table. -/
def G {α : Type} (x : IVec ⟨1, ![16384]⟩ 32) (tbl : (⟨2, ![128, 128]⟩ : Shape).Idx → α) :
    (⟨2, ![16384, 128]⟩ : Shape).Idx → α :=
  fun j => tbl (ix2 (row x (j 0)) (j 1))

theorem G_apply {α : Type} (x : IVec ⟨1, ![16384]⟩ 32) (tbl : (⟨2, ![128, 128]⟩ : Shape).Idx → α)
    (r : Fin 16384) (c : Fin 128) : G x tbl (ix2 r c) = tbl (ix2 (row x r) c) := rfl

/-- On an entry that is a table row number, the reduction modulo 128 is the identity. -/
theorem row_val (x : IVec ⟨1, ![16384]⟩ 32) (r : Fin 16384) (h : (x (ix1 r)).toNat < 128) :
    (row x r).val = (x (ix1 r)).toNat := Nat.mod_eq_of_lt h

end Cert.Spec

end
-- ==== Proof.LibTakeRows.lean ====
/-
  General lemmas: the row gather read at an index, and `jnp.take`'s wrapper at an in-range index.

  `jnp.take(x, idx, axis=0)` of a matrix `x : [N, D]` at an integer array `idx : [R, C]` lowers to `stablehlo.gather`
  with offset_dims `[2]`, collapsed_slice_dims `[0]`, start_index_map `[0]`, index_vector_dim `2` and slice_sizes
  `[1, D]` over the indices as `[R, C, 1]`. Result element `(t, j, c)` is `x` at row `idx[t, j, 0]` — read as a
  signed integer and clamped into `[0, N − 1]`, as StableHLO's gather clamps every start index — and column `c`:
  on the row axis the operand index is the clamped start (no batching, no offset: the axis is collapsed), on the
  column axis the start is `0` and the offset is the result's last coordinate.
-/
import Idealize.ShloMosaic.Lib.ValueIdx
import Idealize.ShloMosaic.Lib.Affine
import Idealize.ShloMosaic.PureOps.Reduce

noncomputable section

namespace Cert.Lib.TakeRows

open Idealize.ShloMosaic Idealize.ShloMosaic.ValueIdx

variable {α : Type}

/-- The dimension numbers of a row gather for an operand `[N, D]`, start indices `[R, C, 1]` and result
    `[R, C, D]`; their conditions `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index `[t, j, 0]` of result index `(t, j, c)`. -/
abbrev rowIdx {R C D : Nat} (y : (⟨3, ![R, C, D]⟩ : Shape).Idx) : (⟨3, ![R, C, 1]⟩ : Shape).Idx :=
  fun a => match a with | ⟨0, _⟩ => ⟨(y 0).val, idx3_lt0 y⟩ | ⟨1, _⟩ => ⟨(y 1).val, idx3_lt1 y⟩ | ⟨2, _⟩ => ⟨0, Nat.one_pos⟩

/-- THE ROW GATHER READ AT `(t, j, c)`: the operand at row `idx[t, j, 0]`, read signed and clamped into
    `[0, N − 1]`, and column `c`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y
      = x (ix2 ⟨min (idx (rowIdx y)).toInt.toNat (N - 1), by omega⟩ ⟨(y 2).val, idx3_lt2 y⟩) := by
  unfold Host.gather
  congr 1
  funext a
  refine Fin.ext ?_
  match a with
  | ⟨0, _⟩ =>
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start y idx 1 + (rowsDims N D R C wf).batchCoord y 1 + (rowsDims N D R C wf).offCoord y 1 = (y 2).val
    have hs : (rowsDims N D R C wf).start y idx 1 = 0 := by
      unfold GatherDims.start
      rw [dif_neg (show (1 : Fin 2) ∉ ([0] : List (Fin 2)) from by decide)]
    have hk : (1 : Fin 2) ∈ (rowsDims N D R C wf).sKept :=
      (GatherDims.mem_sKept _ _).mpr ⟨show (1 : Fin 2) ∉ ([0] : List (Fin 2)) from by decide, List.not_mem_nil⟩
    rw [hs, GatherDims.batchCoord_eq_zero _ _ _ List.not_mem_nil, Nat.zero_add]
    unfold GatherDims.offCoord
    rw [dif_pos hk]
    rfl

/-! ## The wrapper at an in-range index -/

/-- The wrap of a negative index leaves a non-negative one alone. -/
theorem wrap_select_of_nonneg {w : Nat} (a n : BitVec w) (h : 0 ≤ a.toInt) :
    Scalar.select (IntOp.cmpi .slt a 0#w) (IntOp.addi a n) a = a := by
  have hne : IntOp.cmpi .slt a 0#w ≠ 1#1 := fun e => by
    have := IntOp.cmpi_slt.1 e
    rw [BitVec.toInt_zero] at this
    omega
  unfold Scalar.select
  exact if_neg hne

/-- The range mask `lo ≤ a ∧ a ≤ hi` (signed) is 1 at an index in range. -/
theorem range_mask_one {w : Nat} (a lo hi : BitVec w) (h0 : lo.toInt ≤ a.toInt) (h1 : a.toInt ≤ hi.toInt) :
    IntOp.andi (IntOp.cmpi .sge a lo) (IntOp.cmpi .sle a hi) = 1#1 :=
  IntOp.andi_eq_one.2 ⟨IntOp.cmpi_sge.2 h0, IntOp.cmpi_sle.2 h1⟩

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hf =>
    foldl_andi_of_all f l _ (IntOp.andi_eq_one.2 ⟨h, hf a (List.mem_cons_self ..)⟩) (fun n hn => hf n (List.mem_cons_of_mem _ hn))

/-- A `stablehlo.reduce` by `and` from the initial value 1 of an array of ones is 1 at every index. -/
theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_of_all x _ _ hi (fun n _ => hx n)

end Cert.Lib.TakeRows

end
-- ==== Proof.RowGather.lean ====
/-
  The row gather read at an index. A table `[N, D]` gathered at a column `[R, 1]` of start positions, with the row axis
  collapsed, the column axis an offset axis of slice size `D`, and the start position naming the row axis alone, has
  result `[R, D]`. Its element `(r, c)` is the table at row `idx[r, 0]` — read as a signed integer and clamped into
  `[0, N − 1]`, as every start position of a gather is clamped so that the slice fits — and column `c`: on the row
  axis the operand coordinate is the clamped start (no batching coordinate, and no offset, the axis being collapsed);
  on the column axis the start is `0` (the start position does not name it) and the offset is the result's second
  coordinate.
-/
import Idealize.ShloMosaic.Lib.ValueIdx
import Idealize.ShloMosaic.PureOps.ShapeOps

noncomputable section

namespace Cert.RowGather

open Idealize.ShloMosaic Idealize.ShloMosaic.ValueIdx

variable {α : Type}

/-- The dimension numbers of a row gather for an operand `[N, D]`, start positions `[R, 1]` and result `[R, D]`;
    their conditions `wf` are decided on a program's literal shapes. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-positions index `[r, 0]` of result index `(r, c)`. -/
abbrev startIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather read at `(r, c)`: the table at row `idx[r, 0]`, read signed and clamped into `[0, N − 1]`, and
    column `c`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (startIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = startIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have hs : (rowDims N D R wf).start y idx 1 = 0 := by
      unfold GatherDims.start
      rw [dif_neg (show (1 : Fin 2) ∉ ([0] : List (Fin 2)) from by decide)]
    have hk : (1 : Fin 2) ∈ (rowDims N D R wf).sKept :=
      (GatherDims.mem_sKept _ _).mpr ⟨show (1 : Fin 2) ∉ ([0] : List (Fin 2)) from by decide, List.not_mem_nil⟩
    rw [hs, GatherDims.batchCoord_eq_zero _ _ _ List.not_mem_nil, Nat.zero_add]
    unfold GatherDims.offCoord
    rw [dif_pos hk]
    rfl

end Cert.RowGather

end
-- ==== Proof.RefRun.lean ====
/-
  The lookup program's run. Its entry function calls the row-lookup helper, which calls the three-way choice helper; a
  call means the callee's body executed on the operands, so with both bodies substituted at their call sites the entry
  function is one straight line of twenty-three array operations, each writing a buffer of its own: the index vector
  with negative entries moved up by the number of table rows, that vector as a column of start positions, the test
  that every start position lies between zero and the last row (a conjunction reduced along the unit axis), the rows
  gathered at the start positions, and the choice, entry by entry, between the gathered value where the test holds and
  a fill constant where it does not. A straight line of array operations terminates with every buffer at the
  composition of the operations' functions over the initial contents; read at the result buffer that composition is
  the term `val` below of the two argument arrays, and the argument buffers are written by no operation.
-/
import proofs.«205415_g38302518346492_cont_8to1_b_1778_12_alg».proof.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The composed term -/

/-- The index vector with every negative entry moved up by 128, the number of table rows. -/
def wrapped (x : IVec S16384 32) : IVec S16384 32 :=
  select (cmpi .slt x (broadcastInDim S16384 ![] bcast_S_S16384 (constantI S_ 32 0#32)))
    (addi x (broadcastInDim S16384 ![] bcast_S_S16384 (constantI S_ 32 128#32))) x

/-- The same as a column: one start position per result row. -/
def starts (x : IVec S16384 32) : IVec S16384x1 32 :=
  broadcastInDim S16384x1 ![0] bcast_S16384_S16384x1_0 (wrapped x)

/-- Per result row, whether its start position lies between 0 and 127 (signed): the conjunction of the two
    comparisons, reduced by "and" along the unit axis. -/
def inRange (x : IVec S16384 32) : IVec S16384 1 :=
  Host.reduce IntOp.andi
    (andi (cmpi .sge (starts x) (broadcastInDim S16384x1 ![] bcast_S_S16384x1 (constantI S_ 32 0#32)))
      (cmpi .sle (starts x)
        (broadcastInDim S16384x1 ![0, 1] bcast_S1x1_S16384x1_0_1
          (broadcastInDim S1x1 ![1] bcast_S1_S1x1_1 (constantI S1 32 127#32)))))
    (constantI S_ 1 1#1) reducesTo_S16384x1_S16384_d1 h_S_

/-- The result: the gathered rows where the start position is in range, the fill constant elsewhere. -/
def val (x : IVec S16384 32) (tbl : FVec F S128x128 .f32) : FVec F S16384x128 .f32 :=
  select (broadcastInDim S16384x128 ![0] bcast_S16384_S16384x128_0 (inRange x))
    (Host.gather gather_S128x128_S16384x1_S16384x128_1_0_n_n_0_1_1128 tbl (starts x))
    (broadcastInDim S16384x128 ![] bcast_S_S16384x128 (constant S_ .f32 0x7FC00000#32))

/-! ## The straight line -/

/-- The entry function's twenty-three operations in order, the two helpers' bodies at their call sites. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 128#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 127#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S128x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The entry function is that straight line: both helpers' definitions unfolded at their calls, sequencing
    reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- The composition read at the result buffer is `val` of the argument buffers' contents: each operation's result at
    its own buffer is its function of its operands' buffers, at any other buffer what was there; what remains is the
    same term up to the transport of contents along each buffer's type, the identity at these literal buffers. The
    reduction and the gather stay folded meanwhile (the equation never looks inside them). -/
theorem out_eq (V : Valuation τ sig (Elt F)) :
    after ops V (main_v0 : DevRef τ sig) = val (V (main_arg0 : DevRef τ sig)) (V (main_arg1 : DevRef τ sig)) := by
  after_results
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of the entry function
    terminates with the result buffer at `val` of the two argument arrays and the argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefValue.lean ====
/-
  The lookup program's value on the domain of the claim. Every index word lies between 0 and 127, so: it is not
  negative and the move up by 128 leaves it alone; as a start position it passes both range comparisons, so the test
  reduced along the unit axis is 1 in every row and the choice takes the gathered value everywhere (the fill constant
  is never read); and the clamp of the gather into [0, 127] is the identity on it, as is the reduction modulo 128 in
  the specification. Entry (r, c) of the result is therefore entry (x r, c) of the table: the specification's lookup.
  The run then ends with the result buffer at that lookup of the two argument arrays, which are unchanged.
-/
import proofs.«205415_g38302518346492_cont_8to1_b_1778_12_alg».proof.Defs
import proofs.«205415_g38302518346492_cont_8to1_b_1778_12_alg».proof.Proof.Spec
import proofs.«205415_g38302518346492_cont_8to1_b_1778_12_alg».proof.Proof.PreRange
import proofs.«205415_g38302518346492_cont_8to1_b_1778_12_alg».proof.Proof.LibTakeRows
import proofs.«205415_g38302518346492_cont_8to1_b_1778_12_alg».proof.Proof.RowGather
import proofs.«205415_g38302518346492_cont_8to1_b_1778_12_alg».proof.Proof.RefRun

noncomputable section

namespace Cert.ReferenceIdeal.RefValue

open Cert.ReferenceIdeal Cert.ReferenceIdeal.Facts₀ Idealize.ShloMosaic Idealize.ShloMosaic.ValueIdx Idealize.SL.Sem

variable {F : FTy → Type} [FloatOps F] [Cert.ReferenceIdeal.Facts]

/-- A word below 128 reads the same signed and unsigned: its signed reading lies between 0 and 127. -/
theorem toInt_of_lt (w : BitVec 32) (h : w.toNat < 128) : w.toInt = (w.toNat : Int) :=
  BitVec.toInt_eq_toNat_of_lt (by omega)

/-- On the domain every entry of the index vector reads, signed, between 0 and 127. -/
theorem bounds (x : IVec S16384 32) (hx : ∀ r : Fin 16384, (x (ix1 r)).toNat < 128) (k : S16384.Idx) :
    (0#32 : BitVec 32).toInt ≤ (x k).toInt ∧ (x k).toInt ≤ (127#32 : BitVec 32).toInt := by
  have h : (x k).toNat < 128 := by rw [eq_ix1 k]; exact hx (k 0)
  have e0 : (0#32 : BitVec 32).toInt = 0 := by decide
  have e1 : (127#32 : BitVec 32).toInt = 127 := by decide
  rw [e0, e1, toInt_of_lt _ h]
  omega

/-- No entry is negative, so none is moved. -/
theorem wrapped_eq (x : IVec S16384 32) (hx : ∀ r : Fin 16384, (x (ix1 r)).toNat < 128) : wrapped x = x := by
  funext k
  show Scalar.select (IntOp.cmpi .slt (x k) 0#32) (IntOp.addi (x k) 128#32) (x k) = x k
  refine Cert.Lib.TakeRows.wrap_select_of_nonneg _ _ ?_
  have := (bounds x hx k).1
  rwa [show (0#32 : BitVec 32).toInt = 0 from by decide] at this

/-- Every start position is an entry of the index vector. -/
theorem starts_apply (x : IVec S16384 32) (hx : ∀ r : Fin 16384, (x (ix1 r)).toNat < 128) (i : S16384x1.Idx) :
    starts x i = x (ix1 (i 0)) := by
  unfold starts
  rw [wrapped_eq x hx]
  unfold broadcastInDim
  congr 1
  funext a
  match a with
  | ⟨0, _⟩ => rfl

/-- Every row's start position passes the range test. -/
theorem inRange_one (x : IVec S16384 32) (hx : ∀ r : Fin 16384, (x (ix1 r)).toNat < 128) (k : S16384.Idx) :
    inRange x k = 1#1 := by
  unfold inRange
  refine Cert.Lib.TakeRows.reduce_andi_of_all _ _ _ _ rfl (fun i => ?_) k
  show IntOp.andi (IntOp.cmpi .sge (starts x i) 0#32) (IntOp.cmpi .sle (starts x i) 127#32) = 1#1
  rw [starts_apply x hx i]
  exact Cert.Lib.TakeRows.range_mask_one _ _ _ (bounds x hx _).1 (bounds x hx _).2

/-- THE VALUE: on the domain the program's result is the specification's lookup. -/
theorem val_eq (x : IVec S16384 32) (tbl : FVec F S128x128 .f32) (hx : ∀ r : Fin 16384, (x (ix1 r)).toNat < 128) :
    val x tbl = Cert.Spec.G x tbl := by
  funext j
  unfold val
  rw [select_apply]
  have hm : broadcastInDim S16384x128 ![0] bcast_S16384_S16384x128_0 (inRange x) j = 1#1 := inRange_one x hx _
  rw [hm, select_one]
  show Host.gather (Cert.RowGather.rowDims 128 128 16384 gather_S128x128_S16384x1_S16384x128_1_0_n_n_0_1_1128_wf) tbl (starts x) j = _
  rw [Cert.RowGather.gather_row_apply (by norm_num)]
  show tbl _ = tbl _
  refine congrArg tbl ?_
  have hr := hx (j 0)
  funext a
  match a with
  | ⟨0, _⟩ =>
    refine Fin.ext ?_
    show min (starts x (Cert.RowGather.startIdx j)).toInt.toNat (128 - 1) = (x (ix1 (j 0))).toNat % 128
    rw [starts_apply x hx]
    show min (x (ix1 (j 0))).toInt.toNat (128 - 1) = (x (ix1 (j 0))).toNat % 128
    rw [toInt_of_lt _ hr, Int.toNat_natCast, Nat.mod_eq_of_lt hr]
    omega
  | ⟨1, _⟩ => rfl

/-- THE RUN, on the domain: the result buffer ends at the specification's lookup of the two argument arrays, which
    end unchanged. -/
theorem run_spec [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
          = Cert.Spec.G (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans (val_eq _ _ (Cert.PreRange.range_of_pre (F := Ideal) _ _ (hpre c))), (h c).2⟩)
    (run (F := Ideal) m g)

end Cert.ReferenceIdeal.RefValue

end
-- ==== Proof.KI.Setup.lean ====
/-
  The idealized kernel as the SparseCore launch theorem sees it, and the ghost state of its protocol.

  Thirty-two tasks (two SparseCores of sixteen tiles) each look up 512 consecutive entries of the index vector. On each
  SparseCore, tile 0 copies the whole table into the SparseCore's shared memory and waits for the copy; then all sixteen
  tiles meet at the subcore barrier, after which every tile gathers rows out of the shared copy. Ownership follows the
  data: tile 0 is handed the shared buffer whole, writes it, and at the barrier gives one read share of it — at the
  table's contents — to each tile's round (its own included); a tile leaving the barrier collects the share tile 0 left
  in its round. The barrier cells are rounds cells with one round of sixteen unit duties, tile 0's duty carrying the share.
-/
import proofs.«205415_g38302518346492_cont_8to1_b_1778_12_alg».proof.KernelIdeal
import proofs.«205415_g38302518346492_cont_8to1_b_1778_12_alg».proof.Proof.Gen.KernelIdeal
import proofs.«205415_g38302518346492_cont_8to1_b_1778_12_alg».proof.Proof.Gen.KernelIdeal.Skeleton
import proofs.«205415_g38302518346492_cont_8to1_b_1778_12_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem nSub_eq : τ.nSub = 16 := rfl
theorem nSC_eq : τ.nSC = 2 := rfl

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The table's launch contents, as contents of a SparseCore's shared copy (the two buffers have one type). -/
abbrev tblSh (d : Dev nD) (c : Fin τ.nSC) : Buf (Elt F) (shLoc d c) := m (tLoc d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of its SparseCore's shared copy, at the table's contents. -/
abbrev shTok (d : Dev nD) (c : Fin τ.nSC) (j : Fin 16) : sProp 𝕄 := shLoc d c ↦{shareTok fullShare 16 j} tblSh m d c

/-- What a duty in tile `j`'s round hands over: tile 0's, tile `j`'s read share of the shared copy; the others', nothing. -/
def bPay (g : GSem nD τ sig) (n : ℕ) : sProp 𝕄 :=
  match g with
  | ((d, .scVector c j), _) => if n = 0 then shTok m d c (Fin.cast nSub_eq j) else iprop(emp)
  | _ => iprop(emp)

/-- The barrier cells' schedule: one round on each, of one unit duty per tile of the SparseCore (named by its number),
    tile 0's handing over the round's owner's read share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KI

end
-- ==== Proof.KI.Pay.lean ====
/-
  What travels with the launch's handshakes. The index vector and the table are only read: each SparseCore takes half of
  the full permission on each, a task a sixteenth-part token of its SparseCore's half of the index vector, and tile 0 of a
  SparseCore that SparseCore's half of the table together with the shared buffer whole. The result array is written in
  disjoint pieces: task (c, i) owns the eight 64-row chunks starting at row 1024 i + 512 c, at the launch contents going
  in and at the lookup's values coming back. Coming back, every task also returns its read share of the shared copy, and
  tile 0 the remainder, so that the shared buffer is whole again for the sequencer.
-/
import proofs.«205415_g38302518346492_cont_8to1_b_1778_12_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_one : grid0.bound 1 = 16 := rfl
theorem bound_zero : grid0.bound 0 = 2 := rfl
abbrev jL (L : grid0.Coords) : Fin 16 := Fin.cast bound_one (L 1)

/-- A SparseCore's half of a read-only array's permission. -/
def coreShare (c : Fin τ.nSC) : PosShare TreeShare := if c.val = 0 then fullShare.left else fullShare.right

/-- Chunk `k` of the task at `L`: rows `1024 (L 1) + 512 (L 0) + 64 k` and the next 63, as the task slices the result. -/
abbrev oSl (L : grid0.Coords) (k : Fin 8) : Memref sig .scVector .hbm S64x128 .f32 :=
  (oV).slice (Rect.unit (s := S16384x128) (k0_off3 L (BitVec.ofNat 32 (64 * k.val))) S64x128.size (k0_off3_inb L k)) (fun _ => rfl)

/-- The lookup of the launch contents: what the result array must hold at the end. -/
abbrev Gout (d : Dev nD) : Buf (Elt F) (oLoc d) := Cert.Spec.G (m (xLoc d)) (m (tLoc d))

variable [FloatOps F]

abbrev xCore (d : Dev nD) (c : Fin τ.nSC) : sProp 𝕄 := xLoc d ↦{coreShare c} m (xLoc d)
abbrev xTile (d : Dev nD) (L : grid0.Coords) : sProp 𝕄 := xLoc d ↦{shareTok (coreShare (cV L)) 16 (jL L)} m (xLoc d)
abbrev xRest (d : Dev nD) (c : Fin τ.nSC) : sProp 𝕄 := xLoc d ↦{shareDrop (coreShare c) 16} m (xLoc d)
abbrev tCore (d : Dev nD) (c : Fin τ.nSC) : sProp 𝕄 := tLoc d ↦{coreShare c} m (tLoc d)
abbrev oChunk (d : Dev nD) (L : grid0.Coords) (k : Fin 8) (f : Buf (Elt F) (oLoc d)) : sProp 𝕄 := oLoc d ↦[(oSl L k).view.set]{fullShare} f
abbrev oTask (d : Dev nD) (L : grid0.Coords) (f : Buf (Elt F) (oLoc d)) : sProp 𝕄 := bigSep Finset.univ fun k : Fin 8 => oChunk d L k f
abbrev shAll (d : Dev nD) (c : Fin τ.nSC) : sProp 𝕄 := iprop(∃ f, shLoc d c ↦{fullShare} f)
abbrev shRest (d : Dev nD) (c : Fin τ.nSC) : sProp 𝕄 := shLoc d c ↦{shareDrop fullShare 16} tblSh m d c

/-- What the task at `L` is handed. -/
def goL (d : Dev nD) (L : grid0.Coords) : sProp 𝕄 :=
  iprop(xTile m d L ∗ oTask d L (m (oLoc d)) ∗ if (L 1).val = 0 then iprop(tCore m d (cV L) ∗ shAll d (cV L)) else iprop(emp))
/-- What it hands back. -/
def tdL (d : Dev nD) (L : grid0.Coords) : sProp 𝕄 :=
  iprop(xTile m d L ∗ oTask d L (Gout m d) ∗ shTok m d (cV L) (jL L) ∗ if (L 1).val = 0 then iprop(tCore m d (cV L) ∗ shRest m d (cV L)) else iprop(emp))
/-- What a SparseCore's sequencer is handed for the call, and hands back. -/
def stC (d : Dev nD) (c : Fin (grid0.bound 0)) : sProp 𝕄 :=
  iprop(xCore m d (c.castLE hcore0) ∗ tCore m d (c.castLE hcore0) ∗ bigSep Finset.univ fun i : Fin (grid0.bound 1) => oTask d (coordsV c i) (m (oLoc d)))
def dnC (d : Dev nD) (c : Fin (grid0.bound 0)) : sProp 𝕄 :=
  iprop(xCore m d (c.castLE hcore0) ∗ tCore m d (c.castLE hcore0) ∗ bigSep Finset.univ fun i : Fin (grid0.bound 1) => oTask d (coordsV c i) (Gout m d))

instance goL_storable (d : Dev nD) (L : grid0.Coords) : BI.Storable (upEmb : UEmb _ 𝕄) (goL m d L) := by
  unfold goL; split <;> infer_instance
instance tdL_storable (d : Dev nD) (L : grid0.Coords) : BI.Storable (upEmb : UEmb _ 𝕄) (tdL m d L) := by
  unfold tdL; split <;> infer_instance
instance stC_storable (d : Dev nD) (c : Fin (grid0.bound 0)) : BI.Storable (upEmb : UEmb _ 𝕄) (stC m d c) := by
  unfold stC; infer_instance
instance dnC_storable (d : Dev nD) (c : Fin (grid0.bound 0)) : BI.Storable (upEmb : UEmb _ 𝕄) (dnC m d c) := by
  unfold dnC; infer_instance

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goL m d (coordsV (Fin.cast nCore_zero c) (Fin.cast nSub_zero i))
  td := fun q d c i => match q with | 0 => tdL m d (coordsV (Fin.cast nCore_zero c) (Fin.cast nSub_zero i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with | 0 => stC_storable m d _
  dn q d c := match q with | 0 => dnC_storable m d _
  go q d c i := match q with | 0 => goL_storable m d _
  td q d c i := match q with | 0 => tdL_storable m d _

/-- The body obligation of one task, at a symbolic grid point: from what the task is handed, its barrier kit and its
    own scratch and semaphores, the kernel function runs to the end, faulting nowhere, and leaves what the task hands
    back. (It is stated beside what the handshakes carry, which it speaks of.) -/
def TileBody : Prop :=
  ∀ (d : Dev nD) (L : grid0.Coords) (_ : (K (F := F)).Facts) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L) ∗ goL m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L xV (Memref.isWhole_whole _) tV (Memref.isWhole_whole _) oV (Memref.isWhole_whole _) iV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0)
          fun _ => iprop(tdL m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KI

end
-- ==== Proof.KI.Chunks.lean ====
/-
  The result array is the disjoint union of the tasks' chunks. Chunk k of the task at grid point (c, i) is the 64 rows
  from row 1024 i + 512 c + 64 k on, every column; as (c, i, k) runs over 2 × 16 × 8 the first rows run over the
  multiples of 64 below 16384, each once, so the chunks are pairwise disjoint and cover every row.
-/
import proofs.«205415_g38302518346492_cont_8to1_b_1778_12_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

/-- The chunks' index: SparseCore, tile, chunk. -/
abbrev CIK : Type := Fin (grid0.bound 0) × Fin (grid0.bound 1) × Fin 8

/-- The elements of chunk `t.2.2` of the task at `(t.1, t.2.1)`. -/
abbrev cSet (t : CIK) : Finset S16384x128.Idx := (oSl (coordsV t.1 t.2.1) t.2.2).view.set

/-- An element lies in a chunk exactly if its row lies in the chunk's 64 rows. -/
theorem mem_oSl (L : grid0.Coords) (k : Fin 8) (x : S16384x128.Idx) :
    x ∈ (oSl L k).view.set ↔ 1024 * (L 1).val + 512 * (L 0).val + 64 * k.val ≤ (x 0).val ∧ (x 0).val < 1024 * (L 1).val + 512 * (L 0).val + 64 * k.val + 64 := by
  show x ∈ ((View.whole (main_v0_scv : Ref sig .scVector)).slice
      (Rect.unit (s := S16384x128) (k0_off3 L (BitVec.ofNat 32 (64 * k.val))) S64x128.size (k0_off3_inb L k))).set ↔ _
  rw [View.set_slice_whole, Rect.mem_set_unit, k0_off3_eq]
  have h1 : (x 1).val < 128 := (x 1).isLt
  refine ⟨fun h => h 0, fun h => Fin.forall_fin_two.mpr ⟨h, Nat.zero_le _, ?_⟩⟩
  show (x 1).val < 0 + 128
  omega

theorem mem_cSet (t : CIK) (x : S16384x128.Idx) :
    x ∈ cSet t ↔ 1024 * t.2.1.val + 512 * t.1.val + 64 * t.2.2.val ≤ (x 0).val ∧ (x 0).val < 1024 * t.2.1.val + 512 * t.1.val + 64 * t.2.2.val + 64 :=
  mem_oSl (coordsV t.1 t.2.1) t.2.2 x

theorem cSet_disjoint : ∀ t ∈ (Finset.univ : Finset CIK), ∀ t' ∈ (Finset.univ : Finset CIK), t ≠ t' → Disjoint (cSet t) (cSet t') := by
  rintro ⟨c, i, k⟩ - ⟨c', i', k'⟩ - hne
  rw [Finset.disjoint_left]
  intro x hx hx'
  rw [mem_cSet] at hx hx'
  have hc : c.val < 2 := c.isLt
  have hc' : c'.val < 2 := c'.isLt
  have hi : i.val < 16 := i.isLt
  have hi' : i'.val < 16 := i'.isLt
  have hk : k.val < 8 := k.isLt
  have hk' : k'.val < 8 := k'.isLt
  dsimp only at hx hx'
  apply hne
  have e1 : c.val = c'.val := by omega
  have e2 : i.val = i'.val := by omega
  have e3 : k.val = k'.val := by omega
  rw [Fin.ext e1, Fin.ext e2, Fin.ext e3]

theorem cSet_cover : (Finset.univ : Finset CIK).biUnion cSet = Finset.univ := by
  ext x
  simp only [Finset.mem_biUnion, Finset.mem_univ, true_and, iff_true]
  have hx : (x 0).val < 16384 := (x 0).isLt
  refine ⟨(⟨(x 0).val % 1024 / 512, by show _ < 2; omega⟩, ⟨(x 0).val / 1024, by show _ < 16; omega⟩, ⟨(x 0).val % 512 / 64, by omega⟩), ?_⟩
  rw [mem_cSet]
  dsimp only
  omega

/-- The result array whole is every task's eight chunks. -/
theorem oPts_chunks (d : Dev nD) (f : Buf (Elt F) (oLoc d)) :
    (oLoc d ↦{fullShare} f : sProp 𝕄)
      = bigSep Finset.univ fun c : Fin (grid0.bound 0) => bigSep Finset.univ fun i : Fin (grid0.bound 1) => oTask d (coordsV c i) f := by
  have h : (oLoc d ↦[(Finset.univ : Finset CIK).biUnion cSet]{fullShare} f : sProp 𝕄) = bigSep Finset.univ fun t : CIK => oLoc d ↦[cSet t]{fullShare} f :=
    pointsTo_biUnion (ℓ := oLoc d) (q := fullShare) (f := f) (Finset.univ : Finset CIK) cSet cSet_disjoint
  rw [cSet_cover] at h
  refine h.trans ((bigSep_univ_prod _).trans (bigSep_congr fun c _ => ?_))
  exact bigSep_univ_prod _

end Cert.Proof.KI

end
-- ==== Proof.KI.Launch.lean ====
/-
  The launch of the idealized kernel: from the proof of one task's body, every weakly fair execution of the whole
  program — the TensorCore's @main, the two sequencers, the thirty-two tiles — terminates with the result array holding
  the lookup of the launch contents and the two arguments unchanged. The index vector and the table are read-only and
  travel as fractional permissions: each SparseCore takes half, each task a sixteenth-part token of its SparseCore's
  half of the index vector, tile 0 its SparseCore's half of the table and the shared buffer whole. The result array is
  split into the tasks' chunks and put together again from them.
-/
import proofs.«205415_g38302518346492_cont_8to1_b_1778_12_alg».proof.Proof.KI.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ) (ρ : Dev nD → PrngReg)

variable [FloatOps F]

/-! ## The obligation -/

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) tV (Memref.isWhole_whole _) oV (Memref.isWhole_whole _) iV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0) ⟨⟩ c s := rfl

set_option maxRecDepth 16384 in
theorem tileObl (hbody : TileBody m) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev

/-! ## A SparseCore's operands split among its tasks, and the results gather -/

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared buffer is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Tile `j`'s token of SparseCore `c`'s half of the index vector. -/
abbrev xTok (d : Dev nD) (c : Fin τ.nSC) (j : Fin 16) : sProp 𝕄 := xLoc d ↦{shareTok (coreShare c) 16 j} m (xLoc d)

omit [FloatOps F] in
/-- A family over the tiles that is `emp` off tile 0 is its member at tile 0. -/
theorem bigSep_tile0 (X : sProp 𝕄) : (bigSep Finset.univ fun i : Fin (grid0.bound 1) => if i.val = 0 then X else iprop(emp)) = X := by
  rw [bigSep_univ_at _ (⟨0, by decide⟩ : Fin (grid0.bound 1)),
    bigSep_congr (s := Finset.univ.erase (⟨0, by decide⟩ : Fin (grid0.bound 1))) (Φ := fun i : Fin (grid0.bound 1) => if i.val = 0 then X else iprop(emp))
      (Ψ := fun _ => (iprop(emp) : sProp 𝕄)) fun i hi => if_neg fun h => (Finset.mem_erase.mp hi).1 (Fin.ext h), bigSep_emp', if_pos rfl]
  exact BI.equiv_iff.mp sep_emp

theorem goL_eq (d : Dev nD) (c : Fin (grid0.bound 0)) (i : Fin (grid0.bound 1)) :
    goL m d (coordsV c i) = iprop(xTok m d (c.castLE hcore0) i ∗ oTask d (coordsV c i) (m (oLoc d))
      ∗ if i.val = 0 then iprop(tCore m d (c.castLE hcore0) ∗ shAll d (c.castLE hcore0)) else iprop(emp)) := rfl
theorem tdL_eq (d : Dev nD) (c : Fin (grid0.bound 0)) (i : Fin (grid0.bound 1)) :
    tdL m d (coordsV c i) = iprop(xTok m d (c.castLE hcore0) i ∗ oTask d (coordsV c i) (Gout m d) ∗ shTok m d (c.castLE hcore0) i
      ∗ if i.val = 0 then iprop(tCore m d (c.castLE hcore0) ∗ shRest m d (c.castLE hcore0)) else iprop(emp)) := rfl

theorem gos_eq (d : Dev nD) (c : Fin (grid0.bound 0)) : (bigSep Finset.univ fun i : Fin (grid0.bound 1) => goL m d (coordsV c i))
    = iprop((bigSep Finset.univ fun j : Fin 16 => xTok m d (c.castLE hcore0) j)
        ∗ (bigSep Finset.univ fun i : Fin (grid0.bound 1) => oTask d (coordsV c i) (m (oLoc d)))
        ∗ iprop(tCore m d (c.castLE hcore0) ∗ shAll d (c.castLE hcore0))) := by
  refine (bigSep_congr (s := Finset.univ) fun i _ => goL_eq m d c i).trans ?_
  rw [bigSep_sep', bigSep_sep', bigSep_tile0]
  rfl
theorem tds_eq (d : Dev nD) (c : Fin (grid0.bound 0)) : (bigSep Finset.univ fun i : Fin (grid0.bound 1) => tdL m d (coordsV c i))
    = iprop((bigSep Finset.univ fun j : Fin 16 => xTok m d (c.castLE hcore0) j)
        ∗ (bigSep Finset.univ fun i : Fin (grid0.bound 1) => oTask d (coordsV c i) (Gout m d))
        ∗ (bigSep Finset.univ fun j : Fin 16 => shTok m d (c.castLE hcore0) j)
        ∗ iprop(tCore m d (c.castLE hcore0) ∗ shRest m d (c.castLE hcore0))) := by
  refine (bigSep_congr (s := Finset.univ) fun i _ => tdL_eq m d c i).trans ?_
  rw [bigSep_sep', bigSep_sep', bigSep_sep', bigSep_tile0]
  rfl

/-- One SparseCore's split: each task its token of the index vector and its chunks, tile 0 also the table's half and
    the shared buffer; the rest of the index vector's half is kept for the way back, where the tokens rejoin it, the
    tasks' read shares of the shared copy rejoin tile 0's remainder, and the chunks come back at the lookup's values. -/
theorem vec_core (d : Dev nD) (c : Fin (grid0.bound 0)) :
    iprop(stC m d c ∗ shAll d (c.castLE hcore0)) ⊢ iprop((bigSep Finset.univ fun i : Fin (grid0.bound 1) => goL m d (coordsV c i))
      ∗ ((bigSep Finset.univ fun i : Fin (grid0.bound 1) => tdL m d (coordsV c i)) -∗ iprop(dnC m d c ∗ shAll d (c.castLE hcore0)))) := by
  rw [gos_eq, tds_eq]
  unfold stC dnC
  iintro ⟨⟨Hx, Ht, Ho⟩, Hsh⟩
  ihave Hx' := (Transfers.pointsTo_toks_split (coreShare (c.castLE hcore0)) 16) $$ Hx
  icases Hx' with ⟨Hxr, Hxt⟩
  isplitl [Hxt Ho Ht Hsh]
  · isplitl [Hxt]; · iexact Hxt
    isplitl [Ho]; · iexact Ho
    isplitl [Ht]; · iexact Ht
    iexact Hsh
  iintro ⟨Hxt, Ho, Hst, Ht, Hsr⟩
  isplitl [Hxr Hxt Ho Ht]
  · isplitl [Hxr Hxt]
    · iapply (Transfers.pointsTo_toks_join (coreShare (c.castLE hcore0)) 16)
      isplitl [Hxr]; · iexact Hxr
      iexact Hxt
    isplitl [Ht]; · iexact Ht
    iexact Ho
  iexists (tblSh m d (c.castLE hcore0))
  iapply (Transfers.pointsTo_toks_join fullShare 16)
  isplitl [Hsr]; · iexact Hsr
  iexact Hst

theorem vecSplit : (K (F := F)).VecSplit (P m) 0 := by
  intro d c
  show iprop(stC m d (Fin.cast nCore_zero c) ∗ ownBufs (S d (coreOf c))) ⊢ |={Set.univ}=> iprop(
      (bigSep Finset.univ fun i : Fin ((K (F := F)).nSub 0) => goL m d (coordsV (Fin.cast nCore_zero c) (Fin.cast nSub_zero i)))
      ∗ ((bigSep Finset.univ fun i : Fin ((K (F := F)).nSub 0) => tdL m d (coordsV (Fin.cast nCore_zero c) (Fin.cast nSub_zero i)))
          -∗ iprop(dnC m d (Fin.cast nCore_zero c) ∗ ownBufs (S d (coreOf c)))))
  rw [bigSep_tasks (F := F) (fun i => goL m d (coordsV (Fin.cast nCore_zero c) i)),
    bigSep_tasks (F := F) (fun i => tdL m d (coordsV (Fin.cast nCore_zero c) i)), ownBufs_S]
  iintro ⟨Hst, Hsh, Hrest⟩; imodintro
  ihave H := (vec_core m d (Fin.cast nCore_zero c)) $$ [Hst Hsh]
  · isplitl [Hst]; · iexact Hst
    iexact Hsh
  icases H with ⟨Hgo, Hw⟩
  isplitl [Hgo]; · iexact Hgo
  iintro Htd
  ihave H2 := Hw $$ Htd
  icases H2 with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(stC m d (0 : Fin 2) ∗ stC m d (1 : Fin 2)) :=
  bigSep_univ_two (fun c : Fin 2 => stC m d c)
theorem dn0_eq (d : Dev nD) : (bigSep Finset.univ fun c : Fin ((K (F := F)).nCore 0) => (P m).dn 0 d c) = iprop(dnC m d (0 : Fin 2) ∗ dnC m d (1 : Fin 2)) :=
  bigSep_univ_two (fun c : Fin 2 => dnC m d c)

/-- What the TensorCore keeps at the end: the result array at the lookup's values, the two arguments at the launch contents. -/
abbrev FIN (d : Dev nD) : sProp 𝕄 :=
  iprop((oLoc d ↦{fullShare} Gout m d) ∗ (xLoc d ↦{fullShare} m (xLoc d)) ∗ (tLoc d ↦{fullShare} m (tLoc d)))

omit [FloatOps F] in
theorem coreShare_c0 : coreShare ((0 : Fin 2).castLE hcore0) = fullShare.left := rfl
omit [FloatOps F] in
theorem coreShare_c1 : coreShare ((1 : Fin 2).castLE hcore0) = fullShare.right := rfl

omit [FloatOps F] in
/-- A whole read-only array is the two SparseCores' halves. -/
theorem halves (ℓ : Loc nD τ sig) (f : Buf (Elt F) ℓ) :
    (ℓ ↦{fullShare} f : sProp 𝕄) ⊣⊢ iprop((ℓ ↦{coreShare ((0 : Fin 2).castLE hcore0)} f) ∗ ℓ ↦{coreShare ((1 : Fin 2).castLE hcore0)} f) := by
  rw [coreShare_c0, coreShare_c1]
  exact pointsTo_share (PosShare.mem_left_op_right fullShare)

omit [FloatOps F] in
/-- The result array whole is the two SparseCores' tasks' chunks. -/
theorem oPts_cores (d : Dev nD) (f : Buf (Elt F) (oLoc d)) :
    (oLoc d ↦{fullShare} f : sProp 𝕄)
      = iprop((bigSep Finset.univ fun i : Fin (grid0.bound 1) => oTask d (coordsV (0 : Fin 2) i) f)
          ∗ bigSep Finset.univ fun i : Fin (grid0.bound 1) => oTask d (coordsV (1 : Fin 2) i) f) :=
  (oPts_chunks d f).trans (bigSep_univ_two (fun c : Fin 2 => bigSep Finset.univ fun i : Fin (grid0.bound 1) => oTask d (coordsV c i) f))

/-- The three arrays whole are the two SparseCores' operands. -/
theorem st_intro (d : Dev nD) :
    iprop((xLoc d ↦{fullShare} m (xLoc d)) ∗ (tLoc d ↦{fullShare} m (tLoc d)) ∗ oLoc d ↦{fullShare} m (oLoc d))
      ⊢ (iprop(stC m d (0 : Fin 2) ∗ stC m d (1 : Fin 2)) : sProp 𝕄) := by
  unfold stC
  iintro ⟨Hx, Ht, Ho⟩
  ihave Hx' := (halves (xLoc d) (m (xLoc d))).1 $$ Hx
  icases Hx' with ⟨Hx0, Hx1⟩
  ihave Ht' := (halves (tLoc d) (m (tLoc d))).1 $$ Ht
  icases Ht' with ⟨Ht0, Ht1⟩
  ihave Ho' := (Entails.of_eq (oPts_cores d (m (oLoc d)))) $$ Ho
  icases Ho' with ⟨Ho0, Ho1⟩
  isplitl [Hx0 Ht0 Ho0]
  · isplitl [Hx0]; · iexact Hx0
    isplitl [Ht0]; · iexact Ht0
    iexact Ho0
  isplitl [Hx1]; · iexact Hx1
  isplitl [Ht1]; · iexact Ht1
  iexact Ho1

/-- and their results are the three arrays whole, the result array at the lookup's values. -/
theorem dn_elim (d : Dev nD) : (iprop(dnC m d (0 : Fin 2) ∗ dnC m d (1 : Fin 2)) : sProp 𝕄) ⊢ FIN m d := by
  unfold dnC
  iintro ⟨⟨Hx0, Ht0, Ho0⟩, Hx1, Ht1, Ho1⟩
  isplitl [Ho0 Ho1]
  · iapply (Entails.of_eq (oPts_cores d (Gout m d)).symm)
    isplitl [Ho0]; · iexact Ho0
    iexact Ho1
  isplitl [Hx0 Hx1]
  · iapply (halves (xLoc d) (m (xLoc d))).2
    isplitl [Hx0]; · iexact Hx0
    iexact Hx1
  iapply (halves (tLoc d) (m (tLoc d))).2
  isplitl [Ht0]; · iexact Ht0
  iexact Ht1

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Hx Ht Ho]
  · rw [st0_eq]
    iapply (st_intro m d)
    isplitl [Hx]; · iexact Hx
    isplitl [Ht]; · iexact Ht
    iexact Ho
  iintro ⟨Hst, Hdn⟩
  ihave Hdn' := (Entails.of_eq (dn0_eq m d)) $$ Hdn
  ihave Hfin := (dn_elim m d) $$ Hdn'
  imodintro
  isplitl [Hst]; · iexact Hst
  iexact Hfin

def fq (d : Dev nD) (s' : Phys nD τ sig (Elt F)) : Prop :=
  s'.mem.mem (oLoc d) = Gout m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ht⟩, HSI⟩
  icombine HSI Ho gives %ho
  icombine HSI Hx gives %hx
  icombine HSI Ht gives %ht
  ipureintro
  exact ⟨funext fun i => ho i (Finset.mem_univ i), funext fun i => hx i (Finset.mem_univ i), funext fun i => ht i (Finset.mem_univ i)⟩

/-! ## The program's run -/

def QC : PUnit × MemSt nD τ sig (Elt F) → Prop := fun r =>
  ∀ c : Dev nD, r.2.mem (oLoc c) = Gout m c ∧ r.2.mem (xLoc c) = m (xLoc c) ∧ r.2.mem (tLoc c) = m (tLoc c)

theorem run_main [∀ e, Nonempty (Elt F e)] (hbody : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody facts)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.KI.Pieces.lean ====
/-
  The pieces of a task's data. The task at grid point `L` serves rows `base L` … `base L + 511`. Its index scratch is
  filled by two copies — entries 0–63 and entries 64–511 — and read by the eight gathers as eight lists of 64 entries;
  once filled, entry `j` of the scratch is entry `base L + j` of the index vector.
-/
import proofs.«205415_g38302518346492_cont_8to1_b_1778_12_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)

/-- The eight 64-entry lists of the index scratch, as the gathers slice them. -/
abbrev iP0 : Memref sig .scVector .vmem S64 .i32 := (iV).slice (Rect.unit (s := S512) ![0] S64.size inb_S512_S64_0) (fun _ => rfl)
abbrev iP1 : Memref sig .scVector .vmem S64 .i32 := (iV).slice (Rect.unit (s := S512) ![64] S64.size inb_S512_S64_64) (fun _ => rfl)
abbrev iP2 : Memref sig .scVector .vmem S64 .i32 := (iV).slice (Rect.unit (s := S512) ![128] S64.size inb_S512_S64_128) (fun _ => rfl)
abbrev iP3 : Memref sig .scVector .vmem S64 .i32 := (iV).slice (Rect.unit (s := S512) ![192] S64.size inb_S512_S64_192) (fun _ => rfl)
abbrev iP4 : Memref sig .scVector .vmem S64 .i32 := (iV).slice (Rect.unit (s := S512) ![256] S64.size inb_S512_S64_256) (fun _ => rfl)
abbrev iP5 : Memref sig .scVector .vmem S64 .i32 := (iV).slice (Rect.unit (s := S512) ![320] S64.size inb_S512_S64_320) (fun _ => rfl)
abbrev iP6 : Memref sig .scVector .vmem S64 .i32 := (iV).slice (Rect.unit (s := S512) ![384] S64.size inb_S512_S64_384) (fun _ => rfl)
abbrev iP7 : Memref sig .scVector .vmem S64 .i32 := (iV).slice (Rect.unit (s := S512) ![448] S64.size inb_S512_S64_448) (fun _ => rfl)
/-- Entries 64–511 of the index scratch, as the second index copy writes them. -/
abbrev iB : Memref sig .scVector .vmem S448 .i32 := (iV).slice (Rect.unit (s := S512) ![64] S448.size inb_S512_S448_64) (fun _ => rfl)

/-- The first row of the task at `L`. -/
def base (L : grid0.Coords) : ℕ := 1024 * (L 1).val + 512 * (L 0).val
theorem base_lt (L : grid0.Coords) (j : ℕ) (hj : j < 512) : base L + j < 16384 := by
  have h1 : (L 1).val < 16 := (L 1).isLt
  have h0 : (L 0).val < 2 := (L 0).isLt
  unfold base; omega

/-- What the task's index scratch holds once both index copies have landed: entry `j` is entry `base + j` of the index vector. -/
def idxF (d : Dev nD) (L : grid0.Coords) : Buf (Elt F) ((iV).view.loc (V d (cV L) (jV L))) :=
  fun j => (m (xLoc d) : IVec ⟨1, ![16384]⟩ 32) (ValueIdx.ix1 ⟨base L + (j 0).val, base_lt L _ (j 0).isLt⟩)

abbrev xSl2 (L : grid0.Coords) : Memref sig .scVector .hbm S64 .i32 := (xV).slice (Rect.unit (s := S16384) (k0_off2 L) S64.size (k0_off2_inb L)) (fun _ => rfl)
abbrev xSl1 (L : grid0.Coords) : Memref sig .scVector .hbm S448 .i32 := (xV).slice (Rect.unit (s := S16384) (k0_off1 L) S448.size (k0_off1_inb L)) (fun _ => rfl)

/-- A DMA semaphore of the task's thread, as a cell. -/
abbrev cellOf (d : Dev nD) (L : grid0.Coords) (s : DmaSems sig S_) : GSem nD τ sig := (V d (cV L) (jV L), .dma s.sem)

end Cert.Proof.KI

end
-- ==== Proof.KI.Own.lean ====
/-
  A task's own semaphores and buffers, opened: the thread's own cells are its seven DMA semaphores and the rest, its
  own buffers the index scratch, the two row scratches and the rest. Each equation is the big separating conjunction
  over the thread's own cells (buffers) with the named members taken out one after another.
-/
import proofs.«205415_g38302518346492_cont_8to1_b_1778_12_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

/-- A big separating conjunction over eight indices, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Cells of one thread on different semaphores are different. -/
theorem cellOf_ne (d : Dev nD) (L : grid0.Coords) {s s' : DmaSems sig S_} (h : s.sem ≠ s'.sem) : cellOf d L s ≠ cellOf d L s' :=
  fun e => h (SemLoc.dma.inj (Prod.mk.inj e).2)

/-- A scoped DMA semaphore of the task's thread is among its own cells. -/
theorem cellOf_own (d : Dev nD) (L : grid0.Coords) (s : DmaSems sig S_) (h : (SemLoc.dma s.sem : SemLoc sig).isScoped .scVector = true) :
    cellOf d L s ∈ ownCells (V d (cV L) (jV L)) :=
  (mem_ownCells (g := cellOf d L s)).mpr ⟨rfl, h⟩

/-- The thread's own cells other than its seven DMA semaphores. -/
def semsRest (d : Dev nD) (L : grid0.Coords) : Finset (GSem nD τ sig) :=
  (((((((ownCells (V d (cV L) (jV L))).erase (cellOf d L cc0_scratch4)).erase (cellOf d L cc0_scratch5)).erase (cellOf d L cc0_scratch6)).erase (cellOf d L cc0_scratch7)).erase (cellOf d L cc0_scratch8)).erase (cellOf d L cc0_scratch9)).erase (cellOf d L cc0_scoped0)

theorem ownSems0_open (d : Dev nD) (L : grid0.Coords) :
    (ownSems0 (V d (cV L) (jV L)) : sProp 𝕄)
      = iprop(semVal (cellOf d L cc0_scratch4) 0 ∗ semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scoped0) 0
          ∗ bigSep (semsRest d L) fun g => semVal g 0) := by
  unfold SparseCore.Cfg.ownSems0 semsRest
  rw [SparseCore.bigSep_erase' (cellOf_own d L cc0_scratch4 (by decide)),
    SparseCore.bigSep_erase' (Finset.mem_erase.mpr ⟨cellOf_ne d L (by decide), cellOf_own d L cc0_scratch5 (by decide)⟩),
    SparseCore.bigSep_erase' (Finset.mem_erase.mpr ⟨cellOf_ne d L (by decide), Finset.mem_erase.mpr ⟨cellOf_ne d L (by decide), cellOf_own d L cc0_scratch6 (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_own d L cc0_scratch7 (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scratch8 (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scratch9 (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scoped0 (by decide)⟩⟩⟩⟩⟩⟩)]

/-- Buffers of one processor under different names are different. -/
theorem devRef_ne (L : grid0.Coords) {b b' : Ref sig .scVector} (h : b ≠ b') :
    (Proc.scVector (cV L) (jV L)).devRef b ≠ (Proc.scVector (cV L) (jV L)).devRef b' :=
  fun e => h (Proc.devRef_injective (Proc.scVector (cV L) (jV L)) e)

/-- The thread's own buffers other than the index scratch and the two row scratches. -/
def bufsRest (L : grid0.Coords) : Finset (DevRef τ sig) :=
  (((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)

theorem ownBufs_open (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep (bufsRest L) fun b => iprop(∃ f, ((d, b) : Loc nD τ sig) ↦{fullShare} f)) := by
  unfold SparseCore.Cfg.ownBufs bufsRest
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨devRef_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨devRef_ne L (by decide), Finset.mem_erase.mpr ⟨devRef_ne L (by decide), SparseCore.Cfg.mem_ownRefs_of_owner (p := Proc.scVector (cV L) (jV L)) (b := (Proc.scVector (cV L) (jV L)).devRef cc0_scratch2) rfl⟩⟩)]

end Cert.Proof.KI

end
-- ==== Proof.KI.OutValue.lean ====
/-
  The value a task leaves in the result array. Gather `k` fills a row buffer with, at row `r` and column `c`, entry
  `(x (base + 64 k + r), c)` of the shared copy of the table — the row the `r`-th word of the `k`-th list names —, and the
  copy-out writes that buffer over chunk `k` of the task's rows, rows `base + 64 k` … `base + 64 k + 63` of the result.
  With every index word a row number of the table, that is the lookup's value on the chunk.
-/
import proofs.«205415_g38302518346492_cont_8to1_b_1778_12_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)

/-- The shared copy of the table, as the gathers slice it (whole). -/
abbrev shSl : Memref sig .scVector .shared S128x128 .f32 :=
  (shV).slice (Rect.unit (s := S128x128) ![0, 0] S128x128.size inb_S128x128_S128x128_0_0) (fun _ => rfl)

/-- The eight chunks of the task's rows of the result, as the copy-outs slice them. -/
abbrev oC0 (L : grid0.Coords) : Memref sig .scVector .hbm S64x128 .f32 := (oV).slice (Rect.unit (s := S16384x128) (k0_off3 L 0#32) S64x128.size (k0_off3_inb L 0)) (fun _ => rfl)
abbrev oC1 (L : grid0.Coords) : Memref sig .scVector .hbm S64x128 .f32 := (oV).slice (Rect.unit (s := S16384x128) (k0_off3 L 64#32) S64x128.size (k0_off3_inb L 1)) (fun _ => rfl)
abbrev oC2 (L : grid0.Coords) : Memref sig .scVector .hbm S64x128 .f32 := (oV).slice (Rect.unit (s := S16384x128) (k0_off3 L 128#32) S64x128.size (k0_off3_inb L 2)) (fun _ => rfl)
abbrev oC3 (L : grid0.Coords) : Memref sig .scVector .hbm S64x128 .f32 := (oV).slice (Rect.unit (s := S16384x128) (k0_off3 L 192#32) S64x128.size (k0_off3_inb L 3)) (fun _ => rfl)
abbrev oC4 (L : grid0.Coords) : Memref sig .scVector .hbm S64x128 .f32 := (oV).slice (Rect.unit (s := S16384x128) (k0_off3 L 256#32) S64x128.size (k0_off3_inb L 4)) (fun _ => rfl)
abbrev oC5 (L : grid0.Coords) : Memref sig .scVector .hbm S64x128 .f32 := (oV).slice (Rect.unit (s := S16384x128) (k0_off3 L 320#32) S64x128.size (k0_off3_inb L 5)) (fun _ => rfl)
abbrev oC6 (L : grid0.Coords) : Memref sig .scVector .hbm S64x128 .f32 := (oV).slice (Rect.unit (s := S16384x128) (k0_off3 L 384#32) S64x128.size (k0_off3_inb L 6)) (fun _ => rfl)
abbrev oC7 (L : grid0.Coords) : Memref sig .scVector .hbm S64x128 .f32 := (oV).slice (Rect.unit (s := S16384x128) (k0_off3 L 448#32) S64x128.size (k0_off3_inb L 7)) (fun _ => rfl)

/-- What a gather out of a table `T` over a 64-word list `idx` delivers. -/
abbrev gPay (T : S128x128.Idx → Elt F .f32) (idx : S64.Idx → Elt F .i32)
    (hin : ∀ j, (idx j).toNat < S128x128.size gathers_S128x128_S64x128.axis) : S64x128.Idx → Elt F .f32 :=
  SparseCore.gatherPayload gathers_S128x128_S64x128 T (SparseCore.rows idx rfl hin)

variable [FloatOps F]

omit [FloatOps F] in
theorem numel_S64 : S64.numel = 64 := by decide

omit [FloatOps F] in
/-- Entry `k` of a 64-word list in row-major order is its entry at index `k`. -/
theorem rowMajor_symm_S64 (k : Fin S64.numel) : S64.rowMajor.symm k = ValueIdx.ix1 (⟨k.val, numel_S64 ▸ k.isLt⟩ : Fin 64) := by
  rw [Equiv.symm_apply_eq]
  apply Fin.ext
  rw [Shape.rowMajor_val_one]

omit [FloatOps F] in
/-- A 64-word list of the index scratch starting at entry `n` reads, at `j`, entry `base + n + j` of the index vector. -/
theorem read_idx (d : Dev nD) (L : grid0.Coords) (n : ℕ) (inb : ∀ a, (![n] : Fin 1 → ℕ) a + S64.size a ≤ S512.size a) (j : S64.Idx)
    (t : Fin 16384) (ht : t.val = base L + (n + (j 0).val)) :
    View.read (Elt F) ((iV).slice (Rect.unit (s := S512) ![n] S64.size inb) (fun _ => rfl)).view (idxF m d L) j
      = (m (xLoc d) : IVec ⟨1, ![16384]⟩ 32) (ValueIdx.ix1 t) := by
  show idxF m d L (((iV).slice (Rect.unit (s := S512) ![n] S64.size inb) (fun _ => rfl)).view.emb j) = _
  unfold idxF
  refine congrArg (m (xLoc d) : IVec ⟨1, ![16384]⟩ 32) (congrArg ValueIdx.ix1 (Fin.ext ?_))
  show base L + (n + 1 * (j 0).val) = t.val
  omega

omit [FloatOps F] in
/-- The shared copy, sliced whole at offset (0, 0), reads as the table does. -/
theorem read_tbl (d : Dev nD) (c : Fin τ.nSC) (z : S128x128.Idx) :
    View.read (Elt F) shSl.view (tblSh m d c) z = (m (tLoc d) : FVec F ⟨2, ![128, 128]⟩ .f32) (ValueIdx.ix2 (z 0 : Fin 128) (z 1 : Fin 128)) := by
  show (m (tLoc d) : FVec F ⟨2, ![128, 128]⟩ .f32) (shSl.view.emb z) = _
  refine congrArg (m (tLoc d) : FVec F ⟨2, ![128, 128]⟩ .f32) (funext fun a => ?_)
  match a with
  | ⟨0, _⟩ => exact Fin.ext (show 0 + 1 * (z 0).val = (z 0).val by omega)
  | ⟨1, _⟩ => exact Fin.ext (show 0 + 1 * (z 1).val = (z 1).val by omega)

omit [FloatOps F] in
/-- One write of a whole 64-row block through a chunk, read back at the chunk's element `y`, is the payload at `y`. -/
theorem write_read_back (L : grid0.Coords) (k : Fin 8) (f : (oSl L k).view.ty.Contents (Elt F)) (w : S64x128.Idx → Elt F .f32) (y : S64x128.Idx) :
    (oSl L k).view.writes (Elt F) f [⟨Rect.whole S64x128, w⟩] ((oSl L k).view.emb y) = w y := by
  have h := View.read_writes_cons_emb (oSl L k).view f (Rect.whole S64x128) w [] y
  rw [Rect.emb_whole_apply] at h
  exact h

omit [FloatOps F] in
/-- A row buffer whose last write is a whole block reads that block's payload. -/
theorem head_read (v : View sig .scVector .vmem S64x128 .f32) (fprev : v.ty.Contents (Elt F)) (w : S64x128.Idx → Elt F .f32)
    (rest : List (View.Piece (Elt F) S64x128 .f32)) (y : S64x128.Idx) :
    View.read (Elt F) v (v.writes (Elt F) fprev (⟨Rect.whole S64x128, w⟩ :: rest)) y = w y := by
  have h := View.read_writes_cons_emb v fprev (Rect.whole S64x128) w rest y
  rw [Rect.emb_whole_apply] at h
  exact h

/-- THE VALUE of chunk `k`: the gather over the `k`-th list delivers, at row `r` and column `c`, the table's entry at the row
    that word `base + 64 k + r` of the index vector names and column `c`; the copy-out writes it at row `base + 64 k + r`,
    column `c` of the result; every index word being a row number, that is the lookup there. -/
theorem out_value_gen (hr : ∀ (d : Dev nD) (r : Fin 16384), ((m (xLoc d) : IVec ⟨1, ![16384]⟩ 32) (ValueIdx.ix1 r)).toNat < 128)
    (d : Dev nD) (L : grid0.Coords) (k : Fin 8) (n : ℕ) (hn : n = 64 * k.val)
    (inb : ∀ a, (![n] : Fin 1 → ℕ) a + S64.size a ≤ S512.size a)
    (v : View sig .scVector .vmem S64x128 .f32) (fprev : v.ty.Contents (Elt F))
    (rest : List (View.Piece (Elt F) S64x128 .f32))
    (hin : ∀ j, (View.read (Elt F) ((iV).slice (Rect.unit (s := S512) ![n] S64.size inb) (fun _ => rfl)).view (idxF m d L) j).toNat
      < S128x128.size gathers_S128x128_S64x128.axis) :
    ∀ i ∈ (oSl L k).view.set,
      ((oSl L k).view.writes (Elt F) (m (oLoc d)) [⟨Rect.whole S64x128, ReadAs.same.apply (View.read (Elt F) v
        (v.writes (Elt F) fprev (⟨Rect.whole S64x128, gPay (View.read (Elt F) shSl.view (tblSh m d (cV L)))
          (View.read (Elt F) ((iV).slice (Rect.unit (s := S512) ![n] S64.size inb) (fun _ => rfl)).view (idxF m d L)) hin⟩ :: rest)))⟩]) i
        = Gout m d i := by
  intro i hi
  obtain ⟨y, -, rfl⟩ := Finset.mem_map.mp hi
  refine (write_read_back L k (m (oLoc d)) _ y).trans ?_
  rw [ReadAs.apply_same]
  refine (head_read v fprev _ rest y).trans ?_
  refine (read_tbl m d (cV L) _).trans ?_
  -- the offsets of the chunk, in closed form
  have hoff := k0_off3_eq L k
  have hk : k.val < 8 := k.isLt
  have hy0 : (y 0).val < 64 := (y 0).isLt
  have hL1 : (L 1).val < 16 := (L 1).isLt
  have hL0 : (L 0).val < 2 := (L 0).isLt
  have hi0 : (((oSl L k).view.emb y : S16384x128.Idx) 0).val = 1024 * (L 1).val + 512 * (L 0).val + 64 * k.val + (y 0).val := by
    show (k0_off3 L (BitVec.ofNat 32 (64 * k.val))) 0 + 1 * (y 0).val = _
    rw [hoff]; show 1024 * (L 1).val + 512 * (L 0).val + 64 * k.val + 1 * (y 0).val = _; omega
  have hi1 : (((oSl L k).view.emb y : S16384x128.Idx) 1).val = (y 1).val := by
    show (k0_off3 L (BitVec.ofNat 32 (64 * k.val))) 1 + 1 * (y 1).val = _
    rw [hoff]; show 0 + 1 * (y 1).val = _; omega
  show _ = (m (tLoc d) : FVec F ⟨2, ![128, 128]⟩ .f32)
    (ValueIdx.ix2 (Cert.Spec.row (m (xLoc d)) (((oSl L k).view.emb y : S16384x128.Idx) 0)) (((oSl L k).view.emb y : S16384x128.Idx) 1))
  refine congrArg (m (tLoc d) : FVec F ⟨2, ![128, 128]⟩ .f32) ?_
  refine congr (congrArg ValueIdx.ix2 (Fin.ext ?_)) (Fin.ext ?_)
  · -- the row: the word the list names, a row number
    refine (congrArg Fin.val (Shape.Gathers.idx_axis gathers_S128x128_S64x128 _ y)).trans ?_
    show (View.read (Elt F) ((iV).slice (Rect.unit (s := S512) ![n] S64.size inb) (fun _ => rfl)).view (idxF m d L) (S64.rowMajor.symm _)).toNat = _
    rw [rowMajor_symm_S64]
    refine (congrArg BitVec.toNat (read_idx m d L n inb _ (((oSl L k).view.emb y : S16384x128.Idx) 0) ?_)).trans
      (Nat.mod_eq_of_lt (hr d _)).symm
    rw [hi0]; unfold base
    show _ = 1024 * (L 1).val + 512 * (L 0).val + (n + (y 0).val)
    omega
  · -- the column: its own
    refine (Shape.Gathers.idx_of_ne gathers_S128x128_S64x128 _ y ⟨1, by decide⟩ (by decide)).trans ?_
    rw [hi1]; rfl

theorem out_value_0 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP0).view (idxF m d L) j).toNat < S128x128.size gathers_S128x128_S64x128.axis) :
    ∀ i ∈ (oC0 L).view.set,
      ((oC0 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP0).view (idxF m d L)) hin⟩ :: rest)))⟩]) i
        = Gout m d i := by
  exact out_value_gen m hr d L ⟨0, by decide⟩ 0 rfl inb_S512_S64_0 v fprev rest hin

theorem out_value_1 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP1).view (idxF m d L) j).toNat < S128x128.size gathers_S128x128_S64x128.axis) :
    ∀ i ∈ (oC1 L).view.set,
      ((oC1 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP1).view (idxF m d L)) hin⟩ :: rest)))⟩]) i
        = Gout m d i := by
  exact out_value_gen m hr d L ⟨1, by decide⟩ 64 rfl inb_S512_S64_64 v fprev rest hin

theorem out_value_2 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP2).view (idxF m d L) j).toNat < S128x128.size gathers_S128x128_S64x128.axis) :
    ∀ i ∈ (oC2 L).view.set,
      ((oC2 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP2).view (idxF m d L)) hin⟩ :: rest)))⟩]) i
        = Gout m d i := by
  exact out_value_gen m hr d L ⟨2, by decide⟩ 128 rfl inb_S512_S64_128 v fprev rest hin

theorem out_value_3 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP3).view (idxF m d L) j).toNat < S128x128.size gathers_S128x128_S64x128.axis) :
    ∀ i ∈ (oC3 L).view.set,
      ((oC3 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP3).view (idxF m d L)) hin⟩ :: rest)))⟩]) i
        = Gout m d i := by
  exact out_value_gen m hr d L ⟨3, by decide⟩ 192 rfl inb_S512_S64_192 v fprev rest hin

theorem out_value_4 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP4).view (idxF m d L) j).toNat < S128x128.size gathers_S128x128_S64x128.axis) :
    ∀ i ∈ (oC4 L).view.set,
      ((oC4 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP4).view (idxF m d L)) hin⟩ :: rest)))⟩]) i
        = Gout m d i := by
  exact out_value_gen m hr d L ⟨4, by decide⟩ 256 rfl inb_S512_S64_256 v fprev rest hin

theorem out_value_5 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP5).view (idxF m d L) j).toNat < S128x128.size gathers_S128x128_S64x128.axis) :
    ∀ i ∈ (oC5 L).view.set,
      ((oC5 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP5).view (idxF m d L)) hin⟩ :: rest)))⟩]) i
        = Gout m d i := by
  exact out_value_gen m hr d L ⟨5, by decide⟩ 320 rfl inb_S512_S64_320 v fprev rest hin

theorem out_value_6 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP6).view (idxF m d L) j).toNat < S128x128.size gathers_S128x128_S64x128.axis) :
    ∀ i ∈ (oC6 L).view.set,
      ((oC6 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP6).view (idxF m d L)) hin⟩ :: rest)))⟩]) i
        = Gout m d i := by
  exact out_value_gen m hr d L ⟨6, by decide⟩ 384 rfl inb_S512_S64_384 v fprev rest hin

theorem out_value_7 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP7).view (idxF m d L) j).toNat < S128x128.size gathers_S128x128_S64x128.axis) :
    ∀ i ∈ (oC7 L).view.set,
      ((oC7 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP7).view (idxF m d L)) hin⟩ :: rest)))⟩]) i
        = Gout m d i := by
  exact out_value_gen m hr d L ⟨7, by decide⟩ 448 rfl inb_S512_S64_448 v fprev rest hin

end Cert.Proof.KI

end
-- ==== Proof.KI.IdxSplit.lean ====
/-
  The index scratch as ranges of entries. The elements under a unit-stride slice of the scratch form a half-open range;
  ownership of a range splits at any point of it. Hence the whole scratch is entries 0–63 together with entries 64–511,
  and entries 64–511 are seven consecutive lists of 64.
-/
import proofs.«205415_g38302518346492_cont_8to1_b_1778_12_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)

/-- The elements under a unit-stride slice of the index scratch: a half-open range of entries. -/
theorem mem_piece {off size : Fin S512.rank → ℕ} {inb : ∀ a, off a + size a ≤ S512.size a} (i : S512.Idx) :
    Iff (i ∈ (((iV).slice (Rect.unit (s := S512) off size inb) (fun _ => rfl)).view.set : Finset S512.Idx))
      (off 0 ≤ (i 0).val ∧ (i 0).val < off 0 + size 0) := by
  have e : (((iV).slice (Rect.unit (s := S512) off size inb) (fun _ => rfl)).view.set : Finset S512.Idx)
      = (Rect.unit (s := S512) off size inb).set := View.set_slice_whole cc0_scratch0 _
  refine Iff.trans (Eq.to_iff (congrArg (fun s : Finset S512.Idx => i ∈ s) e)) ?_
  refine Iff.trans Rect.mem_set_unit ?_
  exact Fin.forall_fin_one

/-- The entries of the index scratch from `a` up to (not including) `b`. -/
def rng (a b : ℕ) : Finset S512.Idx := Finset.univ.filter fun i => a ≤ (i 0).val ∧ (i 0).val < b

theorem mem_rng {a b : ℕ} {i : S512.Idx} : Iff (i ∈ rng a b) (a ≤ (i 0).val ∧ (i 0).val < b) := by
  unfold rng; rw [Finset.mem_filter]; exact ⟨fun h => h.2, fun h => ⟨Finset.mem_univ i, h⟩⟩

/-- A unit-stride slice of the index scratch holds the range from its offset on, of its size. -/
theorem piece_set {off size : Fin S512.rank → ℕ} {inb : ∀ a, off a + size a ≤ S512.size a} {a b : ℕ}
    (ha : off 0 = a) (hb : off 0 + size 0 = b) :
    (((iV).slice (Rect.unit (s := S512) off size inb) (fun _ => rfl)).view.set : Finset S512.Idx) = rng a b := by
  subst ha hb; ext i; exact (mem_piece i).trans mem_rng.symm

theorem univ_rng : (Finset.univ : Finset S512.Idx) = rng 0 512 := by
  ext i
  have h : (i 0).val < 512 := (i 0).isLt
  exact ⟨fun _ => mem_rng.mpr ⟨Nat.zero_le _, h⟩, fun _ => Finset.mem_univ i⟩

/-- Ownership of a range of the index scratch splits at any point of it. -/
theorem rng_split (d : Dev nD) (L : grid0.Coords) (f : Buf (Elt F) ((iV).view.loc (V d (cV L) (jV L)))) {a b c : ℕ}
    (hab : a ≤ b) (hbc : b ≤ c) :
    ((iV).view.loc (V d (cV L) (jV L)) ↦[rng a c]{fullShare} f : sProp 𝕄)
      = iprop(((iV).view.loc (V d (cV L) (jV L)) ↦[rng a b]{fullShare} f) ∗ ((iV).view.loc (V d (cV L) (jV L)) ↦[rng b c]{fullShare} f)) := by
  have hd : Disjoint (rng a b) (rng b c) := by
    rw [Finset.disjoint_left]; intro i h0 h1
    rw [mem_rng] at h0 h1; omega
  have hu : rng a c = rng a b ∪ rng b c := by
    ext i; rw [Finset.mem_union, mem_rng, mem_rng, mem_rng]; omega
  have h : ((iV).view.loc (V d (cV L) (jV L)) ↦[rng a b ∪ rng b c]{fullShare} f : sProp 𝕄) ⊣⊢ _ := pointsTo_union hd
  rw [hu]
  exact BI.equiv_iff.mp ⟨h.1, h.2⟩

theorem set_iP0 : ((iP0).view.set : Finset S512.Idx) = rng 0 64 := piece_set rfl rfl
theorem set_iP1 : ((iP1).view.set : Finset S512.Idx) = rng 64 128 := piece_set rfl rfl
theorem set_iP2 : ((iP2).view.set : Finset S512.Idx) = rng 128 192 := piece_set rfl rfl
theorem set_iP3 : ((iP3).view.set : Finset S512.Idx) = rng 192 256 := piece_set rfl rfl
theorem set_iP4 : ((iP4).view.set : Finset S512.Idx) = rng 256 320 := piece_set rfl rfl
theorem set_iP5 : ((iP5).view.set : Finset S512.Idx) = rng 320 384 := piece_set rfl rfl
theorem set_iP6 : ((iP6).view.set : Finset S512.Idx) = rng 384 448 := piece_set rfl rfl
theorem set_iP7 : ((iP7).view.set : Finset S512.Idx) = rng 448 512 := piece_set rfl rfl
theorem set_iB : ((iB).view.set : Finset S512.Idx) = rng 64 512 := piece_set rfl rfl

/-- The whole index scratch is its first 64 entries and the remaining 448. -/
theorem idx_split (d : Dev nD) (L : grid0.Coords) (f : Buf (Elt F) ((iV).view.loc (V d (cV L) (jV L)))) :
    ((iV).view.loc (V d (cV L) (jV L)) ↦{fullShare} f : sProp 𝕄)
      = iprop(((iP0).view.loc (V d (cV L) (jV L)) ↦[(iP0).view.set]{fullShare} f)
          ∗ ((iB).view.loc (V d (cV L) (jV L)) ↦[(iB).view.set]{fullShare} f)) := by
  show ((iV).view.loc (V d (cV L) (jV L)) ↦[(Finset.univ : Finset S512.Idx)]{fullShare} f : sProp 𝕄)
    = iprop(((iV).view.loc (V d (cV L) (jV L)) ↦[((iP0).view.set : Finset S512.Idx)]{fullShare} f)
          ∗ ((iV).view.loc (V d (cV L) (jV L)) ↦[((iB).view.set : Finset S512.Idx)]{fullShare} f))
  rw [set_iP0, set_iB, univ_rng]
  exact rng_split d L f (by omega) (by omega)

/-- Entries 64–511 of the index scratch are seven lists of 64. -/
theorem iB_split (d : Dev nD) (L : grid0.Coords) (f : Buf (Elt F) ((iV).view.loc (V d (cV L) (jV L)))) :
    ((iB).view.loc (V d (cV L) (jV L)) ↦[(iB).view.set]{fullShare} f : sProp 𝕄)
      = iprop(((iP1).view.loc (V d (cV L) (jV L)) ↦[(iP1).view.set]{fullShare} f)
          ∗ ((iP2).view.loc (V d (cV L) (jV L)) ↦[(iP2).view.set]{fullShare} f)
          ∗ ((iP3).view.loc (V d (cV L) (jV L)) ↦[(iP3).view.set]{fullShare} f)
          ∗ ((iP4).view.loc (V d (cV L) (jV L)) ↦[(iP4).view.set]{fullShare} f)
          ∗ ((iP5).view.loc (V d (cV L) (jV L)) ↦[(iP5).view.set]{fullShare} f)
          ∗ ((iP6).view.loc (V d (cV L) (jV L)) ↦[(iP6).view.set]{fullShare} f)
          ∗ ((iP7).view.loc (V d (cV L) (jV L)) ↦[(iP7).view.set]{fullShare} f)) := by
  show ((iV).view.loc (V d (cV L) (jV L)) ↦[((iB).view.set : Finset S512.Idx)]{fullShare} f : sProp 𝕄)
    = iprop(((iV).view.loc (V d (cV L) (jV L)) ↦[((iP1).view.set : Finset S512.Idx)]{fullShare} f)
          ∗ ((iV).view.loc (V d (cV L) (jV L)) ↦[((iP2).view.set : Finset S512.Idx)]{fullShare} f)
          ∗ ((iV).view.loc (V d (cV L) (jV L)) ↦[((iP3).view.set : Finset S512.Idx)]{fullShare} f)
          ∗ ((iV).view.loc (V d (cV L) (jV L)) ↦[((iP4).view.set : Finset S512.Idx)]{fullShare} f)
          ∗ ((iV).view.loc (V d (cV L) (jV L)) ↦[((iP5).view.set : Finset S512.Idx)]{fullShare} f)
          ∗ ((iV).view.loc (V d (cV L) (jV L)) ↦[((iP6).view.set : Finset S512.Idx)]{fullShare} f)
          ∗ ((iV).view.loc (V d (cV L) (jV L)) ↦[((iP7).view.set : Finset S512.Idx)]{fullShare} f))
  rw [set_iB, set_iP1, set_iP2, set_iP3, set_iP4, set_iP5, set_iP6, set_iP7,
    rng_split d L f (a := 64) (b := 128) (c := 512) (by omega) (by omega),
    rng_split d L f (a := 128) (b := 192) (c := 512) (by omega) (by omega),
    rng_split d L f (a := 192) (b := 256) (c := 512) (by omega) (by omega),
    rng_split d L f (a := 256) (b := 320) (c := 512) (by omega) (by omega),
    rng_split d L f (a := 320) (b := 384) (c := 512) (by omega) (by omega),
    rng_split d L f (a := 384) (b := 448) (c := 512) (by omega) (by omega)]

end Cert.Proof.KI

end
-- ==== Proof.KI.IdxValue.lean ====
/-
  What the index scratch holds. An index copy writes a slice of the index vector over a slice of the scratch; under a
  unit-stride slice, index `x` sits at the slice's offset plus `x`, in the scratch and in the index vector alike. So the
  first copy leaves at entries 0–63, and the second at entries 64–511, the index vector's entry `base` further on; each
  of the eight 64-entry lists then reads the index vector's entries from `base` plus its offset, and, all entries of the
  index vector being below 128, names rows of the table only.
-/
import proofs.«205415_g38302518346492_cont_8to1_b_1778_12_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)

/-- The element of the index scratch under index `x` of a unit-stride slice: the slice's offset plus `x`. -/
theorem iemb_val {off size : Fin S512.rank → ℕ} {inb : ∀ a, off a + size a ≤ S512.size a}
    (x : (Rect.unit (s := S512) off size inb).shape.Idx) :
    (((((iV).slice (Rect.unit (s := S512) off size inb) (fun _ => rfl)).view.emb x : S512.Idx)) 0).val = off 0 + (x 0).val := by
  show ((Rect.unit (s := S512) off size inb).emb x 0 : ℕ) = _
  rw [Rect.emb_apply, Rect.off_unit, Rect.stride_unit, Nat.one_mul]

/-- The element of the index vector under index `x` of a unit-stride slice: the slice's offset plus `x`. -/
theorem xemb_val {off size : Fin S16384.rank → ℕ} {inb : ∀ a, off a + size a ≤ S16384.size a}
    (x : (Rect.unit (s := S16384) off size inb).shape.Idx) :
    (((((xV).slice (Rect.unit (s := S16384) off size inb) (fun _ => rfl)).view.emb x : S16384.Idx)) 0).val = off 0 + (x 0).val := by
  show ((Rect.unit (s := S16384) off size inb).emb x 0 : ℕ) = _
  rw [Rect.emb_apply, Rect.off_unit, Rect.stride_unit, Nat.one_mul]

theorem off2_zero (L : grid0.Coords) : k0_off2 L 0 = base L := by rw [k0_off2_eq]; rfl
theorem off1_zero (L : grid0.Coords) : k0_off1 L 0 = base L + 64 := by rw [k0_off1_eq]; rfl

/-- The first index copy leaves, at each of entries 0–63 of the scratch, the index vector's entry `base` further on. -/
theorem idx_A (d : Dev nD) (L : grid0.Coords) (g : Buf (Elt F) ((iP0).view.loc (V d (cV L) (jV L)))) :
    ∀ i ∈ (iP0).view.set, ((iP0).view.writes (Elt F) g
      [⟨Rect.whole S64, ReadAs.same.apply (View.read (Elt F) (xSl2 L).view (m (xLoc d)))⟩]) i = idxF m d L i := by
  intro i hi
  obtain ⟨x, -, rfl⟩ := Finset.mem_map.mp hi
  rw [View.writes_singleton]
  have e : (iP0).view.emb x = ((iP0).view.slice (Rect.whole S64)).emb x := by
    show (iP0).view.emb x = (iP0).view.emb ((Rect.whole S64).emb x)
    rw [Rect.emb_whole_apply]
  rw [e, View.write_emb_of_mem _ _ (Finset.mem_univ x), ← e]
  rw [cast_eq, ReadAs.apply_same, View.read_apply, cast_eq]
  unfold idxF
  refine congrArg (m (xLoc d)) (?_ : (_ : S16384.Idx) = _)
  funext (a : Fin 1)
  obtain rfl : a = 0 := Subsingleton.elim _ _
  apply Fin.ext
  show ((((xSl2 L).view.emb x : S16384.Idx)) 0).val = base L + ((((iP0).view.emb x : S512.Idx)) 0).val
  rw [xemb_val, iemb_val, off2_zero]
  simp only [Matrix.cons_val_zero, Nat.zero_add]

/-- The second index copy leaves, at each of entries 64–511 of the scratch, the index vector's entry `base` further on. -/
theorem idx_B (d : Dev nD) (L : grid0.Coords) (g : Buf (Elt F) ((iB).view.loc (V d (cV L) (jV L)))) :
    ∀ i ∈ (iB).view.set, ((iB).view.writes (Elt F) g
      [⟨Rect.whole S448, ReadAs.same.apply (View.read (Elt F) (xSl1 L).view (m (xLoc d)))⟩]) i = idxF m d L i := by
  intro i hi
  obtain ⟨x, -, rfl⟩ := Finset.mem_map.mp hi
  rw [View.writes_singleton]
  have e : (iB).view.emb x = ((iB).view.slice (Rect.whole S448)).emb x := by
    show (iB).view.emb x = (iB).view.emb ((Rect.whole S448).emb x)
    rw [Rect.emb_whole_apply]
  rw [e, View.write_emb_of_mem _ _ (Finset.mem_univ x), ← e]
  rw [cast_eq, ReadAs.apply_same, View.read_apply, cast_eq]
  unfold idxF
  refine congrArg (m (xLoc d)) (?_ : (_ : S16384.Idx) = _)
  funext (a : Fin 1)
  obtain rfl : a = 0 := Subsingleton.elim _ _
  apply Fin.ext
  show ((((xSl1 L).view.emb x : S16384.Idx)) 0).val = base L + ((((iB).view.emb x : S512.Idx)) 0).val
  rw [xemb_val, iemb_val, off1_zero]
  simp only [Matrix.cons_val_zero]
  omega

theorem j_lt (j : S64.Idx) : (j 0).val < 64 := (j 0).isLt

/-- An entry of one of the eight lists lies inside the index vector. -/
theorem piece_lt (L : grid0.Coords) (j : S64.Idx) (o : ℕ) (ho : o ≤ 448) : base L + o + (j 0).val < 16384 := by
  have h := base_lt L (o + (j 0).val) (by have := j_lt j; omega)
  omega

/-- Once the scratch is filled, entry `j` of the 64-entry list at offset `o` is entry `base + o + j` of the index vector. -/
theorem read_piece {off : Fin S512.rank → ℕ} {inb : ∀ a, off a + S64.size a ≤ S512.size a} (d : Dev nD) (L : grid0.Coords)
    (j : S64.Idx) (o : ℕ) (ho : off 0 = o) (h : base L + o + (j 0).val < 16384) :
    ((iV).slice (Rect.unit (s := S512) off S64.size inb) (fun _ => rfl)).view.read (Elt F) (idxF m d L) j
      = (m (xLoc d) : IVec ⟨1, ![16384]⟩ 32) (ValueIdx.ix1 ⟨base L + o + (j 0).val, h⟩) := by
  rw [View.read_apply, cast_eq]
  unfold idxF
  refine congrArg (m (xLoc d)) (?_ : (_ : S16384.Idx) = _)
  funext (a : Fin 1)
  obtain rfl : a = 0 := Subsingleton.elim _ _
  apply Fin.ext
  have hv := iemb_val (inb := inb) j
  show base L + _ = base L + o + (j 0).val
  rw [Nat.add_assoc, ← ho]
  exact congrArg (base L + ·) hv

/-- With every entry of the index vector below 128, so is every entry of each list: the gathers stay inside the table. -/
theorem hin_piece {off : Fin S512.rank → ℕ} {inb : ∀ a, off a + S64.size a ≤ S512.size a}
    (hr : ∀ (d : Dev nD) (r : Fin 16384), ((m (xLoc d) : IVec ⟨1, ![16384]⟩ 32) (ValueIdx.ix1 r)).toNat < 128)
    (d : Dev nD) (L : grid0.Coords) (o : ℕ) (ho : off 0 = o) (ho' : o ≤ 448) :
    ∀ j : S64.Idx, (((iV).slice (Rect.unit (s := S512) off S64.size inb) (fun _ => rfl)).view.read (Elt F) (idxF m d L) j).toNat
      < S128x128.size gathers_S128x128_S64x128.axis := by
  intro j
  rw [read_piece m d L j o ho (piece_lt L j o ho')]
  exact hr d _

theorem read_piece_0 (d : Dev nD) (L : grid0.Coords) (j : S64.Idx) :
    (iP0).view.read (Elt F) (idxF m d L) j
      = (m (xLoc d) : IVec ⟨1, ![16384]⟩ 32) (ValueIdx.ix1 ⟨base L + 0 + (j 0).val, piece_lt L j 0 (by omega)⟩) :=
  read_piece m d L j 0 rfl _
theorem hin_0 (hr : ∀ (d : Dev nD) (r : Fin 16384), ((m (xLoc d) : IVec ⟨1, ![16384]⟩ 32) (ValueIdx.ix1 r)).toNat < 128)
    (d : Dev nD) (L : grid0.Coords) :
    ∀ j : S64.Idx, ((iP0).view.read (Elt F) (idxF m d L) j).toNat < S128x128.size gathers_S128x128_S64x128.axis :=
  hin_piece m hr d L 0 rfl (by omega)

theorem read_piece_1 (d : Dev nD) (L : grid0.Coords) (j : S64.Idx) :
    (iP1).view.read (Elt F) (idxF m d L) j
      = (m (xLoc d) : IVec ⟨1, ![16384]⟩ 32) (ValueIdx.ix1 ⟨base L + 64 + (j 0).val, piece_lt L j 64 (by omega)⟩) :=
  read_piece m d L j 64 rfl _
theorem hin_1 (hr : ∀ (d : Dev nD) (r : Fin 16384), ((m (xLoc d) : IVec ⟨1, ![16384]⟩ 32) (ValueIdx.ix1 r)).toNat < 128)
    (d : Dev nD) (L : grid0.Coords) :
    ∀ j : S64.Idx, ((iP1).view.read (Elt F) (idxF m d L) j).toNat < S128x128.size gathers_S128x128_S64x128.axis :=
  hin_piece m hr d L 64 rfl (by omega)

theorem read_piece_2 (d : Dev nD) (L : grid0.Coords) (j : S64.Idx) :
    (iP2).view.read (Elt F) (idxF m d L) j
      = (m (xLoc d) : IVec ⟨1, ![16384]⟩ 32) (ValueIdx.ix1 ⟨base L + 128 + (j 0).val, piece_lt L j 128 (by omega)⟩) :=
  read_piece m d L j 128 rfl _
theorem hin_2 (hr : ∀ (d : Dev nD) (r : Fin 16384), ((m (xLoc d) : IVec ⟨1, ![16384]⟩ 32) (ValueIdx.ix1 r)).toNat < 128)
    (d : Dev nD) (L : grid0.Coords) :
    ∀ j : S64.Idx, ((iP2).view.read (Elt F) (idxF m d L) j).toNat < S128x128.size gathers_S128x128_S64x128.axis :=
  hin_piece m hr d L 128 rfl (by omega)

theorem read_piece_3 (d : Dev nD) (L : grid0.Coords) (j : S64.Idx) :
    (iP3).view.read (Elt F) (idxF m d L) j
      = (m (xLoc d) : IVec ⟨1, ![16384]⟩ 32) (ValueIdx.ix1 ⟨base L + 192 + (j 0).val, piece_lt L j 192 (by omega)⟩) :=
  read_piece m d L j 192 rfl _
theorem hin_3 (hr : ∀ (d : Dev nD) (r : Fin 16384), ((m (xLoc d) : IVec ⟨1, ![16384]⟩ 32) (ValueIdx.ix1 r)).toNat < 128)
    (d : Dev nD) (L : grid0.Coords) :
    ∀ j : S64.Idx, ((iP3).view.read (Elt F) (idxF m d L) j).toNat < S128x128.size gathers_S128x128_S64x128.axis :=
  hin_piece m hr d L 192 rfl (by omega)

theorem read_piece_4 (d : Dev nD) (L : grid0.Coords) (j : S64.Idx) :
    (iP4).view.read (Elt F) (idxF m d L) j
      = (m (xLoc d) : IVec ⟨1, ![16384]⟩ 32) (ValueIdx.ix1 ⟨base L + 256 + (j 0).val, piece_lt L j 256 (by omega)⟩) :=
  read_piece m d L j 256 rfl _
theorem hin_4 (hr : ∀ (d : Dev nD) (r : Fin 16384), ((m (xLoc d) : IVec ⟨1, ![16384]⟩ 32) (ValueIdx.ix1 r)).toNat < 128)
    (d : Dev nD) (L : grid0.Coords) :
    ∀ j : S64.Idx, ((iP4).view.read (Elt F) (idxF m d L) j).toNat < S128x128.size gathers_S128x128_S64x128.axis :=
  hin_piece m hr d L 256 rfl (by omega)

theorem read_piece_5 (d : Dev nD) (L : grid0.Coords) (j : S64.Idx) :
    (iP5).view.read (Elt F) (idxF m d L) j
      = (m (xLoc d) : IVec ⟨1, ![16384]⟩ 32) (ValueIdx.ix1 ⟨base L + 320 + (j 0).val, piece_lt L j 320 (by omega)⟩) :=
  read_piece m d L j 320 rfl _
theorem hin_5 (hr : ∀ (d : Dev nD) (r : Fin 16384), ((m (xLoc d) : IVec ⟨1, ![16384]⟩ 32) (ValueIdx.ix1 r)).toNat < 128)
    (d : Dev nD) (L : grid0.Coords) :
    ∀ j : S64.Idx, ((iP5).view.read (Elt F) (idxF m d L) j).toNat < S128x128.size gathers_S128x128_S64x128.axis :=
  hin_piece m hr d L 320 rfl (by omega)

theorem read_piece_6 (d : Dev nD) (L : grid0.Coords) (j : S64.Idx) :
    (iP6).view.read (Elt F) (idxF m d L) j
      = (m (xLoc d) : IVec ⟨1, ![16384]⟩ 32) (ValueIdx.ix1 ⟨base L + 384 + (j 0).val, piece_lt L j 384 (by omega)⟩) :=
  read_piece m d L j 384 rfl _
theorem hin_6 (hr : ∀ (d : Dev nD) (r : Fin 16384), ((m (xLoc d) : IVec ⟨1, ![16384]⟩ 32) (ValueIdx.ix1 r)).toNat < 128)
    (d : Dev nD) (L : grid0.Coords) :
    ∀ j : S64.Idx, ((iP6).view.read (Elt F) (idxF m d L) j).toNat < S128x128.size gathers_S128x128_S64x128.axis :=
  hin_piece m hr d L 384 rfl (by omega)

theorem read_piece_7 (d : Dev nD) (L : grid0.Coords) (j : S64.Idx) :
    (iP7).view.read (Elt F) (idxF m d L) j
      = (m (xLoc d) : IVec ⟨1, ![16384]⟩ 32) (ValueIdx.ix1 ⟨base L + 448 + (j 0).val, piece_lt L j 448 (by omega)⟩) :=
  read_piece m d L j 448 rfl _
theorem hin_7 (hr : ∀ (d : Dev nD) (r : Fin 16384), ((m (xLoc d) : IVec ⟨1, ![16384]⟩ 32) (ValueIdx.ix1 r)).toNat < 128)
    (d : Dev nD) (L : grid0.Coords) :
    ∀ j : S64.Idx, ((iP7).view.read (Elt F) (idxF m d L) j).toNat < S128x128.size gathers_S128x128_S64x128.axis :=
  hin_piece m hr d L 448 rfl (by omega)

end Cert.Proof.KI

end
-- ==== Proof.KI.Body.lean ====
/-
  The body of one task, run once at a symbolic grid point. In order: (tile 0 only) the table into the SparseCore's shared
  memory; the task's 512 index words into its scratch by two copies, the first waited for at once; (tile 0) the table
  copy's wait; the subcore barrier, across which tile 0 hands every tile a read share of the shared copy; then eight
  rounds, two row buffers alternating: gather the rows the next 64 index words name out of the shared copy, wait for the
  previous gather, copy its rows out to their chunk of the result. No buffer is touched while a transfer on it is
  pending, and each semaphore has one transfer outstanding at a time. The index words are row numbers of the table (the
  claim's domain), so no gather is abandoned; and chunk by chunk what is copied out is the lookup's value.
-/
import proofs.«205415_g38302518346492_cont_8to1_b_1778_12_alg».proof.Proof.KI.Own
import proofs.«205415_g38302518346492_cont_8to1_b_1778_12_alg».proof.Proof.KI.OutValue
import proofs.«205415_g38302518346492_cont_8to1_b_1778_12_alg».proof.Proof.KI.IdxSplit
import proofs.«205415_g38302518346492_cont_8to1_b_1778_12_alg».proof.Proof.KI.IdxValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S16384 EltTy.i32)
local notation "tV" => (Memref.whole Cert.KernelIdeal.main_arg1_scv : Memref Cert.KernelIdeal.sig Kind.scVector Space.hbm Cert.KernelIdeal.S128x128 EltTy.f32)
local notation "oV" => (Memref.whole Cert.KernelIdeal.main_v0_scv : Memref Cert.KernelIdeal.sig Kind.scVector Space.hbm Cert.KernelIdeal.S16384x128 EltTy.f32)
local notation "iV" => (Memref.whole Cert.KernelIdeal.cc0_scratch0 : Memref Cert.KernelIdeal.sig Kind.scVector Space.vmem Cert.KernelIdeal.S512 EltTy.i32)
local notation "r0V" => (Memref.whole Cert.KernelIdeal.cc0_scratch1 : Memref Cert.KernelIdeal.sig Kind.scVector Space.vmem Cert.KernelIdeal.S64x128 EltTy.f32)
local notation "r1V" => (Memref.whole Cert.KernelIdeal.cc0_scratch2 : Memref Cert.KernelIdeal.sig Kind.scVector Space.vmem Cert.KernelIdeal.S64x128 EltTy.f32)
local notation "shV" => (Memref.whole Cert.KernelIdeal.cc0_scratch3 : Memref Cert.KernelIdeal.sig Kind.scVector Space.shared Cert.KernelIdeal.S128x128 EltTy.f32)

variable (m : (ℓ : Loc nD τ sig) → Buf (Elt F) ℓ)
variable [FloatOps F]

/-- The printed guard "this is tile 0" is that. -/
theorem guard_iff : ∀ i : grid0.Coords,
    (Scalar.cmpi .ne (Scalar.extui (Scalar.cmpi .eq (BitVec.ofNat 32 (i 1).val) 0#32) : BitVec 32) 0#32 = 1#1) ↔ (i 1).val = 0 := by decide +kernel

/-! ## What crosses the barrier -/

/-- Arriving at the barrier, a tile other than tile 0 hands nothing over. -/
theorem pays_intro_other (d : Dev nD) (c : Fin τ.nSC) (n : ℕ) (hn : n ≠ 0) :
    (iprop(emp) : sProp 𝕄) ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
      bigSep_congr fun j _ => if_neg hn, bigSep_emp']

/-- Tile 0 hands each tile's round that tile's read share of the shared copy. -/
theorem pays_intro_zero (d : Dev nD) (c : Fin τ.nSC) (n : ℕ) (hn : n = 0) :
    (bigSep Finset.univ fun j : Fin 16 => shTok m d c j)
      ⊢ bigSep Finset.univ fun j : Fin (grid0.bound 1) => (bRd (F := F) m).payload (bcell d c (j.castLE hsub0)) 0 n := by
  subst hn
  refine Entails.of_eq (bigSep_congr fun j _ => ?_)
  show shTok m d c j = bPay m (bcell d c (j.castLE hsub0)) 0
  unfold bPay; dsimp only
  rw [if_pos rfl]
  exact congrArg (shTok m d c) (Fin.ext rfl)

/-- Leaving the barrier, a tile finds its read share in its own round: tile 0's duty left it there. -/
theorem pays_elim (d : Dev nD) (c : Fin τ.nSC) (j : Fin τ.nSub) :
    (bigSep ((bRd (F := F) m).duties (bcell d c j) 0 \ ∅) fun n => (bRd (F := F) m).payload (bcell d c j) 0 n)
      ⊢ (shTok m d c (Fin.cast nSub_eq j) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c j) 0 ⊢ _
  unfold bPay; dsimp only
  rw [if_pos rfl]

/-- The whole shared copy at the table's contents is the remainder and the sixteen read shares. -/
theorem sh_toks (d : Dev nD) (c : Fin τ.nSC) :
    (shLoc d c ↦{fullShare} tblSh m d c : sProp 𝕄) ⊢ iprop(shRest m d c ∗ bigSep Finset.univ fun j : Fin 16 => shTok m d c j) :=
  (Transfers.pointsTo_toks fullShare 16).1

section Tile

variable (d : Dev nD) (L : grid0.Coords)

/-! ## The task's buffers as it addresses them: the same locations -/

theorem pts_x (q : PosShare TreeShare) (f : Buf (Elt F) (xLoc d)) : ((xV).view.loc (V d (cV L) (jV L)) ↦{q} f : sProp 𝕄) = xLoc d ↦{q} f := rfl
theorem pts_t (q : PosShare TreeShare) (f : Buf (Elt F) (tLoc d)) : ((tV).view.loc (V d (cV L) (jV L)) ↦{q} f : sProp 𝕄) = tLoc d ↦{q} f := rfl
theorem pts_sh (q : PosShare TreeShare) (f : Buf (Elt F) (shLoc d (cV L))) : ((shV).view.loc (V d (cV L) (jV L)) ↦{q} f : sProp 𝕄) = shLoc d (cV L) ↦{q} f := rfl
theorem pts_i (f : Buf (Elt F) ((V d (cV L) (jV L)).loc cc0_scratch0)) : ((iV).view.loc (V d (cV L) (jV L)) ↦{fullShare} f : sProp 𝕄) = (V d (cV L) (jV L)).loc cc0_scratch0 ↦{fullShare} f := rfl
theorem pts_r0 (f : Buf (Elt F) ((V d (cV L) (jV L)).loc cc0_scratch1)) : ((r0V).view.loc (V d (cV L) (jV L)) ↦{fullShare} f : sProp 𝕄) = (V d (cV L) (jV L)).loc cc0_scratch1 ↦{fullShare} f := rfl
theorem pts_r1 (f : Buf (Elt F) ((V d (cV L) (jV L)).loc cc0_scratch2)) : ((r1V).view.loc (V d (cV L) (jV L)) ↦{fullShare} f : sProp 𝕄) = (V d (cV L) (jV L)).loc cc0_scratch2 ↦{fullShare} f := rfl
theorem pts_o0 (f : Buf (Elt F) (oLoc d)) : ((oC0 L).view.loc (V d (cV L) (jV L)) ↦[(oC0 L).view.set]{fullShare} f : sProp 𝕄) = oChunk d L 0 f := rfl
theorem pts_o1 (f : Buf (Elt F) (oLoc d)) : ((oC1 L).view.loc (V d (cV L) (jV L)) ↦[(oC1 L).view.set]{fullShare} f : sProp 𝕄) = oChunk d L 1 f := rfl
theorem pts_o2 (f : Buf (Elt F) (oLoc d)) : ((oC2 L).view.loc (V d (cV L) (jV L)) ↦[(oC2 L).view.set]{fullShare} f : sProp 𝕄) = oChunk d L 2 f := rfl
theorem pts_o3 (f : Buf (Elt F) (oLoc d)) : ((oC3 L).view.loc (V d (cV L) (jV L)) ↦[(oC3 L).view.set]{fullShare} f : sProp 𝕄) = oChunk d L 3 f := rfl
theorem pts_o4 (f : Buf (Elt F) (oLoc d)) : ((oC4 L).view.loc (V d (cV L) (jV L)) ↦[(oC4 L).view.set]{fullShare} f : sProp 𝕄) = oChunk d L 4 f := rfl
theorem pts_o5 (f : Buf (Elt F) (oLoc d)) : ((oC5 L).view.loc (V d (cV L) (jV L)) ↦[(oC5 L).view.set]{fullShare} f : sProp 𝕄) = oChunk d L 5 f := rfl
theorem pts_o6 (f : Buf (Elt F) (oLoc d)) : ((oC6 L).view.loc (V d (cV L) (jV L)) ↦[(oC6 L).view.set]{fullShare} f : sProp 𝕄) = oChunk d L 6 f := rfl
theorem pts_o7 (f : Buf (Elt F) (oLoc d)) : ((oC7 L).view.loc (V d (cV L) (jV L)) ↦[(oC7 L).view.set]{fullShare} f : sProp 𝕄) = oChunk d L 7 f := rfl

/-! ## Read shares in halves: two transfers read the array at a time -/

theorem x_halves (q : PosShare TreeShare) : ((xV).view.loc (V d (cV L) (jV L)) ↦{q} m (xLoc d) : sProp 𝕄)
    ⊢ iprop(((xV).view.loc (V d (cV L) (jV L)) ↦{q.left} m (xLoc d)) ∗ ((xV).view.loc (V d (cV L) (jV L)) ↦{q.right} m (xLoc d))) :=
  (pointsTo_share (PosShare.mem_left_op_right q)).1
theorem x_join (q : PosShare TreeShare) : iprop(((xV).view.loc (V d (cV L) (jV L)) ↦{q.left} m (xLoc d)) ∗ ((xV).view.loc (V d (cV L) (jV L)) ↦{q.right} m (xLoc d)))
    ⊢ ((xV).view.loc (V d (cV L) (jV L)) ↦{q} m (xLoc d) : sProp 𝕄) :=
  (pointsTo_share (PosShare.mem_left_op_right q)).2
theorem sh_halves : (shTok m d (cV L) (Fin.cast nSub_eq (jV L)) : sProp 𝕄)
    ⊢ iprop(((shV).view.loc (V d (cV L) (jV L)) ↦{(shareTok fullShare 16 (jL L)).left} tblSh m d (cV L))
        ∗ ((shV).view.loc (V d (cV L) (jV L)) ↦{(shareTok fullShare 16 (jL L)).right} tblSh m d (cV L))) :=
  (pointsTo_share (PosShare.mem_left_op_right _)).1
theorem sh_join : iprop(((shV).view.loc (V d (cV L) (jV L)) ↦{(shareTok fullShare 16 (jL L)).left} tblSh m d (cV L))
        ∗ ((shV).view.loc (V d (cV L) (jV L)) ↦{(shareTok fullShare 16 (jL L)).right} tblSh m d (cV L)))
    ⊢ (shTok m d (cV L) (jL L) : sProp 𝕄) :=
  (pointsTo_share (PosShare.mem_left_op_right _)).2

/-- The table copy landed: the shared buffer holds the table's contents. -/
theorem sh_landed (fsh : Buf (Elt F) ((shV).view.loc (V d (cV L) (jV L)))) :
    ((shV).view.loc (V d (cV L) (jV L)) ↦{fullShare} View.write (Elt F) (shV).view fsh (ReadAs.same.apply (View.read (Elt F) (tV).view (m (tLoc d)))) Finset.univ : sProp 𝕄)
      = (shLoc d (cV L) ↦{fullShare} tblSh m d (cV L)) := by
  show (shLoc d (cV L) ↦{fullShare} _ : sProp 𝕄) = _
  refine pointsTo_congr fun i _ => ?_
  show View.write (Elt F) (shV).view fsh _ Finset.univ ((shV).view.emb i) = _
  rw [View.write_emb_of_mem _ _ (Finset.mem_univ _)]
  rfl

set_option maxHeartbeats 16000000 in
theorem tile_body (hr : ∀ (d : Dev nD) (r : Fin 16384), ((m (xLoc d) : IVec ⟨1, ![16384]⟩ 32) (ValueIdx.ix1 r)).toNat < 128) : TileBody m := by
  intro d L hF O W hO hOlev
  have hin0 := hin_0 (F := F) m hr d L
  have hin1 := hin_1 (F := F) m hr d L
  have hin2 := hin_2 (F := F) m hr d L
  have hin3 := hin_3 (F := F) m hr d L
  have hin4 := hin_4 (F := F) m hr d L
  have hin5 := hin_5 (F := F) m hr d L
  have hin6 := hin_6 (F := F) m hr d L
  have hin7 := hin_7 (F := F) m hr d L
  rw [cc0_gather_kernel_eq_skeleton]; delta cc0_gather_kernel_skel
  rw [k0_part1_eq_skeleton]; delta k0_part1_skel
  beta_reduce
  rw [(K (F := F)).scopedBufs_V hF d (cV L) (jV L), SparseCore.Cfg.scopedSems0_V (Val := Elt F) d (cV L) (jV L), ownSems0_open, ownBufs_open]
  unfold bkit goL tdL oTask
  rw [bigSep_fin8, bigSep_fin8]
  beta_reduce
  by_cases hz : (L 1).val = 0
  ·
    have h0 : Scalar.cmpi .ne (Scalar.extui (Scalar.cmpi .eq (BitVec.ofNat 32 (L 1).val) 0#32) : BitVec 32) 0#32 = 1#1 := (guard_iff L).mpr hz
    rw [if_pos hz, if_pos hz]
    iintro ⟨#Hlv, ⟨⟨%κ, #Hinv⟩, Htoks, #Hrch, Hat, Hcred⟩, ⟨Hx, ⟨Ho0, Ho1, Ho2, Ho3, Ho4, Ho5, Ho6, Ho7⟩, Ht, ⟨%fsh, Hshw⟩⟩, ⟨⟨%fi, Hi⟩, ⟨%f0, Hr0⟩, ⟨%f1, Hr1⟩, Hbufs⟩, ⟨Hs4, Hs5, Hs6, Hs7, Hs8, Hs9, Hsc, Hsems⟩, HO⟩
    -- the waits' evidence: at index `none`, under either debt
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := (V d (cV L) (jV L))) hO') $$ Hlv
    ihave Hmw2 := (show levAts (K (F := F)).L (K (F := F)).lev ⊢ Transfers.MayWaits (V d (cV L) (jV L)) (default : HIx 1) O from
      (K (F := F)).mayWaits_none (thr := (V d (cV L) (jV L))) hO) $$ Hlv
    -- the buffers as the task addresses them; the index vector's share in two halves (two copies read it at a time);
    -- the index scratch as the two pieces the two copies fill
    ihave Hx' := (Entails.of_eq (pts_x (F := F) d L _ _).symm) $$ Hx
    ihave Hx2 := (x_halves (F := F) m d L _) $$ Hx'
    icases Hx2 with ⟨Hxa, Hxb⟩
    ihave Ht' := (Entails.of_eq (pts_t (F := F) d L _ _).symm) $$ Ht
    ihave Hshw' := (Entails.of_eq (pts_sh (F := F) d L _ _).symm) $$ Hshw
    ihave Hi' := (Entails.of_eq ((pts_i (F := F) d L fi).symm.trans (idx_split (F := F) d L fi))) $$ Hi
    icases Hi' with ⟨HiA, HiB⟩
    ihave Hr0' := (Entails.of_eq (pts_r0 (F := F) d L f0).symm) $$ Hr0
    ihave Hr1' := (Entails.of_eq (pts_r1 (F := F) d L f1).symm) $$ Hr1
    ihave Ho0' := (Entails.of_eq (pts_o0 (F := F) d L _).symm) $$ Ho0
    ihave Ho1' := (Entails.of_eq (pts_o1 (F := F) d L _).symm) $$ Ho1
    ihave Ho2' := (Entails.of_eq (pts_o2 (F := F) d L _).symm) $$ Ho2
    ihave Ho3' := (Entails.of_eq (pts_o3 (F := F) d L _).symm) $$ Ho3
    ihave Ho4' := (Entails.of_eq (pts_o4 (F := F) d L _).symm) $$ Ho4
    ihave Ho5' := (Entails.of_eq (pts_o5 (F := F) d L _).symm) $$ Ho5
    ihave Ho6' := (Entails.of_eq (pts_o6 (F := F) d L _).symm) $$ Ho6
    ihave Ho7' := (Entails.of_eq (pts_o7 (F := F) d L _).symm) $$ Ho7
    -- the table into the shared copy, the two index copies, the first one's wait, the table copy's wait
    sl_exec
    -- the shared copy holds the table: one read share of it for each tile's round, the remainder kept
    sl_unfold_run_names
    ihave Hshl := (Entails.of_eq (sh_landed (F := F) m d L fsh)) $$ Hshw'
    ihave Hshs := (sh_toks (F := F) m d (cV L)) $$ Hshl
    icases Hshs with ⟨Hshrest, Hshtoks⟩
    ihave Hpays := (pays_intro_zero (F := F) m d (cV L) (jV L).val hz) $$ Hshtoks
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := (V d (cV L) (jV L))) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    -- leaving it, the tile's read share of the shared copy, in two halves: two gathers read it at a time
    ihave Hsh := (pays_elim (F := F) m d (cV L) (jV L)) $$ Hgot
    ihave Hsh2 := (sh_halves (F := F) m d L) $$ Hsh
    icases Hsh2 with ⟨Hsha, Hshb⟩
    -- the first list has landed: it holds the task's first 64 index words
    sl_unfold_run_names
    ihave HiA' := (Entails.of_eq (pointsTo_congr (q := fullShare) (ℓ := (iP0).view.loc (V d (cV L) (jV L))) (idx_A (F := F) m d L fi))) $$ HiA
    -- the first gather's issue; the second index copy's wait
    sl_exec
    -- the rest of the index scratch has landed: the remaining 448 index words, held as the seven lists the later gathers read
    sl_unfold_run_names
    ihave HiB' := (Entails.of_eq (pointsTo_congr (q := fullShare) (ℓ := (iB).view.loc (V d (cV L) (jV L))) (idx_B (F := F) m d L fi))) $$ HiB
    ihave Hps := (Entails.of_eq (iB_split (F := F) d L (idxF m d L))) $$ HiB'
    icases Hps with ⟨Hp1, Hp2, Hp3, Hp4, Hp5, Hp6, Hp7⟩
    -- the gathers, their waits, the copies out and theirs, to the end
    sl_exec
    sl_unfold_run_names
    sl_step
    -- what the task hands back
    isplitl [Hxa Hxb Ho0' Ho1' Ho2' Ho3' Ho4' Ho5' Ho6' Ho7' Hsha Hshb Ht' Hshrest]
    · isplitl [Hxa Hxb]
      · iapply (Entails.of_eq (pts_x (F := F) d L _ _))
        iapply (x_join (F := F) m d L _)
        isplitl [Hxa]; · iexact Hxa
        iexact Hxb
      isplitl [Ho0' Ho1' Ho2' Ho3' Ho4' Ho5' Ho6' Ho7']
      -- what the copies out left in the eight chunks is the lookup's value there
      · isplitl [Ho0']
        · iapply (Entails.of_eq (pts_o0 (F := F) d L _))
          iapply (Entails.of_eq (pointsTo_congr (q := fullShare) (ℓ := (oC0 L).view.loc (V d (cV L) (jV L)))
            (out_value_0 (F := F) m hr d L (r0V).view f0 [] hin0)))
          iexact Ho0'
        isplitl [Ho1']
        · iapply (Entails.of_eq (pts_o1 (F := F) d L _))
          iapply (Entails.of_eq (pointsTo_congr (q := fullShare) (ℓ := (oC1 L).view.loc (V d (cV L) (jV L)))
            (out_value_1 (F := F) m hr d L (r1V).view f1 [] hin1)))
          iexact Ho1'
        isplitl [Ho2']
        · iapply (Entails.of_eq (pts_o2 (F := F) d L _))
          iapply (Entails.of_eq (pointsTo_congr (q := fullShare) (ℓ := (oC2 L).view.loc (V d (cV L) (jV L)))
            (out_value_2 (F := F) m hr d L (r0V).view f0 [⟨Rect.whole S64x128, gPay (View.read (Elt F) shSl.view (tblSh m d (cV L))) (View.read (Elt F) (iP0).view (idxF m d L)) hin0⟩] hin2)))
          iexact Ho2'
        isplitl [Ho3']
        · iapply (Entails.of_eq (pts_o3 (F := F) d L _))
          iapply (Entails.of_eq (pointsTo_congr (q := fullShare) (ℓ := (oC3 L).view.loc (V d (cV L) (jV L)))
            (out_value_3 (F := F) m hr d L (r1V).view f1 [⟨Rect.whole S64x128, gPay (View.read (Elt F) shSl.view (tblSh m d (cV L))) (View.read (Elt F) (iP1).view (idxF m d L)) hin1⟩] hin3)))
          iexact Ho3'
        isplitl [Ho4']
        · iapply (Entails.of_eq (pts_o4 (F := F) d L _))
          iapply (Entails.of_eq (pointsTo_congr (q := fullShare) (ℓ := (oC4 L).view.loc (V d (cV L) (jV L)))
            (out_value_4 (F := F) m hr d L (r0V).view f0 [⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin4)))
          iexact Ho4'
        isplitl [Ho5']
        · iapply (Entails.of_eq (pts_o5 (F := F) d L _))
          iapply (Entails.of_eq (pointsTo_congr (q := fullShare) (ℓ := (oC5 L).view.loc (V d (cV L) (jV L)))
            (out_value_5 (F := F) m hr d L (r1V).view f1 [⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin5)))
          iexact Ho5'
        isplitl [Ho6']
        · iapply (Entails.of_eq (pts_o6 (F := F) d L _))
          iapply (Entails.of_eq (pointsTo_congr (q := fullShare) (ℓ := (oC6 L).view.loc (V d (cV L) (jV L)))
            (out_value_6 (F := F) m hr d L (r0V).view f0 [⟨Rect.whole S64x128, gPay (View.read (Elt F) shSl.view (tblSh m d (cV L))) (View.read (Elt F) (iP4).view (idxF m d L)) hin4⟩, ⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin6)))
          iexact Ho6'
        iapply (Entails.of_eq (pts_o7 (F := F) d L _))
        iapply (Entails.of_eq (pointsTo_congr (q := fullShare) (ℓ := (oC7 L).view.loc (V d (cV L) (jV L)))
          (out_value_7 (F := F) m hr d L (r1V).view f1 [⟨Rect.whole S64x128, gPay (View.read (Elt F) shSl.view (tblSh m d (cV L))) (View.read (Elt F) (iP5).view (idxF m d L)) hin5⟩, ⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin7)))
        iexact Ho7'
      isplitl [Hsha Hshb]
      · iapply (sh_join (F := F) m d L)
        isplitl [Hsha]; · iexact Hsha
        iexact Hshb
      isplitl [Ht']; · iapply (Entails.of_eq (pts_t (F := F) d L _ _)); iexact Ht'
      iexact Hshrest
    -- its scratch and its semaphores as it found them
    isplitl [HiA' Hp1 Hp2 Hp3 Hp4 Hp5 Hp6 Hp7 Hr0' Hr1' Hbufs]
    · isplitl [HiA' Hp1 Hp2 Hp3 Hp4 Hp5 Hp6 Hp7]
      · iexists (idxF m d L)
        iapply (Entails.of_eq ((pts_i (F := F) d L (idxF m d L)).symm.trans (idx_split (F := F) d L (idxF m d L))).symm)
        isplitl [HiA']; · iexact HiA'
        iapply (Entails.of_eq (iB_split (F := F) d L (idxF m d L)).symm)
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      isplitl [Hr0']; · iexists _; iapply (Entails.of_eq (pts_r0 (F := F) d L _)); iexact Hr0'
      isplitl [Hr1']; · iexists _; iapply (Entails.of_eq (pts_r1 (F := F) d L _)); iexact Hr1'
      iexact Hbufs
    isplitl [Hs4 Hs5 Hs6 Hs7 Hs8 Hs9 Hsc Hsems]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hsc]; · iexact Hsc
      iexact Hsems
    iexists _; isplitr
    swap; · iexact HO
    ipureintro; intro p hp
    repeat (rcases Finset.mem_insert.mp hp with hp | hp; · first | exact .inr (.inl (hp ▸ rfl)) | exact .inr (.inr (hp ▸ rfl)))
    exact .inl hp

  ·
    have h0 : ¬ (Scalar.cmpi .ne (Scalar.extui (Scalar.cmpi .eq (BitVec.ofNat 32 (L 1).val) 0#32) : BitVec 32) 0#32 = 1#1) := fun h => hz ((guard_iff L).mp h)
    rw [if_neg hz, if_neg hz]
    iintro ⟨#Hlv, ⟨⟨%κ, #Hinv⟩, Htoks, #Hrch, Hat, Hcred⟩, ⟨Hx, ⟨Ho0, Ho1, Ho2, Ho3, Ho4, Ho5, Ho6, Ho7⟩, -⟩, ⟨⟨%fi, Hi⟩, ⟨%f0, Hr0⟩, ⟨%f1, Hr1⟩, Hbufs⟩, ⟨Hs4, Hs5, Hs6, Hs7, Hs8, Hs9, Hsc, Hsems⟩, HO⟩
    -- the waits' evidence: at index `none`, under either debt
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := (V d (cV L) (jV L))) hO') $$ Hlv
    ihave Hmw2 := (show levAts (K (F := F)).L (K (F := F)).lev ⊢ Transfers.MayWaits (V d (cV L) (jV L)) (default : HIx 1) O from
      (K (F := F)).mayWaits_none (thr := (V d (cV L) (jV L))) hO) $$ Hlv
    -- the buffers as the task addresses them; the index vector's share in two halves (two copies read it at a time);
    -- the index scratch as the two pieces the two copies fill
    ihave Hx' := (Entails.of_eq (pts_x (F := F) d L _ _).symm) $$ Hx
    ihave Hx2 := (x_halves (F := F) m d L _) $$ Hx'
    icases Hx2 with ⟨Hxa, Hxb⟩
    ihave Hi' := (Entails.of_eq ((pts_i (F := F) d L fi).symm.trans (idx_split (F := F) d L fi))) $$ Hi
    icases Hi' with ⟨HiA, HiB⟩
    ihave Hr0' := (Entails.of_eq (pts_r0 (F := F) d L f0).symm) $$ Hr0
    ihave Hr1' := (Entails.of_eq (pts_r1 (F := F) d L f1).symm) $$ Hr1
    ihave Ho0' := (Entails.of_eq (pts_o0 (F := F) d L _).symm) $$ Ho0
    ihave Ho1' := (Entails.of_eq (pts_o1 (F := F) d L _).symm) $$ Ho1
    ihave Ho2' := (Entails.of_eq (pts_o2 (F := F) d L _).symm) $$ Ho2
    ihave Ho3' := (Entails.of_eq (pts_o3 (F := F) d L _).symm) $$ Ho3
    ihave Ho4' := (Entails.of_eq (pts_o4 (F := F) d L _).symm) $$ Ho4
    ihave Ho5' := (Entails.of_eq (pts_o5 (F := F) d L _).symm) $$ Ho5
    ihave Ho6' := (Entails.of_eq (pts_o6 (F := F) d L _).symm) $$ Ho6
    ihave Ho7' := (Entails.of_eq (pts_o7 (F := F) d L _).symm) $$ Ho7
    -- the two index copies, the first one's wait
    sl_exec
    -- the barrier: nothing handed over
    have hn0 : (jV L).val ≠ 0 := hz
    ihave Hpays := (pays_intro_other (F := F) m d (cV L) (jV L).val hn0) $$ []
    · iempintro
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := (V d (cV L) (jV L))) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    -- leaving it, the tile's read share of the shared copy, in two halves: two gathers read it at a time
    ihave Hsh := (pays_elim (F := F) m d (cV L) (jV L)) $$ Hgot
    ihave Hsh2 := (sh_halves (F := F) m d L) $$ Hsh
    icases Hsh2 with ⟨Hsha, Hshb⟩
    -- the first list has landed: it holds the task's first 64 index words
    sl_unfold_run_names
    ihave HiA' := (Entails.of_eq (pointsTo_congr (q := fullShare) (ℓ := (iP0).view.loc (V d (cV L) (jV L))) (idx_A (F := F) m d L fi))) $$ HiA
    -- the first gather's issue; the second index copy's wait
    sl_exec
    -- the rest of the index scratch has landed: the remaining 448 index words, held as the seven lists the later gathers read
    sl_unfold_run_names
    ihave HiB' := (Entails.of_eq (pointsTo_congr (q := fullShare) (ℓ := (iB).view.loc (V d (cV L) (jV L))) (idx_B (F := F) m d L fi))) $$ HiB
    ihave Hps := (Entails.of_eq (iB_split (F := F) d L (idxF m d L))) $$ HiB'
    icases Hps with ⟨Hp1, Hp2, Hp3, Hp4, Hp5, Hp6, Hp7⟩
    -- the gathers, their waits, the copies out and theirs, to the end
    sl_exec
    sl_unfold_run_names
    sl_step
    -- what the task hands back
    isplitl [Hxa Hxb Ho0' Ho1' Ho2' Ho3' Ho4' Ho5' Ho6' Ho7' Hsha Hshb]
    · isplitl [Hxa Hxb]
      · iapply (Entails.of_eq (pts_x (F := F) d L _ _))
        iapply (x_join (F := F) m d L _)
        isplitl [Hxa]; · iexact Hxa
        iexact Hxb
      isplitl [Ho0' Ho1' Ho2' Ho3' Ho4' Ho5' Ho6' Ho7']
      -- what the copies out left in the eight chunks is the lookup's value there
      · isplitl [Ho0']
        · iapply (Entails.of_eq (pts_o0 (F := F) d L _))
          iapply (Entails.of_eq (pointsTo_congr (q := fullShare) (ℓ := (oC0 L).view.loc (V d (cV L) (jV L)))
            (out_value_0 (F := F) m hr d L (r0V).view f0 [] hin0)))
          iexact Ho0'
        isplitl [Ho1']
        · iapply (Entails.of_eq (pts_o1 (F := F) d L _))
          iapply (Entails.of_eq (pointsTo_congr (q := fullShare) (ℓ := (oC1 L).view.loc (V d (cV L) (jV L)))
            (out_value_1 (F := F) m hr d L (r1V).view f1 [] hin1)))
          iexact Ho1'
        isplitl [Ho2']
        · iapply (Entails.of_eq (pts_o2 (F := F) d L _))
          iapply (Entails.of_eq (pointsTo_congr (q := fullShare) (ℓ := (oC2 L).view.loc (V d (cV L) (jV L)))
            (out_value_2 (F := F) m hr d L (r0V).view f0 [⟨Rect.whole S64x128, gPay (View.read (Elt F) shSl.view (tblSh m d (cV L))) (View.read (Elt F) (iP0).view (idxF m d L)) hin0⟩] hin2)))
          iexact Ho2'
        isplitl [Ho3']
        · iapply (Entails.of_eq (pts_o3 (F := F) d L _))
          iapply (Entails.of_eq (pointsTo_congr (q := fullShare) (ℓ := (oC3 L).view.loc (V d (cV L) (jV L)))
            (out_value_3 (F := F) m hr d L (r1V).view f1 [⟨Rect.whole S64x128, gPay (View.read (Elt F) shSl.view (tblSh m d (cV L))) (View.read (Elt F) (iP1).view (idxF m d L)) hin1⟩] hin3)))
          iexact Ho3'
        isplitl [Ho4']
        · iapply (Entails.of_eq (pts_o4 (F := F) d L _))
          iapply (Entails.of_eq (pointsTo_congr (q := fullShare) (ℓ := (oC4 L).view.loc (V d (cV L) (jV L)))
            (out_value_4 (F := F) m hr d L (r0V).view f0 [⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin4)))
          iexact Ho4'
        isplitl [Ho5']
        · iapply (Entails.of_eq (pts_o5 (F := F) d L _))
          iapply (Entails.of_eq (pointsTo_congr (q := fullShare) (ℓ := (oC5 L).view.loc (V d (cV L) (jV L)))
            (out_value_5 (F := F) m hr d L (r1V).view f1 [⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin5)))
          iexact Ho5'
        isplitl [Ho6']
        · iapply (Entails.of_eq (pts_o6 (F := F) d L _))
          iapply (Entails.of_eq (pointsTo_congr (q := fullShare) (ℓ := (oC6 L).view.loc (V d (cV L) (jV L)))
            (out_value_6 (F := F) m hr d L (r0V).view f0 [⟨Rect.whole S64x128, gPay (View.read (Elt F) shSl.view (tblSh m d (cV L))) (View.read (Elt F) (iP4).view (idxF m d L)) hin4⟩, ⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin6)))
          iexact Ho6'
        iapply (Entails.of_eq (pts_o7 (F := F) d L _))
        iapply (Entails.of_eq (pointsTo_congr (q := fullShare) (ℓ := (oC7 L).view.loc (V d (cV L) (jV L)))
          (out_value_7 (F := F) m hr d L (r1V).view f1 [⟨Rect.whole S64x128, gPay (View.read (Elt F) shSl.view (tblSh m d (cV L))) (View.read (Elt F) (iP5).view (idxF m d L)) hin5⟩, ⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin7)))
        iexact Ho7'
      isplitl [Hsha Hshb]
      · iapply (sh_join (F := F) m d L)
        isplitl [Hsha]; · iexact Hsha
        iexact Hshb
      iempintro
    -- its scratch and its semaphores as it found them
    isplitl [HiA' Hp1 Hp2 Hp3 Hp4 Hp5 Hp6 Hp7 Hr0' Hr1' Hbufs]
    · isplitl [HiA' Hp1 Hp2 Hp3 Hp4 Hp5 Hp6 Hp7]
      · iexists (idxF m d L)
        iapply (Entails.of_eq ((pts_i (F := F) d L (idxF m d L)).symm.trans (idx_split (F := F) d L (idxF m d L))).symm)
        isplitl [HiA']; · iexact HiA'
        iapply (Entails.of_eq (iB_split (F := F) d L (idxF m d L)).symm)
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      isplitl [Hr0']; · iexists _; iapply (Entails.of_eq (pts_r0 (F := F) d L _)); iexact Hr0'
      isplitl [Hr1']; · iexists _; iapply (Entails.of_eq (pts_r1 (F := F) d L _)); iexact Hr1'
      iexact Hbufs
    isplitl [Hs4 Hs5 Hs6 Hs7 Hs8 Hs9 Hsc Hsems]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hsc]; · iexact Hsc
      iexact Hsems
    iexists _; isplitr
    swap; · iexact HO
    ipureintro; intro p hp
    repeat (rcases Finset.mem_insert.mp hp with hp | hp; · first | exact .inr (.inl (hp ▸ rfl)) | exact .inr (.inr (hp ▸ rfl)))
    exact .inl hp

end Tile

end Cert.Proof.KI

end
-- ==== Proof.KB.Setup.lean ====
/-
  The kernel at machine words as the SparseCore launch theorem sees it, and the ghost state of its protocol.

  Thirty-two tasks (two SparseCores of sixteen tiles) each look up 512 consecutive entries of the index vector. On each
  SparseCore, tile 0 copies the whole table into the SparseCore's shared memory and waits for the copy; then all sixteen
  tiles meet at the subcore barrier, after which every tile gathers rows out of the shared copy. Ownership follows the
  data: tile 0 is handed the shared buffer whole, writes it, and at the barrier gives one read share of it — at the
  table's contents — to each tile's round (its own included); a tile leaving the barrier collects the share tile 0 left
  in its round. The barrier cells are rounds cells with one round of sixteen unit duties, tile 0's duty carrying the share.
-/
import proofs.«205415_g38302518346492_cont_8to1_b_1778_12_alg».proof.Kernel
import proofs.«205415_g38302518346492_cont_8to1_b_1778_12_alg».proof.Proof.Gen.Kernel
import proofs.«205415_g38302518346492_cont_8to1_b_1778_12_alg».proof.Proof.Gen.Kernel.Skeleton
import proofs.«205415_g38302518346492_cont_8to1_b_1778_12_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the buffers -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem nSub_eq : τ.nSub = 16 := rfl
theorem nSC_eq : τ.nSC = 2 := rfl

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The table's launch contents, as contents of a SparseCore's shared copy (the two buffers have one type). -/
abbrev tblSh (d : Dev nD) (c : Fin τ.nSC) : Buf (Elt F) (shLoc d c) := m (tLoc d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of its SparseCore's shared copy, at the table's contents. -/
abbrev shTok (d : Dev nD) (c : Fin τ.nSC) (j : Fin 16) : sProp 𝕄 := shLoc d c ↦{shareTok fullShare 16 j} tblSh m d c

/-- What a duty in tile `j`'s round hands over: tile 0's, tile `j`'s read share of the shared copy; the others', nothing. -/
def bPay (g : GSem nD τ sig) (n : ℕ) : sProp 𝕄 :=
  match g with
  | ((d, .scVector c j), _) => if n = 0 then shTok m d c (Fin.cast nSub_eq j) else iprop(emp)
  | _ => iprop(emp)

/-- The barrier cells' schedule: one round on each, of one unit duty per tile of the SparseCore (named by its number),
    tile 0's handing over the round's owner's read share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KB

end
-- ==== Proof.KB.Pay.lean ====
/-
  What travels with the launch's handshakes. The index vector and the table are only read: each SparseCore takes half of
  the full permission on each, a task a sixteenth-part token of its SparseCore's half of the index vector, and tile 0 of a
  SparseCore that SparseCore's half of the table together with the shared buffer whole. The result array is written in
  disjoint pieces: task (c, i) owns the eight 64-row chunks starting at row 1024 i + 512 c, at the launch contents going
  in and at the lookup's values coming back. Coming back, every task also returns its read share of the shared copy, and
  tile 0 the remainder, so that the shared buffer is whole again for the sequencer.
-/
import proofs.«205415_g38302518346492_cont_8to1_b_1778_12_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_one : grid0.bound 1 = 16 := rfl
theorem bound_zero : grid0.bound 0 = 2 := rfl
abbrev jL (L : grid0.Coords) : Fin 16 := Fin.cast bound_one (L 1)

/-- A SparseCore's half of a read-only array's permission. -/
def coreShare (c : Fin τ.nSC) : PosShare TreeShare := if c.val = 0 then fullShare.left else fullShare.right

/-- Chunk `k` of the task at `L`: rows `1024 (L 1) + 512 (L 0) + 64 k` and the next 63, as the task slices the result. -/
abbrev oSl (L : grid0.Coords) (k : Fin 8) : Memref sig .scVector .hbm S64x128 .f32 :=
  (oV).slice (Rect.unit (s := S16384x128) (k0_off3 L (BitVec.ofNat 32 (64 * k.val))) S64x128.size (k0_off3_inb L k)) (fun _ => rfl)

/-- The lookup of the launch contents: what the result array must hold at the end. -/
abbrev Gout (d : Dev nD) : Buf (Elt F) (oLoc d) := Cert.Spec.G (m (xLoc d)) (m (tLoc d))

variable [FloatOps F]

abbrev xCore (d : Dev nD) (c : Fin τ.nSC) : sProp 𝕄 := xLoc d ↦{coreShare c} m (xLoc d)
abbrev xTile (d : Dev nD) (L : grid0.Coords) : sProp 𝕄 := xLoc d ↦{shareTok (coreShare (cV L)) 16 (jL L)} m (xLoc d)
abbrev xRest (d : Dev nD) (c : Fin τ.nSC) : sProp 𝕄 := xLoc d ↦{shareDrop (coreShare c) 16} m (xLoc d)
abbrev tCore (d : Dev nD) (c : Fin τ.nSC) : sProp 𝕄 := tLoc d ↦{coreShare c} m (tLoc d)
abbrev oChunk (d : Dev nD) (L : grid0.Coords) (k : Fin 8) (f : Buf (Elt F) (oLoc d)) : sProp 𝕄 := oLoc d ↦[(oSl L k).view.set]{fullShare} f
abbrev oTask (d : Dev nD) (L : grid0.Coords) (f : Buf (Elt F) (oLoc d)) : sProp 𝕄 := bigSep Finset.univ fun k : Fin 8 => oChunk d L k f
abbrev shAll (d : Dev nD) (c : Fin τ.nSC) : sProp 𝕄 := iprop(∃ f, shLoc d c ↦{fullShare} f)
abbrev shRest (d : Dev nD) (c : Fin τ.nSC) : sProp 𝕄 := shLoc d c ↦{shareDrop fullShare 16} tblSh m d c

/-- What the task at `L` is handed. -/
def goL (d : Dev nD) (L : grid0.Coords) : sProp 𝕄 :=
  iprop(xTile m d L ∗ oTask d L (m (oLoc d)) ∗ if (L 1).val = 0 then iprop(tCore m d (cV L) ∗ shAll d (cV L)) else iprop(emp))
/-- What it hands back. -/
def tdL (d : Dev nD) (L : grid0.Coords) : sProp 𝕄 :=
  iprop(xTile m d L ∗ oTask d L (Gout m d) ∗ shTok m d (cV L) (jL L) ∗ if (L 1).val = 0 then iprop(tCore m d (cV L) ∗ shRest m d (cV L)) else iprop(emp))
/-- What a SparseCore's sequencer is handed for the call, and hands back. -/
def stC (d : Dev nD) (c : Fin (grid0.bound 0)) : sProp 𝕄 :=
  iprop(xCore m d (c.castLE hcore0) ∗ tCore m d (c.castLE hcore0) ∗ bigSep Finset.univ fun i : Fin (grid0.bound 1) => oTask d (coordsV c i) (m (oLoc d)))
def dnC (d : Dev nD) (c : Fin (grid0.bound 0)) : sProp 𝕄 :=
  iprop(xCore m d (c.castLE hcore0) ∗ tCore m d (c.castLE hcore0) ∗ bigSep Finset.univ fun i : Fin (grid0.bound 1) => oTask d (coordsV c i) (Gout m d))

instance goL_storable (d : Dev nD) (L : grid0.Coords) : BI.Storable (upEmb : UEmb _ 𝕄) (goL m d L) := by
  unfold goL; split <;> infer_instance
instance tdL_storable (d : Dev nD) (L : grid0.Coords) : BI.Storable (upEmb : UEmb _ 𝕄) (tdL m d L) := by
  unfold tdL; split <;> infer_instance
instance stC_storable (d : Dev nD) (c : Fin (grid0.bound 0)) : BI.Storable (upEmb : UEmb _ 𝕄) (stC m d c) := by
  unfold stC; infer_instance
instance dnC_storable (d : Dev nD) (c : Fin (grid0.bound 0)) : BI.Storable (upEmb : UEmb _ 𝕄) (dnC m d c) := by
  unfold dnC; infer_instance

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goL m d (coordsV (Fin.cast nCore_zero c) (Fin.cast nSub_zero i))
  td := fun q d c i => match q with | 0 => tdL m d (coordsV (Fin.cast nCore_zero c) (Fin.cast nSub_zero i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with | 0 => stC_storable m d _
  dn q d c := match q with | 0 => dnC_storable m d _
  go q d c i := match q with | 0 => goL_storable m d _
  td q d c i := match q with | 0 => tdL_storable m d _

/-- The body obligation of one task, at a symbolic grid point: from what the task is handed, its barrier kit and its
    own scratch and semaphores, the kernel function runs to the end, faulting nowhere, and leaves what the task hands
    back. (It is stated beside what the handshakes carry, which it speaks of.) -/
def TileBody : Prop :=
  ∀ (d : Dev nD) (L : grid0.Coords) (_ : (K (F := F)).Facts) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L) ∗ goL m d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_gather_kernel L xV (Memref.isWhole_whole _) tV (Memref.isWhole_whole _) oV (Memref.isWhole_whole _) iV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0)
          fun _ => iprop(tdL m d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KB

end
-- ==== Proof.KB.Chunks.lean ====
/-
  The result array is the disjoint union of the tasks' chunks. Chunk k of the task at grid point (c, i) is the 64 rows
  from row 1024 i + 512 c + 64 k on, every column; as (c, i, k) runs over 2 × 16 × 8 the first rows run over the
  multiples of 64 below 16384, each once, so the chunks are pairwise disjoint and cover every row.
-/
import proofs.«205415_g38302518346492_cont_8to1_b_1778_12_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

/-- The chunks' index: SparseCore, tile, chunk. -/
abbrev CIK : Type := Fin (grid0.bound 0) × Fin (grid0.bound 1) × Fin 8

/-- The elements of chunk `t.2.2` of the task at `(t.1, t.2.1)`. -/
abbrev cSet (t : CIK) : Finset S16384x128.Idx := (oSl (coordsV t.1 t.2.1) t.2.2).view.set

/-- An element lies in a chunk exactly if its row lies in the chunk's 64 rows. -/
theorem mem_oSl (L : grid0.Coords) (k : Fin 8) (x : S16384x128.Idx) :
    x ∈ (oSl L k).view.set ↔ 1024 * (L 1).val + 512 * (L 0).val + 64 * k.val ≤ (x 0).val ∧ (x 0).val < 1024 * (L 1).val + 512 * (L 0).val + 64 * k.val + 64 := by
  show x ∈ ((View.whole (main_v0_scv : Ref sig .scVector)).slice
      (Rect.unit (s := S16384x128) (k0_off3 L (BitVec.ofNat 32 (64 * k.val))) S64x128.size (k0_off3_inb L k))).set ↔ _
  rw [View.set_slice_whole, Rect.mem_set_unit, k0_off3_eq]
  have h1 : (x 1).val < 128 := (x 1).isLt
  refine ⟨fun h => h 0, fun h => Fin.forall_fin_two.mpr ⟨h, Nat.zero_le _, ?_⟩⟩
  show (x 1).val < 0 + 128
  omega

theorem mem_cSet (t : CIK) (x : S16384x128.Idx) :
    x ∈ cSet t ↔ 1024 * t.2.1.val + 512 * t.1.val + 64 * t.2.2.val ≤ (x 0).val ∧ (x 0).val < 1024 * t.2.1.val + 512 * t.1.val + 64 * t.2.2.val + 64 :=
  mem_oSl (coordsV t.1 t.2.1) t.2.2 x

theorem cSet_disjoint : ∀ t ∈ (Finset.univ : Finset CIK), ∀ t' ∈ (Finset.univ : Finset CIK), t ≠ t' → Disjoint (cSet t) (cSet t') := by
  rintro ⟨c, i, k⟩ - ⟨c', i', k'⟩ - hne
  rw [Finset.disjoint_left]
  intro x hx hx'
  rw [mem_cSet] at hx hx'
  have hc : c.val < 2 := c.isLt
  have hc' : c'.val < 2 := c'.isLt
  have hi : i.val < 16 := i.isLt
  have hi' : i'.val < 16 := i'.isLt
  have hk : k.val < 8 := k.isLt
  have hk' : k'.val < 8 := k'.isLt
  dsimp only at hx hx'
  apply hne
  have e1 : c.val = c'.val := by omega
  have e2 : i.val = i'.val := by omega
  have e3 : k.val = k'.val := by omega
  rw [Fin.ext e1, Fin.ext e2, Fin.ext e3]

theorem cSet_cover : (Finset.univ : Finset CIK).biUnion cSet = Finset.univ := by
  ext x
  simp only [Finset.mem_biUnion, Finset.mem_univ, true_and, iff_true]
  have hx : (x 0).val < 16384 := (x 0).isLt
  refine ⟨(⟨(x 0).val % 1024 / 512, by show _ < 2; omega⟩, ⟨(x 0).val / 1024, by show _ < 16; omega⟩, ⟨(x 0).val % 512 / 64, by omega⟩), ?_⟩
  rw [mem_cSet]
  dsimp only
  omega

/-- The result array whole is every task's eight chunks. -/
theorem oPts_chunks (d : Dev nD) (f : Buf (Elt F) (oLoc d)) :
    (oLoc d ↦{fullShare} f : sProp 𝕄)
      = bigSep Finset.univ fun c : Fin (grid0.bound 0) => bigSep Finset.univ fun i : Fin (grid0.bound 1) => oTask d (coordsV c i) f := by
  have h : (oLoc d ↦[(Finset.univ : Finset CIK).biUnion cSet]{fullShare} f : sProp 𝕄) = bigSep Finset.univ fun t : CIK => oLoc d ↦[cSet t]{fullShare} f :=
    pointsTo_biUnion (ℓ := oLoc d) (q := fullShare) (f := f) (Finset.univ : Finset CIK) cSet cSet_disjoint
  rw [cSet_cover] at h
  refine h.trans ((bigSep_univ_prod _).trans (bigSep_congr fun c _ => ?_))
  exact bigSep_univ_prod _

end Cert.Proof.KB

end
-- ==== Proof.KB.Launch.lean ====
/-
  The launch of the kernel at machine words: from the proof of one task's body, every weakly fair execution of the whole
  program — the TensorCore's @main, the two sequencers, the thirty-two tiles — terminates with the result array holding
  the lookup of the launch contents and the two arguments unchanged. The index vector and the table are read-only and
  travel as fractional permissions: each SparseCore takes half, each task a sixteenth-part token of its SparseCore's
  half of the index vector, tile 0 its SparseCore's half of the table and the shared buffer whole. The result array is
  split into the tasks' chunks and put together again from them.
-/
import proofs.«205415_g38302518346492_cont_8to1_b_1778_12_alg».proof.Proof.KB.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ) (ρ : Dev nD → PrngReg)

variable [FloatOps F]

/-! ## The obligation -/

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) tV (Memref.isWhole_whole _) oV (Memref.isWhole_whole _) iV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0) ⟨⟩ c s := rfl

set_option maxRecDepth 16384 in
theorem tileObl (hbody : TileBody m) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev

/-! ## A SparseCore's operands split among its tasks, and the results gather -/

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared buffer is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Tile `j`'s token of SparseCore `c`'s half of the index vector. -/
abbrev xTok (d : Dev nD) (c : Fin τ.nSC) (j : Fin 16) : sProp 𝕄 := xLoc d ↦{shareTok (coreShare c) 16 j} m (xLoc d)

omit [FloatOps F] in
/-- A family over the tiles that is `emp` off tile 0 is its member at tile 0. -/
theorem bigSep_tile0 (X : sProp 𝕄) : (bigSep Finset.univ fun i : Fin (grid0.bound 1) => if i.val = 0 then X else iprop(emp)) = X := by
  rw [bigSep_univ_at _ (⟨0, by decide⟩ : Fin (grid0.bound 1)),
    bigSep_congr (s := Finset.univ.erase (⟨0, by decide⟩ : Fin (grid0.bound 1))) (Φ := fun i : Fin (grid0.bound 1) => if i.val = 0 then X else iprop(emp))
      (Ψ := fun _ => (iprop(emp) : sProp 𝕄)) fun i hi => if_neg fun h => (Finset.mem_erase.mp hi).1 (Fin.ext h), bigSep_emp', if_pos rfl]
  exact BI.equiv_iff.mp sep_emp

theorem goL_eq (d : Dev nD) (c : Fin (grid0.bound 0)) (i : Fin (grid0.bound 1)) :
    goL m d (coordsV c i) = iprop(xTok m d (c.castLE hcore0) i ∗ oTask d (coordsV c i) (m (oLoc d))
      ∗ if i.val = 0 then iprop(tCore m d (c.castLE hcore0) ∗ shAll d (c.castLE hcore0)) else iprop(emp)) := rfl
theorem tdL_eq (d : Dev nD) (c : Fin (grid0.bound 0)) (i : Fin (grid0.bound 1)) :
    tdL m d (coordsV c i) = iprop(xTok m d (c.castLE hcore0) i ∗ oTask d (coordsV c i) (Gout m d) ∗ shTok m d (c.castLE hcore0) i
      ∗ if i.val = 0 then iprop(tCore m d (c.castLE hcore0) ∗ shRest m d (c.castLE hcore0)) else iprop(emp)) := rfl

theorem gos_eq (d : Dev nD) (c : Fin (grid0.bound 0)) : (bigSep Finset.univ fun i : Fin (grid0.bound 1) => goL m d (coordsV c i))
    = iprop((bigSep Finset.univ fun j : Fin 16 => xTok m d (c.castLE hcore0) j)
        ∗ (bigSep Finset.univ fun i : Fin (grid0.bound 1) => oTask d (coordsV c i) (m (oLoc d)))
        ∗ iprop(tCore m d (c.castLE hcore0) ∗ shAll d (c.castLE hcore0))) := by
  refine (bigSep_congr (s := Finset.univ) fun i _ => goL_eq m d c i).trans ?_
  rw [bigSep_sep', bigSep_sep', bigSep_tile0]
  rfl
theorem tds_eq (d : Dev nD) (c : Fin (grid0.bound 0)) : (bigSep Finset.univ fun i : Fin (grid0.bound 1) => tdL m d (coordsV c i))
    = iprop((bigSep Finset.univ fun j : Fin 16 => xTok m d (c.castLE hcore0) j)
        ∗ (bigSep Finset.univ fun i : Fin (grid0.bound 1) => oTask d (coordsV c i) (Gout m d))
        ∗ (bigSep Finset.univ fun j : Fin 16 => shTok m d (c.castLE hcore0) j)
        ∗ iprop(tCore m d (c.castLE hcore0) ∗ shRest m d (c.castLE hcore0))) := by
  refine (bigSep_congr (s := Finset.univ) fun i _ => tdL_eq m d c i).trans ?_
  rw [bigSep_sep', bigSep_sep', bigSep_sep', bigSep_tile0]
  rfl

/-- One SparseCore's split: each task its token of the index vector and its chunks, tile 0 also the table's half and
    the shared buffer; the rest of the index vector's half is kept for the way back, where the tokens rejoin it, the
    tasks' read shares of the shared copy rejoin tile 0's remainder, and the chunks come back at the lookup's values. -/
theorem vec_core (d : Dev nD) (c : Fin (grid0.bound 0)) :
    iprop(stC m d c ∗ shAll d (c.castLE hcore0)) ⊢ iprop((bigSep Finset.univ fun i : Fin (grid0.bound 1) => goL m d (coordsV c i))
      ∗ ((bigSep Finset.univ fun i : Fin (grid0.bound 1) => tdL m d (coordsV c i)) -∗ iprop(dnC m d c ∗ shAll d (c.castLE hcore0)))) := by
  rw [gos_eq, tds_eq]
  unfold stC dnC
  iintro ⟨⟨Hx, Ht, Ho⟩, Hsh⟩
  ihave Hx' := (Transfers.pointsTo_toks_split (coreShare (c.castLE hcore0)) 16) $$ Hx
  icases Hx' with ⟨Hxr, Hxt⟩
  isplitl [Hxt Ho Ht Hsh]
  · isplitl [Hxt]; · iexact Hxt
    isplitl [Ho]; · iexact Ho
    isplitl [Ht]; · iexact Ht
    iexact Hsh
  iintro ⟨Hxt, Ho, Hst, Ht, Hsr⟩
  isplitl [Hxr Hxt Ho Ht]
  · isplitl [Hxr Hxt]
    · iapply (Transfers.pointsTo_toks_join (coreShare (c.castLE hcore0)) 16)
      isplitl [Hxr]; · iexact Hxr
      iexact Hxt
    isplitl [Ht]; · iexact Ht
    iexact Ho
  iexists (tblSh m d (c.castLE hcore0))
  iapply (Transfers.pointsTo_toks_join fullShare 16)
  isplitl [Hsr]; · iexact Hsr
  iexact Hst

theorem vecSplit : (K (F := F)).VecSplit (P m) 0 := by
  intro d c
  show iprop(stC m d (Fin.cast nCore_zero c) ∗ ownBufs (S d (coreOf c))) ⊢ |={Set.univ}=> iprop(
      (bigSep Finset.univ fun i : Fin ((K (F := F)).nSub 0) => goL m d (coordsV (Fin.cast nCore_zero c) (Fin.cast nSub_zero i)))
      ∗ ((bigSep Finset.univ fun i : Fin ((K (F := F)).nSub 0) => tdL m d (coordsV (Fin.cast nCore_zero c) (Fin.cast nSub_zero i)))
          -∗ iprop(dnC m d (Fin.cast nCore_zero c) ∗ ownBufs (S d (coreOf c)))))
  rw [bigSep_tasks (F := F) (fun i => goL m d (coordsV (Fin.cast nCore_zero c) i)),
    bigSep_tasks (F := F) (fun i => tdL m d (coordsV (Fin.cast nCore_zero c) i)), ownBufs_S]
  iintro ⟨Hst, Hsh, Hrest⟩; imodintro
  ihave H := (vec_core m d (Fin.cast nCore_zero c)) $$ [Hst Hsh]
  · isplitl [Hst]; · iexact Hst
    iexact Hsh
  icases H with ⟨Hgo, Hw⟩
  isplitl [Hgo]; · iexact Hgo
  iintro Htd
  ihave H2 := Hw $$ Htd
  icases H2 with ⟨Hdn, Hsh⟩
  isplitl [Hdn]; · iexact Hdn
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(stC m d (0 : Fin 2) ∗ stC m d (1 : Fin 2)) :=
  bigSep_univ_two (fun c : Fin 2 => stC m d c)
theorem dn0_eq (d : Dev nD) : (bigSep Finset.univ fun c : Fin ((K (F := F)).nCore 0) => (P m).dn 0 d c) = iprop(dnC m d (0 : Fin 2) ∗ dnC m d (1 : Fin 2)) :=
  bigSep_univ_two (fun c : Fin 2 => dnC m d c)

/-- What the TensorCore keeps at the end: the result array at the lookup's values, the two arguments at the launch contents. -/
abbrev FIN (d : Dev nD) : sProp 𝕄 :=
  iprop((oLoc d ↦{fullShare} Gout m d) ∗ (xLoc d ↦{fullShare} m (xLoc d)) ∗ (tLoc d ↦{fullShare} m (tLoc d)))

omit [FloatOps F] in
theorem coreShare_c0 : coreShare ((0 : Fin 2).castLE hcore0) = fullShare.left := rfl
omit [FloatOps F] in
theorem coreShare_c1 : coreShare ((1 : Fin 2).castLE hcore0) = fullShare.right := rfl

omit [FloatOps F] in
/-- A whole read-only array is the two SparseCores' halves. -/
theorem halves (ℓ : Loc nD τ sig) (f : Buf (Elt F) ℓ) :
    (ℓ ↦{fullShare} f : sProp 𝕄) ⊣⊢ iprop((ℓ ↦{coreShare ((0 : Fin 2).castLE hcore0)} f) ∗ ℓ ↦{coreShare ((1 : Fin 2).castLE hcore0)} f) := by
  rw [coreShare_c0, coreShare_c1]
  exact pointsTo_share (PosShare.mem_left_op_right fullShare)

omit [FloatOps F] in
/-- The result array whole is the two SparseCores' tasks' chunks. -/
theorem oPts_cores (d : Dev nD) (f : Buf (Elt F) (oLoc d)) :
    (oLoc d ↦{fullShare} f : sProp 𝕄)
      = iprop((bigSep Finset.univ fun i : Fin (grid0.bound 1) => oTask d (coordsV (0 : Fin 2) i) f)
          ∗ bigSep Finset.univ fun i : Fin (grid0.bound 1) => oTask d (coordsV (1 : Fin 2) i) f) :=
  (oPts_chunks d f).trans (bigSep_univ_two (fun c : Fin 2 => bigSep Finset.univ fun i : Fin (grid0.bound 1) => oTask d (coordsV c i) f))

/-- The three arrays whole are the two SparseCores' operands. -/
theorem st_intro (d : Dev nD) :
    iprop((xLoc d ↦{fullShare} m (xLoc d)) ∗ (tLoc d ↦{fullShare} m (tLoc d)) ∗ oLoc d ↦{fullShare} m (oLoc d))
      ⊢ (iprop(stC m d (0 : Fin 2) ∗ stC m d (1 : Fin 2)) : sProp 𝕄) := by
  unfold stC
  iintro ⟨Hx, Ht, Ho⟩
  ihave Hx' := (halves (xLoc d) (m (xLoc d))).1 $$ Hx
  icases Hx' with ⟨Hx0, Hx1⟩
  ihave Ht' := (halves (tLoc d) (m (tLoc d))).1 $$ Ht
  icases Ht' with ⟨Ht0, Ht1⟩
  ihave Ho' := (Entails.of_eq (oPts_cores d (m (oLoc d)))) $$ Ho
  icases Ho' with ⟨Ho0, Ho1⟩
  isplitl [Hx0 Ht0 Ho0]
  · isplitl [Hx0]; · iexact Hx0
    isplitl [Ht0]; · iexact Ht0
    iexact Ho0
  isplitl [Hx1]; · iexact Hx1
  isplitl [Ht1]; · iexact Ht1
  iexact Ho1

/-- and their results are the three arrays whole, the result array at the lookup's values. -/
theorem dn_elim (d : Dev nD) : (iprop(dnC m d (0 : Fin 2) ∗ dnC m d (1 : Fin 2)) : sProp 𝕄) ⊢ FIN m d := by
  unfold dnC
  iintro ⟨⟨Hx0, Ht0, Ho0⟩, Hx1, Ht1, Ho1⟩
  isplitl [Ho0 Ho1]
  · iapply (Entails.of_eq (oPts_cores d (Gout m d)).symm)
    isplitl [Ho0]; · iexact Ho0
    iexact Ho1
  isplitl [Hx0 Hx1]
  · iapply (halves (xLoc d) (m (xLoc d))).2
    isplitl [Hx0]; · iexact Hx0
    iexact Hx1
  iapply (halves (tLoc d) (m (tLoc d))).2
  isplitl [Ht0]; · iexact Ht0
  iexact Ht1

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho⟩, -, -⟩, -⟩
  iapply ((K (F := F)).wp_run (D (F := F)) 𝒱 (EH := EH) (P := P m) κ d 0) $$ [Hst Hx Ht Ho]
  isplitr; · iexact Hctx
  isplitl [Hst]; · iexact Hst
  isplitl [Hx Ht Ho]
  · rw [st0_eq]
    iapply (st_intro m d)
    isplitl [Hx]; · iexact Hx
    isplitl [Ht]; · iexact Ht
    iexact Ho
  iintro ⟨Hst, Hdn⟩
  ihave Hdn' := (Entails.of_eq (dn0_eq m d)) $$ Hdn
  ihave Hfin := (dn_elim m d) $$ Hdn'
  imodintro
  isplitl [Hst]; · iexact Hst
  iexact Hfin

def fq (d : Dev nD) (s' : Phys nD τ sig (Elt F)) : Prop :=
  s'.mem.mem (oLoc d) = Gout m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ht⟩, HSI⟩
  icombine HSI Ho gives %ho
  icombine HSI Hx gives %hx
  icombine HSI Ht gives %ht
  ipureintro
  exact ⟨funext fun i => ho i (Finset.mem_univ i), funext fun i => hx i (Finset.mem_univ i), funext fun i => ht i (Finset.mem_univ i)⟩

/-! ## The program's run -/

def QC : PUnit × MemSt nD τ sig (Elt F) → Prop := fun r =>
  ∀ c : Dev nD, r.2.mem (oLoc c) = Gout m c ∧ r.2.mem (xLoc c) = m (xLoc c) ∧ r.2.mem (tLoc c) = m (tLoc c)

theorem run_main [∀ e, Nonempty (Elt F e)] (hbody : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody facts)
    (fun q _ => match q with | 0 => vecSplit m)
    m ρ main (fun _ => iprop(emp)) (FIN m) (u₀ (F := F)) (hu₀ m) (hmain m ρ) (fq m) (hfin m) (QC m) (fun _ h => h)

end Cert.Proof.KB

end
-- ==== Proof.KB.Pieces.lean ====
/-
  The pieces of a task's data. The task at grid point `L` serves rows `base L` … `base L + 511`. Its index scratch is
  filled by two copies — entries 0–63 and entries 64–511 — and read by the eight gathers as eight lists of 64 entries;
  once filled, entry `j` of the scratch is entry `base L + j` of the index vector.
-/
import proofs.«205415_g38302518346492_cont_8to1_b_1778_12_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)

/-- The eight 64-entry lists of the index scratch, as the gathers slice them. -/
abbrev iP0 : Memref sig .scVector .vmem S64 .i32 := (iV).slice (Rect.unit (s := S512) ![0] S64.size inb_S512_S64_0) (fun _ => rfl)
abbrev iP1 : Memref sig .scVector .vmem S64 .i32 := (iV).slice (Rect.unit (s := S512) ![64] S64.size inb_S512_S64_64) (fun _ => rfl)
abbrev iP2 : Memref sig .scVector .vmem S64 .i32 := (iV).slice (Rect.unit (s := S512) ![128] S64.size inb_S512_S64_128) (fun _ => rfl)
abbrev iP3 : Memref sig .scVector .vmem S64 .i32 := (iV).slice (Rect.unit (s := S512) ![192] S64.size inb_S512_S64_192) (fun _ => rfl)
abbrev iP4 : Memref sig .scVector .vmem S64 .i32 := (iV).slice (Rect.unit (s := S512) ![256] S64.size inb_S512_S64_256) (fun _ => rfl)
abbrev iP5 : Memref sig .scVector .vmem S64 .i32 := (iV).slice (Rect.unit (s := S512) ![320] S64.size inb_S512_S64_320) (fun _ => rfl)
abbrev iP6 : Memref sig .scVector .vmem S64 .i32 := (iV).slice (Rect.unit (s := S512) ![384] S64.size inb_S512_S64_384) (fun _ => rfl)
abbrev iP7 : Memref sig .scVector .vmem S64 .i32 := (iV).slice (Rect.unit (s := S512) ![448] S64.size inb_S512_S64_448) (fun _ => rfl)
/-- Entries 64–511 of the index scratch, as the second index copy writes them. -/
abbrev iB : Memref sig .scVector .vmem S448 .i32 := (iV).slice (Rect.unit (s := S512) ![64] S448.size inb_S512_S448_64) (fun _ => rfl)

/-- The first row of the task at `L`. -/
def base (L : grid0.Coords) : ℕ := 1024 * (L 1).val + 512 * (L 0).val
theorem base_lt (L : grid0.Coords) (j : ℕ) (hj : j < 512) : base L + j < 16384 := by
  have h1 : (L 1).val < 16 := (L 1).isLt
  have h0 : (L 0).val < 2 := (L 0).isLt
  unfold base; omega

/-- What the task's index scratch holds once both index copies have landed: entry `j` is entry `base + j` of the index vector. -/
def idxF (d : Dev nD) (L : grid0.Coords) : Buf (Elt F) ((iV).view.loc (V d (cV L) (jV L))) :=
  fun j => (m (xLoc d) : IVec ⟨1, ![16384]⟩ 32) (ValueIdx.ix1 ⟨base L + (j 0).val, base_lt L _ (j 0).isLt⟩)

abbrev xSl2 (L : grid0.Coords) : Memref sig .scVector .hbm S64 .i32 := (xV).slice (Rect.unit (s := S16384) (k0_off2 L) S64.size (k0_off2_inb L)) (fun _ => rfl)
abbrev xSl1 (L : grid0.Coords) : Memref sig .scVector .hbm S448 .i32 := (xV).slice (Rect.unit (s := S16384) (k0_off1 L) S448.size (k0_off1_inb L)) (fun _ => rfl)

/-- A DMA semaphore of the task's thread, as a cell. -/
abbrev cellOf (d : Dev nD) (L : grid0.Coords) (s : DmaSems sig S_) : GSem nD τ sig := (V d (cV L) (jV L), .dma s.sem)

end Cert.Proof.KB

end
-- ==== Proof.KB.Own.lean ====
/-
  A task's own semaphores and buffers, opened: the thread's own cells are its seven DMA semaphores and the rest, its
  own buffers the index scratch, the two row scratches and the rest. Each equation is the big separating conjunction
  over the thread's own cells (buffers) with the named members taken out one after another.
-/
import proofs.«205415_g38302518346492_cont_8to1_b_1778_12_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

/-- A big separating conjunction over eight indices, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Cells of one thread on different semaphores are different. -/
theorem cellOf_ne (d : Dev nD) (L : grid0.Coords) {s s' : DmaSems sig S_} (h : s.sem ≠ s'.sem) : cellOf d L s ≠ cellOf d L s' :=
  fun e => h (SemLoc.dma.inj (Prod.mk.inj e).2)

/-- A scoped DMA semaphore of the task's thread is among its own cells. -/
theorem cellOf_own (d : Dev nD) (L : grid0.Coords) (s : DmaSems sig S_) (h : (SemLoc.dma s.sem : SemLoc sig).isScoped .scVector = true) :
    cellOf d L s ∈ ownCells (V d (cV L) (jV L)) :=
  (mem_ownCells (g := cellOf d L s)).mpr ⟨rfl, h⟩

/-- The thread's own cells other than its seven DMA semaphores. -/
def semsRest (d : Dev nD) (L : grid0.Coords) : Finset (GSem nD τ sig) :=
  (((((((ownCells (V d (cV L) (jV L))).erase (cellOf d L cc0_scratch4)).erase (cellOf d L cc0_scratch5)).erase (cellOf d L cc0_scratch6)).erase (cellOf d L cc0_scratch7)).erase (cellOf d L cc0_scratch8)).erase (cellOf d L cc0_scratch9)).erase (cellOf d L cc0_scoped0)

theorem ownSems0_open (d : Dev nD) (L : grid0.Coords) :
    (ownSems0 (V d (cV L) (jV L)) : sProp 𝕄)
      = iprop(semVal (cellOf d L cc0_scratch4) 0 ∗ semVal (cellOf d L cc0_scratch5) 0 ∗ semVal (cellOf d L cc0_scratch6) 0 ∗ semVal (cellOf d L cc0_scratch7) 0 ∗ semVal (cellOf d L cc0_scratch8) 0 ∗ semVal (cellOf d L cc0_scratch9) 0 ∗ semVal (cellOf d L cc0_scoped0) 0
          ∗ bigSep (semsRest d L) fun g => semVal g 0) := by
  unfold SparseCore.Cfg.ownSems0 semsRest
  rw [SparseCore.bigSep_erase' (cellOf_own d L cc0_scratch4 (by decide)),
    SparseCore.bigSep_erase' (Finset.mem_erase.mpr ⟨cellOf_ne d L (by decide), cellOf_own d L cc0_scratch5 (by decide)⟩),
    SparseCore.bigSep_erase' (Finset.mem_erase.mpr ⟨cellOf_ne d L (by decide), Finset.mem_erase.mpr ⟨cellOf_ne d L (by decide), cellOf_own d L cc0_scratch6 (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_own d L cc0_scratch7 (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scratch8 (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scratch9 (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_own d L cc0_scoped0 (by decide)⟩⟩⟩⟩⟩⟩)]

/-- Buffers of one processor under different names are different. -/
theorem devRef_ne (L : grid0.Coords) {b b' : Ref sig .scVector} (h : b ≠ b') :
    (Proc.scVector (cV L) (jV L)).devRef b ≠ (Proc.scVector (cV L) (jV L)).devRef b' :=
  fun e => h (Proc.devRef_injective (Proc.scVector (cV L) (jV L)) e)

/-- The thread's own buffers other than the index scratch and the two row scratches. -/
def bufsRest (L : grid0.Coords) : Finset (DevRef τ sig) :=
  (((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)

theorem ownBufs_open (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep (bufsRest L) fun b => iprop(∃ f, ((d, b) : Loc nD τ sig) ↦{fullShare} f)) := by
  unfold SparseCore.Cfg.ownBufs bufsRest
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨devRef_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨devRef_ne L (by decide), Finset.mem_erase.mpr ⟨devRef_ne L (by decide), SparseCore.Cfg.mem_ownRefs_of_owner (p := Proc.scVector (cV L) (jV L)) (b := (Proc.scVector (cV L) (jV L)).devRef cc0_scratch2) rfl⟩⟩)]

end Cert.Proof.KB

end
-- ==== Proof.KB.OutValue.lean ====
/-
  The value a task leaves in the result array. Gather `k` fills a row buffer with, at row `r` and column `c`, entry
  `(x (base + 64 k + r), c)` of the shared copy of the table — the row the `r`-th word of the `k`-th list names —, and the
  copy-out writes that buffer over chunk `k` of the task's rows, rows `base + 64 k` … `base + 64 k + 63` of the result.
  With every index word a row number of the table, that is the lookup's value on the chunk.
-/
import proofs.«205415_g38302518346492_cont_8to1_b_1778_12_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)

/-- The shared copy of the table, as the gathers slice it (whole). -/
abbrev shSl : Memref sig .scVector .shared S128x128 .f32 :=
  (shV).slice (Rect.unit (s := S128x128) ![0, 0] S128x128.size inb_S128x128_S128x128_0_0) (fun _ => rfl)

/-- The eight chunks of the task's rows of the result, as the copy-outs slice them. -/
abbrev oC0 (L : grid0.Coords) : Memref sig .scVector .hbm S64x128 .f32 := (oV).slice (Rect.unit (s := S16384x128) (k0_off3 L 0#32) S64x128.size (k0_off3_inb L 0)) (fun _ => rfl)
abbrev oC1 (L : grid0.Coords) : Memref sig .scVector .hbm S64x128 .f32 := (oV).slice (Rect.unit (s := S16384x128) (k0_off3 L 64#32) S64x128.size (k0_off3_inb L 1)) (fun _ => rfl)
abbrev oC2 (L : grid0.Coords) : Memref sig .scVector .hbm S64x128 .f32 := (oV).slice (Rect.unit (s := S16384x128) (k0_off3 L 128#32) S64x128.size (k0_off3_inb L 2)) (fun _ => rfl)
abbrev oC3 (L : grid0.Coords) : Memref sig .scVector .hbm S64x128 .f32 := (oV).slice (Rect.unit (s := S16384x128) (k0_off3 L 192#32) S64x128.size (k0_off3_inb L 3)) (fun _ => rfl)
abbrev oC4 (L : grid0.Coords) : Memref sig .scVector .hbm S64x128 .f32 := (oV).slice (Rect.unit (s := S16384x128) (k0_off3 L 256#32) S64x128.size (k0_off3_inb L 4)) (fun _ => rfl)
abbrev oC5 (L : grid0.Coords) : Memref sig .scVector .hbm S64x128 .f32 := (oV).slice (Rect.unit (s := S16384x128) (k0_off3 L 320#32) S64x128.size (k0_off3_inb L 5)) (fun _ => rfl)
abbrev oC6 (L : grid0.Coords) : Memref sig .scVector .hbm S64x128 .f32 := (oV).slice (Rect.unit (s := S16384x128) (k0_off3 L 384#32) S64x128.size (k0_off3_inb L 6)) (fun _ => rfl)
abbrev oC7 (L : grid0.Coords) : Memref sig .scVector .hbm S64x128 .f32 := (oV).slice (Rect.unit (s := S16384x128) (k0_off3 L 448#32) S64x128.size (k0_off3_inb L 7)) (fun _ => rfl)

/-- What a gather out of a table `T` over a 64-word list `idx` delivers. -/
abbrev gPay (T : S128x128.Idx → Elt F .f32) (idx : S64.Idx → Elt F .i32)
    (hin : ∀ j, (idx j).toNat < S128x128.size gathers_S128x128_S64x128.axis) : S64x128.Idx → Elt F .f32 :=
  SparseCore.gatherPayload gathers_S128x128_S64x128 T (SparseCore.rows idx rfl hin)

variable [FloatOps F]

omit [FloatOps F] in
theorem numel_S64 : S64.numel = 64 := by decide

omit [FloatOps F] in
/-- Entry `k` of a 64-word list in row-major order is its entry at index `k`. -/
theorem rowMajor_symm_S64 (k : Fin S64.numel) : S64.rowMajor.symm k = ValueIdx.ix1 (⟨k.val, numel_S64 ▸ k.isLt⟩ : Fin 64) := by
  rw [Equiv.symm_apply_eq]
  apply Fin.ext
  rw [Shape.rowMajor_val_one]

omit [FloatOps F] in
/-- A 64-word list of the index scratch starting at entry `n` reads, at `j`, entry `base + n + j` of the index vector. -/
theorem read_idx (d : Dev nD) (L : grid0.Coords) (n : ℕ) (inb : ∀ a, (![n] : Fin 1 → ℕ) a + S64.size a ≤ S512.size a) (j : S64.Idx)
    (t : Fin 16384) (ht : t.val = base L + (n + (j 0).val)) :
    View.read (Elt F) ((iV).slice (Rect.unit (s := S512) ![n] S64.size inb) (fun _ => rfl)).view (idxF m d L) j
      = (m (xLoc d) : IVec ⟨1, ![16384]⟩ 32) (ValueIdx.ix1 t) := by
  show idxF m d L (((iV).slice (Rect.unit (s := S512) ![n] S64.size inb) (fun _ => rfl)).view.emb j) = _
  unfold idxF
  refine congrArg (m (xLoc d) : IVec ⟨1, ![16384]⟩ 32) (congrArg ValueIdx.ix1 (Fin.ext ?_))
  show base L + (n + 1 * (j 0).val) = t.val
  omega

omit [FloatOps F] in
/-- The shared copy, sliced whole at offset (0, 0), reads as the table does. -/
theorem read_tbl (d : Dev nD) (c : Fin τ.nSC) (z : S128x128.Idx) :
    View.read (Elt F) shSl.view (tblSh m d c) z = (m (tLoc d) : FVec F ⟨2, ![128, 128]⟩ .f32) (ValueIdx.ix2 (z 0 : Fin 128) (z 1 : Fin 128)) := by
  show (m (tLoc d) : FVec F ⟨2, ![128, 128]⟩ .f32) (shSl.view.emb z) = _
  refine congrArg (m (tLoc d) : FVec F ⟨2, ![128, 128]⟩ .f32) (funext fun a => ?_)
  match a with
  | ⟨0, _⟩ => exact Fin.ext (show 0 + 1 * (z 0).val = (z 0).val by omega)
  | ⟨1, _⟩ => exact Fin.ext (show 0 + 1 * (z 1).val = (z 1).val by omega)

omit [FloatOps F] in
/-- One write of a whole 64-row block through a chunk, read back at the chunk's element `y`, is the payload at `y`. -/
theorem write_read_back (L : grid0.Coords) (k : Fin 8) (f : (oSl L k).view.ty.Contents (Elt F)) (w : S64x128.Idx → Elt F .f32) (y : S64x128.Idx) :
    (oSl L k).view.writes (Elt F) f [⟨Rect.whole S64x128, w⟩] ((oSl L k).view.emb y) = w y := by
  have h := View.read_writes_cons_emb (oSl L k).view f (Rect.whole S64x128) w [] y
  rw [Rect.emb_whole_apply] at h
  exact h

omit [FloatOps F] in
/-- A row buffer whose last write is a whole block reads that block's payload. -/
theorem head_read (v : View sig .scVector .vmem S64x128 .f32) (fprev : v.ty.Contents (Elt F)) (w : S64x128.Idx → Elt F .f32)
    (rest : List (View.Piece (Elt F) S64x128 .f32)) (y : S64x128.Idx) :
    View.read (Elt F) v (v.writes (Elt F) fprev (⟨Rect.whole S64x128, w⟩ :: rest)) y = w y := by
  have h := View.read_writes_cons_emb v fprev (Rect.whole S64x128) w rest y
  rw [Rect.emb_whole_apply] at h
  exact h

/-- THE VALUE of chunk `k`: the gather over the `k`-th list delivers, at row `r` and column `c`, the table's entry at the row
    that word `base + 64 k + r` of the index vector names and column `c`; the copy-out writes it at row `base + 64 k + r`,
    column `c` of the result; every index word being a row number, that is the lookup there. -/
theorem out_value_gen (hr : ∀ (d : Dev nD) (r : Fin 16384), ((m (xLoc d) : IVec ⟨1, ![16384]⟩ 32) (ValueIdx.ix1 r)).toNat < 128)
    (d : Dev nD) (L : grid0.Coords) (k : Fin 8) (n : ℕ) (hn : n = 64 * k.val)
    (inb : ∀ a, (![n] : Fin 1 → ℕ) a + S64.size a ≤ S512.size a)
    (v : View sig .scVector .vmem S64x128 .f32) (fprev : v.ty.Contents (Elt F))
    (rest : List (View.Piece (Elt F) S64x128 .f32))
    (hin : ∀ j, (View.read (Elt F) ((iV).slice (Rect.unit (s := S512) ![n] S64.size inb) (fun _ => rfl)).view (idxF m d L) j).toNat
      < S128x128.size gathers_S128x128_S64x128.axis) :
    ∀ i ∈ (oSl L k).view.set,
      ((oSl L k).view.writes (Elt F) (m (oLoc d)) [⟨Rect.whole S64x128, ReadAs.same.apply (View.read (Elt F) v
        (v.writes (Elt F) fprev (⟨Rect.whole S64x128, gPay (View.read (Elt F) shSl.view (tblSh m d (cV L)))
          (View.read (Elt F) ((iV).slice (Rect.unit (s := S512) ![n] S64.size inb) (fun _ => rfl)).view (idxF m d L)) hin⟩ :: rest)))⟩]) i
        = Gout m d i := by
  intro i hi
  obtain ⟨y, -, rfl⟩ := Finset.mem_map.mp hi
  refine (write_read_back L k (m (oLoc d)) _ y).trans ?_
  rw [ReadAs.apply_same]
  refine (head_read v fprev _ rest y).trans ?_
  refine (read_tbl m d (cV L) _).trans ?_
  -- the offsets of the chunk, in closed form
  have hoff := k0_off3_eq L k
  have hk : k.val < 8 := k.isLt
  have hy0 : (y 0).val < 64 := (y 0).isLt
  have hL1 : (L 1).val < 16 := (L 1).isLt
  have hL0 : (L 0).val < 2 := (L 0).isLt
  have hi0 : (((oSl L k).view.emb y : S16384x128.Idx) 0).val = 1024 * (L 1).val + 512 * (L 0).val + 64 * k.val + (y 0).val := by
    show (k0_off3 L (BitVec.ofNat 32 (64 * k.val))) 0 + 1 * (y 0).val = _
    rw [hoff]; show 1024 * (L 1).val + 512 * (L 0).val + 64 * k.val + 1 * (y 0).val = _; omega
  have hi1 : (((oSl L k).view.emb y : S16384x128.Idx) 1).val = (y 1).val := by
    show (k0_off3 L (BitVec.ofNat 32 (64 * k.val))) 1 + 1 * (y 1).val = _
    rw [hoff]; show 0 + 1 * (y 1).val = _; omega
  show _ = (m (tLoc d) : FVec F ⟨2, ![128, 128]⟩ .f32)
    (ValueIdx.ix2 (Cert.Spec.row (m (xLoc d)) (((oSl L k).view.emb y : S16384x128.Idx) 0)) (((oSl L k).view.emb y : S16384x128.Idx) 1))
  refine congrArg (m (tLoc d) : FVec F ⟨2, ![128, 128]⟩ .f32) ?_
  refine congr (congrArg ValueIdx.ix2 (Fin.ext ?_)) (Fin.ext ?_)
  · -- the row: the word the list names, a row number
    refine (congrArg Fin.val (Shape.Gathers.idx_axis gathers_S128x128_S64x128 _ y)).trans ?_
    show (View.read (Elt F) ((iV).slice (Rect.unit (s := S512) ![n] S64.size inb) (fun _ => rfl)).view (idxF m d L) (S64.rowMajor.symm _)).toNat = _
    rw [rowMajor_symm_S64]
    refine (congrArg BitVec.toNat (read_idx m d L n inb _ (((oSl L k).view.emb y : S16384x128.Idx) 0) ?_)).trans
      (Nat.mod_eq_of_lt (hr d _)).symm
    rw [hi0]; unfold base
    show _ = 1024 * (L 1).val + 512 * (L 0).val + (n + (y 0).val)
    omega
  · -- the column: its own
    refine (Shape.Gathers.idx_of_ne gathers_S128x128_S64x128 _ y ⟨1, by decide⟩ (by decide)).trans ?_
    rw [hi1]; rfl

theorem out_value_0 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP0).view (idxF m d L) j).toNat < S128x128.size gathers_S128x128_S64x128.axis) :
    ∀ i ∈ (oC0 L).view.set,
      ((oC0 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP0).view (idxF m d L)) hin⟩ :: rest)))⟩]) i
        = Gout m d i := by
  exact out_value_gen m hr d L ⟨0, by decide⟩ 0 rfl inb_S512_S64_0 v fprev rest hin

theorem out_value_1 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP1).view (idxF m d L) j).toNat < S128x128.size gathers_S128x128_S64x128.axis) :
    ∀ i ∈ (oC1 L).view.set,
      ((oC1 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP1).view (idxF m d L)) hin⟩ :: rest)))⟩]) i
        = Gout m d i := by
  exact out_value_gen m hr d L ⟨1, by decide⟩ 64 rfl inb_S512_S64_64 v fprev rest hin

theorem out_value_2 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP2).view (idxF m d L) j).toNat < S128x128.size gathers_S128x128_S64x128.axis) :
    ∀ i ∈ (oC2 L).view.set,
      ((oC2 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP2).view (idxF m d L)) hin⟩ :: rest)))⟩]) i
        = Gout m d i := by
  exact out_value_gen m hr d L ⟨2, by decide⟩ 128 rfl inb_S512_S64_128 v fprev rest hin

theorem out_value_3 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP3).view (idxF m d L) j).toNat < S128x128.size gathers_S128x128_S64x128.axis) :
    ∀ i ∈ (oC3 L).view.set,
      ((oC3 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP3).view (idxF m d L)) hin⟩ :: rest)))⟩]) i
        = Gout m d i := by
  exact out_value_gen m hr d L ⟨3, by decide⟩ 192 rfl inb_S512_S64_192 v fprev rest hin

theorem out_value_4 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP4).view (idxF m d L) j).toNat < S128x128.size gathers_S128x128_S64x128.axis) :
    ∀ i ∈ (oC4 L).view.set,
      ((oC4 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP4).view (idxF m d L)) hin⟩ :: rest)))⟩]) i
        = Gout m d i := by
  exact out_value_gen m hr d L ⟨4, by decide⟩ 256 rfl inb_S512_S64_256 v fprev rest hin

theorem out_value_5 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP5).view (idxF m d L) j).toNat < S128x128.size gathers_S128x128_S64x128.axis) :
    ∀ i ∈ (oC5 L).view.set,
      ((oC5 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP5).view (idxF m d L)) hin⟩ :: rest)))⟩]) i
        = Gout m d i := by
  exact out_value_gen m hr d L ⟨5, by decide⟩ 320 rfl inb_S512_S64_320 v fprev rest hin

theorem out_value_6 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP6).view (idxF m d L) j).toNat < S128x128.size gathers_S128x128_S64x128.axis) :
    ∀ i ∈ (oC6 L).view.set,
      ((oC6 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP6).view (idxF m d L)) hin⟩ :: rest)))⟩]) i
        = Gout m d i := by
  exact out_value_gen m hr d L ⟨6, by decide⟩ 384 rfl inb_S512_S64_384 v fprev rest hin

theorem out_value_7 (hr : ∀ (d : Dev nD) (r : Fin 16384), ((m (xLoc d) : IVec ⟨1, ![16384]⟩ 32) (ValueIdx.ix1 r)).toNat < 128)
    (d : Dev nD) (L : grid0.Coords) (v : View sig .scVector .vmem S64x128 .f32) (fprev : v.ty.Contents (Elt F))
    (rest : List (View.Piece (Elt F) S64x128 .f32))
    (hin : ∀ j, (View.read (Elt F) (iP7).view (idxF m d L) j).toNat < S128x128.size gathers_S128x128_S64x128.axis) :
    ∀ i ∈ (oC7 L).view.set,
      ((oC7 L).view.writes (Elt F) (m (oLoc d)) [⟨Rect.whole S64x128, ReadAs.same.apply (View.read (Elt F) v
        (v.writes (Elt F) fprev (⟨Rect.whole S64x128, gPay (View.read (Elt F) shSl.view (tblSh m d (cV L))) (View.read (Elt F) (iP7).view (idxF m d L)) hin⟩ :: rest)))⟩]) i
        = Gout m d i := by
  exact out_value_gen m hr d L ⟨7, by decide⟩ 448 rfl inb_S512_S64_448 v fprev rest hin

end Cert.Proof.KB

end
-- ==== Proof.KB.IdxSplit.lean ====
/-
  The index scratch as ranges of entries. The elements under a unit-stride slice of the scratch form a half-open range;
  ownership of a range splits at any point of it. Hence the whole scratch is entries 0–63 together with entries 64–511,
  and entries 64–511 are seven consecutive lists of 64.
-/
import proofs.«205415_g38302518346492_cont_8to1_b_1778_12_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)

/-- The elements under a unit-stride slice of the index scratch: a half-open range of entries. -/
theorem mem_piece {off size : Fin S512.rank → ℕ} {inb : ∀ a, off a + size a ≤ S512.size a} (i : S512.Idx) :
    Iff (i ∈ (((iV).slice (Rect.unit (s := S512) off size inb) (fun _ => rfl)).view.set : Finset S512.Idx))
      (off 0 ≤ (i 0).val ∧ (i 0).val < off 0 + size 0) := by
  have e : (((iV).slice (Rect.unit (s := S512) off size inb) (fun _ => rfl)).view.set : Finset S512.Idx)
      = (Rect.unit (s := S512) off size inb).set := View.set_slice_whole cc0_scratch0 _
  refine Iff.trans (Eq.to_iff (congrArg (fun s : Finset S512.Idx => i ∈ s) e)) ?_
  refine Iff.trans Rect.mem_set_unit ?_
  exact Fin.forall_fin_one

/-- The entries of the index scratch from `a` up to (not including) `b`. -/
def rng (a b : ℕ) : Finset S512.Idx := Finset.univ.filter fun i => a ≤ (i 0).val ∧ (i 0).val < b

theorem mem_rng {a b : ℕ} {i : S512.Idx} : Iff (i ∈ rng a b) (a ≤ (i 0).val ∧ (i 0).val < b) := by
  unfold rng; rw [Finset.mem_filter]; exact ⟨fun h => h.2, fun h => ⟨Finset.mem_univ i, h⟩⟩

/-- A unit-stride slice of the index scratch holds the range from its offset on, of its size. -/
theorem piece_set {off size : Fin S512.rank → ℕ} {inb : ∀ a, off a + size a ≤ S512.size a} {a b : ℕ}
    (ha : off 0 = a) (hb : off 0 + size 0 = b) :
    (((iV).slice (Rect.unit (s := S512) off size inb) (fun _ => rfl)).view.set : Finset S512.Idx) = rng a b := by
  subst ha hb; ext i; exact (mem_piece i).trans mem_rng.symm

theorem univ_rng : (Finset.univ : Finset S512.Idx) = rng 0 512 := by
  ext i
  have h : (i 0).val < 512 := (i 0).isLt
  exact ⟨fun _ => mem_rng.mpr ⟨Nat.zero_le _, h⟩, fun _ => Finset.mem_univ i⟩

/-- Ownership of a range of the index scratch splits at any point of it. -/
theorem rng_split (d : Dev nD) (L : grid0.Coords) (f : Buf (Elt F) ((iV).view.loc (V d (cV L) (jV L)))) {a b c : ℕ}
    (hab : a ≤ b) (hbc : b ≤ c) :
    ((iV).view.loc (V d (cV L) (jV L)) ↦[rng a c]{fullShare} f : sProp 𝕄)
      = iprop(((iV).view.loc (V d (cV L) (jV L)) ↦[rng a b]{fullShare} f) ∗ ((iV).view.loc (V d (cV L) (jV L)) ↦[rng b c]{fullShare} f)) := by
  have hd : Disjoint (rng a b) (rng b c) := by
    rw [Finset.disjoint_left]; intro i h0 h1
    rw [mem_rng] at h0 h1; omega
  have hu : rng a c = rng a b ∪ rng b c := by
    ext i; rw [Finset.mem_union, mem_rng, mem_rng, mem_rng]; omega
  have h : ((iV).view.loc (V d (cV L) (jV L)) ↦[rng a b ∪ rng b c]{fullShare} f : sProp 𝕄) ⊣⊢ _ := pointsTo_union hd
  rw [hu]
  exact BI.equiv_iff.mp ⟨h.1, h.2⟩

theorem set_iP0 : ((iP0).view.set : Finset S512.Idx) = rng 0 64 := piece_set rfl rfl
theorem set_iP1 : ((iP1).view.set : Finset S512.Idx) = rng 64 128 := piece_set rfl rfl
theorem set_iP2 : ((iP2).view.set : Finset S512.Idx) = rng 128 192 := piece_set rfl rfl
theorem set_iP3 : ((iP3).view.set : Finset S512.Idx) = rng 192 256 := piece_set rfl rfl
theorem set_iP4 : ((iP4).view.set : Finset S512.Idx) = rng 256 320 := piece_set rfl rfl
theorem set_iP5 : ((iP5).view.set : Finset S512.Idx) = rng 320 384 := piece_set rfl rfl
theorem set_iP6 : ((iP6).view.set : Finset S512.Idx) = rng 384 448 := piece_set rfl rfl
theorem set_iP7 : ((iP7).view.set : Finset S512.Idx) = rng 448 512 := piece_set rfl rfl
theorem set_iB : ((iB).view.set : Finset S512.Idx) = rng 64 512 := piece_set rfl rfl

/-- The whole index scratch is its first 64 entries and the remaining 448. -/
theorem idx_split (d : Dev nD) (L : grid0.Coords) (f : Buf (Elt F) ((iV).view.loc (V d (cV L) (jV L)))) :
    ((iV).view.loc (V d (cV L) (jV L)) ↦{fullShare} f : sProp 𝕄)
      = iprop(((iP0).view.loc (V d (cV L) (jV L)) ↦[(iP0).view.set]{fullShare} f)
          ∗ ((iB).view.loc (V d (cV L) (jV L)) ↦[(iB).view.set]{fullShare} f)) := by
  show ((iV).view.loc (V d (cV L) (jV L)) ↦[(Finset.univ : Finset S512.Idx)]{fullShare} f : sProp 𝕄)
    = iprop(((iV).view.loc (V d (cV L) (jV L)) ↦[((iP0).view.set : Finset S512.Idx)]{fullShare} f)
          ∗ ((iV).view.loc (V d (cV L) (jV L)) ↦[((iB).view.set : Finset S512.Idx)]{fullShare} f))
  rw [set_iP0, set_iB, univ_rng]
  exact rng_split d L f (by omega) (by omega)

/-- Entries 64–511 of the index scratch are seven lists of 64. -/
theorem iB_split (d : Dev nD) (L : grid0.Coords) (f : Buf (Elt F) ((iV).view.loc (V d (cV L) (jV L)))) :
    ((iB).view.loc (V d (cV L) (jV L)) ↦[(iB).view.set]{fullShare} f : sProp 𝕄)
      = iprop(((iP1).view.loc (V d (cV L) (jV L)) ↦[(iP1).view.set]{fullShare} f)
          ∗ ((iP2).view.loc (V d (cV L) (jV L)) ↦[(iP2).view.set]{fullShare} f)
          ∗ ((iP3).view.loc (V d (cV L) (jV L)) ↦[(iP3).view.set]{fullShare} f)
          ∗ ((iP4).view.loc (V d (cV L) (jV L)) ↦[(iP4).view.set]{fullShare} f)
          ∗ ((iP5).view.loc (V d (cV L) (jV L)) ↦[(iP5).view.set]{fullShare} f)
          ∗ ((iP6).view.loc (V d (cV L) (jV L)) ↦[(iP6).view.set]{fullShare} f)
          ∗ ((iP7).view.loc (V d (cV L) (jV L)) ↦[(iP7).view.set]{fullShare} f)) := by
  show ((iV).view.loc (V d (cV L) (jV L)) ↦[((iB).view.set : Finset S512.Idx)]{fullShare} f : sProp 𝕄)
    = iprop(((iV).view.loc (V d (cV L) (jV L)) ↦[((iP1).view.set : Finset S512.Idx)]{fullShare} f)
          ∗ ((iV).view.loc (V d (cV L) (jV L)) ↦[((iP2).view.set : Finset S512.Idx)]{fullShare} f)
          ∗ ((iV).view.loc (V d (cV L) (jV L)) ↦[((iP3).view.set : Finset S512.Idx)]{fullShare} f)
          ∗ ((iV).view.loc (V d (cV L) (jV L)) ↦[((iP4).view.set : Finset S512.Idx)]{fullShare} f)
          ∗ ((iV).view.loc (V d (cV L) (jV L)) ↦[((iP5).view.set : Finset S512.Idx)]{fullShare} f)
          ∗ ((iV).view.loc (V d (cV L) (jV L)) ↦[((iP6).view.set : Finset S512.Idx)]{fullShare} f)
          ∗ ((iV).view.loc (V d (cV L) (jV L)) ↦[((iP7).view.set : Finset S512.Idx)]{fullShare} f))
  rw [set_iB, set_iP1, set_iP2, set_iP3, set_iP4, set_iP5, set_iP6, set_iP7,
    rng_split d L f (a := 64) (b := 128) (c := 512) (by omega) (by omega),
    rng_split d L f (a := 128) (b := 192) (c := 512) (by omega) (by omega),
    rng_split d L f (a := 192) (b := 256) (c := 512) (by omega) (by omega),
    rng_split d L f (a := 256) (b := 320) (c := 512) (by omega) (by omega),
    rng_split d L f (a := 320) (b := 384) (c := 512) (by omega) (by omega),
    rng_split d L f (a := 384) (b := 448) (c := 512) (by omega) (by omega)]

end Cert.Proof.KB

end
-- ==== Proof.KB.IdxValue.lean ====
/-
  What the index scratch holds. An index copy writes a slice of the index vector over a slice of the scratch; under a
  unit-stride slice, index `x` sits at the slice's offset plus `x`, in the scratch and in the index vector alike. So the
  first copy leaves at entries 0–63, and the second at entries 64–511, the index vector's entry `base` further on; each
  of the eight 64-entry lists then reads the index vector's entries from `base` plus its offset, and, all entries of the
  index vector being below 128, names rows of the table only.
-/
import proofs.«205415_g38302518346492_cont_8to1_b_1778_12_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)

/-- The element of the index scratch under index `x` of a unit-stride slice: the slice's offset plus `x`. -/
theorem iemb_val {off size : Fin S512.rank → ℕ} {inb : ∀ a, off a + size a ≤ S512.size a}
    (x : (Rect.unit (s := S512) off size inb).shape.Idx) :
    (((((iV).slice (Rect.unit (s := S512) off size inb) (fun _ => rfl)).view.emb x : S512.Idx)) 0).val = off 0 + (x 0).val := by
  show ((Rect.unit (s := S512) off size inb).emb x 0 : ℕ) = _
  rw [Rect.emb_apply, Rect.off_unit, Rect.stride_unit, Nat.one_mul]

/-- The element of the index vector under index `x` of a unit-stride slice: the slice's offset plus `x`. -/
theorem xemb_val {off size : Fin S16384.rank → ℕ} {inb : ∀ a, off a + size a ≤ S16384.size a}
    (x : (Rect.unit (s := S16384) off size inb).shape.Idx) :
    (((((xV).slice (Rect.unit (s := S16384) off size inb) (fun _ => rfl)).view.emb x : S16384.Idx)) 0).val = off 0 + (x 0).val := by
  show ((Rect.unit (s := S16384) off size inb).emb x 0 : ℕ) = _
  rw [Rect.emb_apply, Rect.off_unit, Rect.stride_unit, Nat.one_mul]

theorem off2_zero (L : grid0.Coords) : k0_off2 L 0 = base L := by rw [k0_off2_eq]; rfl
theorem off1_zero (L : grid0.Coords) : k0_off1 L 0 = base L + 64 := by rw [k0_off1_eq]; rfl

/-- The first index copy leaves, at each of entries 0–63 of the scratch, the index vector's entry `base` further on. -/
theorem idx_A (d : Dev nD) (L : grid0.Coords) (g : Buf (Elt F) ((iP0).view.loc (V d (cV L) (jV L)))) :
    ∀ i ∈ (iP0).view.set, ((iP0).view.writes (Elt F) g
      [⟨Rect.whole S64, ReadAs.same.apply (View.read (Elt F) (xSl2 L).view (m (xLoc d)))⟩]) i = idxF m d L i := by
  intro i hi
  obtain ⟨x, -, rfl⟩ := Finset.mem_map.mp hi
  rw [View.writes_singleton]
  have e : (iP0).view.emb x = ((iP0).view.slice (Rect.whole S64)).emb x := by
    show (iP0).view.emb x = (iP0).view.emb ((Rect.whole S64).emb x)
    rw [Rect.emb_whole_apply]
  rw [e, View.write_emb_of_mem _ _ (Finset.mem_univ x), ← e]
  rw [cast_eq, ReadAs.apply_same, View.read_apply, cast_eq]
  unfold idxF
  refine congrArg (m (xLoc d)) (?_ : (_ : S16384.Idx) = _)
  funext (a : Fin 1)
  obtain rfl : a = 0 := Subsingleton.elim _ _
  apply Fin.ext
  show ((((xSl2 L).view.emb x : S16384.Idx)) 0).val = base L + ((((iP0).view.emb x : S512.Idx)) 0).val
  rw [xemb_val, iemb_val, off2_zero]
  simp only [Matrix.cons_val_zero, Nat.zero_add]

/-- The second index copy leaves, at each of entries 64–511 of the scratch, the index vector's entry `base` further on. -/
theorem idx_B (d : Dev nD) (L : grid0.Coords) (g : Buf (Elt F) ((iB).view.loc (V d (cV L) (jV L)))) :
    ∀ i ∈ (iB).view.set, ((iB).view.writes (Elt F) g
      [⟨Rect.whole S448, ReadAs.same.apply (View.read (Elt F) (xSl1 L).view (m (xLoc d)))⟩]) i = idxF m d L i := by
  intro i hi
  obtain ⟨x, -, rfl⟩ := Finset.mem_map.mp hi
  rw [View.writes_singleton]
  have e : (iB).view.emb x = ((iB).view.slice (Rect.whole S448)).emb x := by
    show (iB).view.emb x = (iB).view.emb ((Rect.whole S448).emb x)
    rw [Rect.emb_whole_apply]
  rw [e, View.write_emb_of_mem _ _ (Finset.mem_univ x), ← e]
  rw [cast_eq, ReadAs.apply_same, View.read_apply, cast_eq]
  unfold idxF
  refine congrArg (m (xLoc d)) (?_ : (_ : S16384.Idx) = _)
  funext (a : Fin 1)
  obtain rfl : a = 0 := Subsingleton.elim _ _
  apply Fin.ext
  show ((((xSl1 L).view.emb x : S16384.Idx)) 0).val = base L + ((((iB).view.emb x : S512.Idx)) 0).val
  rw [xemb_val, iemb_val, off1_zero]
  simp only [Matrix.cons_val_zero]
  omega

theorem j_lt (j : S64.Idx) : (j 0).val < 64 := (j 0).isLt

/-- An entry of one of the eight lists lies inside the index vector. -/
theorem piece_lt (L : grid0.Coords) (j : S64.Idx) (o : ℕ) (ho : o ≤ 448) : base L + o + (j 0).val < 16384 := by
  have h := base_lt L (o + (j 0).val) (by have := j_lt j; omega)
  omega

/-- Once the scratch is filled, entry `j` of the 64-entry list at offset `o` is entry `base + o + j` of the index vector. -/
theorem read_piece {off : Fin S512.rank → ℕ} {inb : ∀ a, off a + S64.size a ≤ S512.size a} (d : Dev nD) (L : grid0.Coords)
    (j : S64.Idx) (o : ℕ) (ho : off 0 = o) (h : base L + o + (j 0).val < 16384) :
    ((iV).slice (Rect.unit (s := S512) off S64.size inb) (fun _ => rfl)).view.read (Elt F) (idxF m d L) j
      = (m (xLoc d) : IVec ⟨1, ![16384]⟩ 32) (ValueIdx.ix1 ⟨base L + o + (j 0).val, h⟩) := by
  rw [View.read_apply, cast_eq]
  unfold idxF
  refine congrArg (m (xLoc d)) (?_ : (_ : S16384.Idx) = _)
  funext (a : Fin 1)
  obtain rfl : a = 0 := Subsingleton.elim _ _
  apply Fin.ext
  have hv := iemb_val (inb := inb) j
  show base L + _ = base L + o + (j 0).val
  rw [Nat.add_assoc, ← ho]
  exact congrArg (base L + ·) hv

/-- With every entry of the index vector below 128, so is every entry of each list: the gathers stay inside the table. -/
theorem hin_piece {off : Fin S512.rank → ℕ} {inb : ∀ a, off a + S64.size a ≤ S512.size a}
    (hr : ∀ (d : Dev nD) (r : Fin 16384), ((m (xLoc d) : IVec ⟨1, ![16384]⟩ 32) (ValueIdx.ix1 r)).toNat < 128)
    (d : Dev nD) (L : grid0.Coords) (o : ℕ) (ho : off 0 = o) (ho' : o ≤ 448) :
    ∀ j : S64.Idx, (((iV).slice (Rect.unit (s := S512) off S64.size inb) (fun _ => rfl)).view.read (Elt F) (idxF m d L) j).toNat
      < S128x128.size gathers_S128x128_S64x128.axis := by
  intro j
  rw [read_piece m d L j o ho (piece_lt L j o ho')]
  exact hr d _

theorem read_piece_0 (d : Dev nD) (L : grid0.Coords) (j : S64.Idx) :
    (iP0).view.read (Elt F) (idxF m d L) j
      = (m (xLoc d) : IVec ⟨1, ![16384]⟩ 32) (ValueIdx.ix1 ⟨base L + 0 + (j 0).val, piece_lt L j 0 (by omega)⟩) :=
  read_piece m d L j 0 rfl _
theorem hin_0 (hr : ∀ (d : Dev nD) (r : Fin 16384), ((m (xLoc d) : IVec ⟨1, ![16384]⟩ 32) (ValueIdx.ix1 r)).toNat < 128)
    (d : Dev nD) (L : grid0.Coords) :
    ∀ j : S64.Idx, ((iP0).view.read (Elt F) (idxF m d L) j).toNat < S128x128.size gathers_S128x128_S64x128.axis :=
  hin_piece m hr d L 0 rfl (by omega)

theorem read_piece_1 (d : Dev nD) (L : grid0.Coords) (j : S64.Idx) :
    (iP1).view.read (Elt F) (idxF m d L) j
      = (m (xLoc d) : IVec ⟨1, ![16384]⟩ 32) (ValueIdx.ix1 ⟨base L + 64 + (j 0).val, piece_lt L j 64 (by omega)⟩) :=
  read_piece m d L j 64 rfl _
theorem hin_1 (hr : ∀ (d : Dev nD) (r : Fin 16384), ((m (xLoc d) : IVec ⟨1, ![16384]⟩ 32) (ValueIdx.ix1 r)).toNat < 128)
    (d : Dev nD) (L : grid0.Coords) :
    ∀ j : S64.Idx, ((iP1).view.read (Elt F) (idxF m d L) j).toNat < S128x128.size gathers_S128x128_S64x128.axis :=
  hin_piece m hr d L 64 rfl (by omega)

theorem read_piece_2 (d : Dev nD) (L : grid0.Coords) (j : S64.Idx) :
    (iP2).view.read (Elt F) (idxF m d L) j
      = (m (xLoc d) : IVec ⟨1, ![16384]⟩ 32) (ValueIdx.ix1 ⟨base L + 128 + (j 0).val, piece_lt L j 128 (by omega)⟩) :=
  read_piece m d L j 128 rfl _
theorem hin_2 (hr : ∀ (d : Dev nD) (r : Fin 16384), ((m (xLoc d) : IVec ⟨1, ![16384]⟩ 32) (ValueIdx.ix1 r)).toNat < 128)
    (d : Dev nD) (L : grid0.Coords) :
    ∀ j : S64.Idx, ((iP2).view.read (Elt F) (idxF m d L) j).toNat < S128x128.size gathers_S128x128_S64x128.axis :=
  hin_piece m hr d L 128 rfl (by omega)

theorem read_piece_3 (d : Dev nD) (L : grid0.Coords) (j : S64.Idx) :
    (iP3).view.read (Elt F) (idxF m d L) j
      = (m (xLoc d) : IVec ⟨1, ![16384]⟩ 32) (ValueIdx.ix1 ⟨base L + 192 + (j 0).val, piece_lt L j 192 (by omega)⟩) :=
  read_piece m d L j 192 rfl _
theorem hin_3 (hr : ∀ (d : Dev nD) (r : Fin 16384), ((m (xLoc d) : IVec ⟨1, ![16384]⟩ 32) (ValueIdx.ix1 r)).toNat < 128)
    (d : Dev nD) (L : grid0.Coords) :
    ∀ j : S64.Idx, ((iP3).view.read (Elt F) (idxF m d L) j).toNat < S128x128.size gathers_S128x128_S64x128.axis :=
  hin_piece m hr d L 192 rfl (by omega)

theorem read_piece_4 (d : Dev nD) (L : grid0.Coords) (j : S64.Idx) :
    (iP4).view.read (Elt F) (idxF m d L) j
      = (m (xLoc d) : IVec ⟨1, ![16384]⟩ 32) (ValueIdx.ix1 ⟨base L + 256 + (j 0).val, piece_lt L j 256 (by omega)⟩) :=
  read_piece m d L j 256 rfl _
theorem hin_4 (hr : ∀ (d : Dev nD) (r : Fin 16384), ((m (xLoc d) : IVec ⟨1, ![16384]⟩ 32) (ValueIdx.ix1 r)).toNat < 128)
    (d : Dev nD) (L : grid0.Coords) :
    ∀ j : S64.Idx, ((iP4).view.read (Elt F) (idxF m d L) j).toNat < S128x128.size gathers_S128x128_S64x128.axis :=
  hin_piece m hr d L 256 rfl (by omega)

theorem read_piece_5 (d : Dev nD) (L : grid0.Coords) (j : S64.Idx) :
    (iP5).view.read (Elt F) (idxF m d L) j
      = (m (xLoc d) : IVec ⟨1, ![16384]⟩ 32) (ValueIdx.ix1 ⟨base L + 320 + (j 0).val, piece_lt L j 320 (by omega)⟩) :=
  read_piece m d L j 320 rfl _
theorem hin_5 (hr : ∀ (d : Dev nD) (r : Fin 16384), ((m (xLoc d) : IVec ⟨1, ![16384]⟩ 32) (ValueIdx.ix1 r)).toNat < 128)
    (d : Dev nD) (L : grid0.Coords) :
    ∀ j : S64.Idx, ((iP5).view.read (Elt F) (idxF m d L) j).toNat < S128x128.size gathers_S128x128_S64x128.axis :=
  hin_piece m hr d L 320 rfl (by omega)

theorem read_piece_6 (d : Dev nD) (L : grid0.Coords) (j : S64.Idx) :
    (iP6).view.read (Elt F) (idxF m d L) j
      = (m (xLoc d) : IVec ⟨1, ![16384]⟩ 32) (ValueIdx.ix1 ⟨base L + 384 + (j 0).val, piece_lt L j 384 (by omega)⟩) :=
  read_piece m d L j 384 rfl _
theorem hin_6 (hr : ∀ (d : Dev nD) (r : Fin 16384), ((m (xLoc d) : IVec ⟨1, ![16384]⟩ 32) (ValueIdx.ix1 r)).toNat < 128)
    (d : Dev nD) (L : grid0.Coords) :
    ∀ j : S64.Idx, ((iP6).view.read (Elt F) (idxF m d L) j).toNat < S128x128.size gathers_S128x128_S64x128.axis :=
  hin_piece m hr d L 384 rfl (by omega)

theorem read_piece_7 (d : Dev nD) (L : grid0.Coords) (j : S64.Idx) :
    (iP7).view.read (Elt F) (idxF m d L) j
      = (m (xLoc d) : IVec ⟨1, ![16384]⟩ 32) (ValueIdx.ix1 ⟨base L + 448 + (j 0).val, piece_lt L j 448 (by omega)⟩) :=
  read_piece m d L j 448 rfl _
theorem hin_7 (hr : ∀ (d : Dev nD) (r : Fin 16384), ((m (xLoc d) : IVec ⟨1, ![16384]⟩ 32) (ValueIdx.ix1 r)).toNat < 128)
    (d : Dev nD) (L : grid0.Coords) :
    ∀ j : S64.Idx, ((iP7).view.read (Elt F) (idxF m d L) j).toNat < S128x128.size gathers_S128x128_S64x128.axis :=
  hin_piece m hr d L 448 rfl (by omega)

end Cert.Proof.KB

end
-- ==== Proof.KB.Body.lean ====
/-
  The body of one task, run once at a symbolic grid point. In order: (tile 0 only) the table into the SparseCore's shared
  memory; the task's 512 index words into its scratch by two copies, the first waited for at once; (tile 0) the table
  copy's wait; the subcore barrier, across which tile 0 hands every tile a read share of the shared copy; then eight
  rounds, two row buffers alternating: gather the rows the next 64 index words name out of the shared copy, wait for the
  previous gather, copy its rows out to their chunk of the result. No buffer is touched while a transfer on it is
  pending, and each semaphore has one transfer outstanding at a time. The index words are row numbers of the table (the
  claim's domain), so no gather is abandoned; and chunk by chunk what is copied out is the lookup's value.
-/
import proofs.«205415_g38302518346492_cont_8to1_b_1778_12_alg».proof.Proof.KB.Own
import proofs.«205415_g38302518346492_cont_8to1_b_1778_12_alg».proof.Proof.KB.OutValue
import proofs.«205415_g38302518346492_cont_8to1_b_1778_12_alg».proof.Proof.KB.IdxSplit
import proofs.«205415_g38302518346492_cont_8to1_b_1778_12_alg».proof.Proof.KB.IdxValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S16384 EltTy.i32)
local notation "tV" => (Memref.whole Cert.Kernel.main_arg1_scv : Memref Cert.Kernel.sig Kind.scVector Space.hbm Cert.Kernel.S128x128 EltTy.f32)
local notation "oV" => (Memref.whole Cert.Kernel.main_v0_scv : Memref Cert.Kernel.sig Kind.scVector Space.hbm Cert.Kernel.S16384x128 EltTy.f32)
local notation "iV" => (Memref.whole Cert.Kernel.cc0_scratch0 : Memref Cert.Kernel.sig Kind.scVector Space.vmem Cert.Kernel.S512 EltTy.i32)
local notation "r0V" => (Memref.whole Cert.Kernel.cc0_scratch1 : Memref Cert.Kernel.sig Kind.scVector Space.vmem Cert.Kernel.S64x128 EltTy.f32)
local notation "r1V" => (Memref.whole Cert.Kernel.cc0_scratch2 : Memref Cert.Kernel.sig Kind.scVector Space.vmem Cert.Kernel.S64x128 EltTy.f32)
local notation "shV" => (Memref.whole Cert.Kernel.cc0_scratch3 : Memref Cert.Kernel.sig Kind.scVector Space.shared Cert.Kernel.S128x128 EltTy.f32)

variable (m : (ℓ : Loc nD τ sig) → Buf (Elt F) ℓ)
variable [FloatOps F]

/-- The printed guard "this is tile 0" is that. -/
theorem guard_iff : ∀ i : grid0.Coords,
    (Scalar.cmpi .ne (Scalar.extui (Scalar.cmpi .eq (BitVec.ofNat 32 (i 1).val) 0#32) : BitVec 32) 0#32 = 1#1) ↔ (i 1).val = 0 := by decide +kernel

/-! ## What crosses the barrier -/

/-- Arriving at the barrier, a tile other than tile 0 hands nothing over. -/
theorem pays_intro_other (d : Dev nD) (c : Fin τ.nSC) (n : ℕ) (hn : n ≠ 0) :
    (iprop(emp) : sProp 𝕄) ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
      bigSep_congr fun j _ => if_neg hn, bigSep_emp']

/-- Tile 0 hands each tile's round that tile's read share of the shared copy. -/
theorem pays_intro_zero (d : Dev nD) (c : Fin τ.nSC) (n : ℕ) (hn : n = 0) :
    (bigSep Finset.univ fun j : Fin 16 => shTok m d c j)
      ⊢ bigSep Finset.univ fun j : Fin (grid0.bound 1) => (bRd (F := F) m).payload (bcell d c (j.castLE hsub0)) 0 n := by
  subst hn
  refine Entails.of_eq (bigSep_congr fun j _ => ?_)
  show shTok m d c j = bPay m (bcell d c (j.castLE hsub0)) 0
  unfold bPay; dsimp only
  rw [if_pos rfl]
  exact congrArg (shTok m d c) (Fin.ext rfl)

/-- Leaving the barrier, a tile finds its read share in its own round: tile 0's duty left it there. -/
theorem pays_elim (d : Dev nD) (c : Fin τ.nSC) (j : Fin τ.nSub) :
    (bigSep ((bRd (F := F) m).duties (bcell d c j) 0 \ ∅) fun n => (bRd (F := F) m).payload (bcell d c j) 0 n)
      ⊢ (shTok m d c (Fin.cast nSub_eq j) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d c j) 0 ⊢ _
  unfold bPay; dsimp only
  rw [if_pos rfl]

/-- The whole shared copy at the table's contents is the remainder and the sixteen read shares. -/
theorem sh_toks (d : Dev nD) (c : Fin τ.nSC) :
    (shLoc d c ↦{fullShare} tblSh m d c : sProp 𝕄) ⊢ iprop(shRest m d c ∗ bigSep Finset.univ fun j : Fin 16 => shTok m d c j) :=
  (Transfers.pointsTo_toks fullShare 16).1

section Tile

variable (d : Dev nD) (L : grid0.Coords)

/-! ## The task's buffers as it addresses them: the same locations -/

theorem pts_x (q : PosShare TreeShare) (f : Buf (Elt F) (xLoc d)) : ((xV).view.loc (V d (cV L) (jV L)) ↦{q} f : sProp 𝕄) = xLoc d ↦{q} f := rfl
theorem pts_t (q : PosShare TreeShare) (f : Buf (Elt F) (tLoc d)) : ((tV).view.loc (V d (cV L) (jV L)) ↦{q} f : sProp 𝕄) = tLoc d ↦{q} f := rfl
theorem pts_sh (q : PosShare TreeShare) (f : Buf (Elt F) (shLoc d (cV L))) : ((shV).view.loc (V d (cV L) (jV L)) ↦{q} f : sProp 𝕄) = shLoc d (cV L) ↦{q} f := rfl
theorem pts_i (f : Buf (Elt F) ((V d (cV L) (jV L)).loc cc0_scratch0)) : ((iV).view.loc (V d (cV L) (jV L)) ↦{fullShare} f : sProp 𝕄) = (V d (cV L) (jV L)).loc cc0_scratch0 ↦{fullShare} f := rfl
theorem pts_r0 (f : Buf (Elt F) ((V d (cV L) (jV L)).loc cc0_scratch1)) : ((r0V).view.loc (V d (cV L) (jV L)) ↦{fullShare} f : sProp 𝕄) = (V d (cV L) (jV L)).loc cc0_scratch1 ↦{fullShare} f := rfl
theorem pts_r1 (f : Buf (Elt F) ((V d (cV L) (jV L)).loc cc0_scratch2)) : ((r1V).view.loc (V d (cV L) (jV L)) ↦{fullShare} f : sProp 𝕄) = (V d (cV L) (jV L)).loc cc0_scratch2 ↦{fullShare} f := rfl
theorem pts_o0 (f : Buf (Elt F) (oLoc d)) : ((oC0 L).view.loc (V d (cV L) (jV L)) ↦[(oC0 L).view.set]{fullShare} f : sProp 𝕄) = oChunk d L 0 f := rfl
theorem pts_o1 (f : Buf (Elt F) (oLoc d)) : ((oC1 L).view.loc (V d (cV L) (jV L)) ↦[(oC1 L).view.set]{fullShare} f : sProp 𝕄) = oChunk d L 1 f := rfl
theorem pts_o2 (f : Buf (Elt F) (oLoc d)) : ((oC2 L).view.loc (V d (cV L) (jV L)) ↦[(oC2 L).view.set]{fullShare} f : sProp 𝕄) = oChunk d L 2 f := rfl
theorem pts_o3 (f : Buf (Elt F) (oLoc d)) : ((oC3 L).view.loc (V d (cV L) (jV L)) ↦[(oC3 L).view.set]{fullShare} f : sProp 𝕄) = oChunk d L 3 f := rfl
theorem pts_o4 (f : Buf (Elt F) (oLoc d)) : ((oC4 L).view.loc (V d (cV L) (jV L)) ↦[(oC4 L).view.set]{fullShare} f : sProp 𝕄) = oChunk d L 4 f := rfl
theorem pts_o5 (f : Buf (Elt F) (oLoc d)) : ((oC5 L).view.loc (V d (cV L) (jV L)) ↦[(oC5 L).view.set]{fullShare} f : sProp 𝕄) = oChunk d L 5 f := rfl
theorem pts_o6 (f : Buf (Elt F) (oLoc d)) : ((oC6 L).view.loc (V d (cV L) (jV L)) ↦[(oC6 L).view.set]{fullShare} f : sProp 𝕄) = oChunk d L 6 f := rfl
theorem pts_o7 (f : Buf (Elt F) (oLoc d)) : ((oC7 L).view.loc (V d (cV L) (jV L)) ↦[(oC7 L).view.set]{fullShare} f : sProp 𝕄) = oChunk d L 7 f := rfl

/-! ## Read shares in halves: two transfers read the array at a time -/

theorem x_halves (q : PosShare TreeShare) : ((xV).view.loc (V d (cV L) (jV L)) ↦{q} m (xLoc d) : sProp 𝕄)
    ⊢ iprop(((xV).view.loc (V d (cV L) (jV L)) ↦{q.left} m (xLoc d)) ∗ ((xV).view.loc (V d (cV L) (jV L)) ↦{q.right} m (xLoc d))) :=
  (pointsTo_share (PosShare.mem_left_op_right q)).1
theorem x_join (q : PosShare TreeShare) : iprop(((xV).view.loc (V d (cV L) (jV L)) ↦{q.left} m (xLoc d)) ∗ ((xV).view.loc (V d (cV L) (jV L)) ↦{q.right} m (xLoc d)))
    ⊢ ((xV).view.loc (V d (cV L) (jV L)) ↦{q} m (xLoc d) : sProp 𝕄) :=
  (pointsTo_share (PosShare.mem_left_op_right q)).2
theorem sh_halves : (shTok m d (cV L) (Fin.cast nSub_eq (jV L)) : sProp 𝕄)
    ⊢ iprop(((shV).view.loc (V d (cV L) (jV L)) ↦{(shareTok fullShare 16 (jL L)).left} tblSh m d (cV L))
        ∗ ((shV).view.loc (V d (cV L) (jV L)) ↦{(shareTok fullShare 16 (jL L)).right} tblSh m d (cV L))) :=
  (pointsTo_share (PosShare.mem_left_op_right _)).1
theorem sh_join : iprop(((shV).view.loc (V d (cV L) (jV L)) ↦{(shareTok fullShare 16 (jL L)).left} tblSh m d (cV L))
        ∗ ((shV).view.loc (V d (cV L) (jV L)) ↦{(shareTok fullShare 16 (jL L)).right} tblSh m d (cV L)))
    ⊢ (shTok m d (cV L) (jL L) : sProp 𝕄) :=
  (pointsTo_share (PosShare.mem_left_op_right _)).2

/-- The table copy landed: the shared buffer holds the table's contents. -/
theorem sh_landed (fsh : Buf (Elt F) ((shV).view.loc (V d (cV L) (jV L)))) :
    ((shV).view.loc (V d (cV L) (jV L)) ↦{fullShare} View.write (Elt F) (shV).view fsh (ReadAs.same.apply (View.read (Elt F) (tV).view (m (tLoc d)))) Finset.univ : sProp 𝕄)
      = (shLoc d (cV L) ↦{fullShare} tblSh m d (cV L)) := by
  show (shLoc d (cV L) ↦{fullShare} _ : sProp 𝕄) = _
  refine pointsTo_congr fun i _ => ?_
  show View.write (Elt F) (shV).view fsh _ Finset.univ ((shV).view.emb i) = _
  rw [View.write_emb_of_mem _ _ (Finset.mem_univ _)]
  rfl

set_option maxHeartbeats 16000000 in
theorem tile_body (hr : ∀ (d : Dev nD) (r : Fin 16384), ((m (xLoc d) : IVec ⟨1, ![16384]⟩ 32) (ValueIdx.ix1 r)).toNat < 128) : TileBody m := by
  intro d L hF O W hO hOlev
  have hin0 := hin_0 (F := F) m hr d L
  have hin1 := hin_1 (F := F) m hr d L
  have hin2 := hin_2 (F := F) m hr d L
  have hin3 := hin_3 (F := F) m hr d L
  have hin4 := hin_4 (F := F) m hr d L
  have hin5 := hin_5 (F := F) m hr d L
  have hin6 := hin_6 (F := F) m hr d L
  have hin7 := hin_7 (F := F) m hr d L
  rw [cc0_gather_kernel_eq_skeleton]; delta cc0_gather_kernel_skel
  rw [k0_part1_eq_skeleton]; delta k0_part1_skel
  beta_reduce
  rw [(K (F := F)).scopedBufs_V hF d (cV L) (jV L), SparseCore.Cfg.scopedSems0_V (Val := Elt F) d (cV L) (jV L), ownSems0_open, ownBufs_open]
  unfold bkit goL tdL oTask
  rw [bigSep_fin8, bigSep_fin8]
  beta_reduce
  by_cases hz : (L 1).val = 0
  ·
    have h0 : Scalar.cmpi .ne (Scalar.extui (Scalar.cmpi .eq (BitVec.ofNat 32 (L 1).val) 0#32) : BitVec 32) 0#32 = 1#1 := (guard_iff L).mpr hz
    rw [if_pos hz, if_pos hz]
    iintro ⟨#Hlv, ⟨⟨%κ, #Hinv⟩, Htoks, #Hrch, Hat, Hcred⟩, ⟨Hx, ⟨Ho0, Ho1, Ho2, Ho3, Ho4, Ho5, Ho6, Ho7⟩, Ht, ⟨%fsh, Hshw⟩⟩, ⟨⟨%fi, Hi⟩, ⟨%f0, Hr0⟩, ⟨%f1, Hr1⟩, Hbufs⟩, ⟨Hs4, Hs5, Hs6, Hs7, Hs8, Hs9, Hsc, Hsems⟩, HO⟩
    -- the waits' evidence: at index `none`, under either debt
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := (V d (cV L) (jV L))) hO') $$ Hlv
    ihave Hmw2 := (show levAts (K (F := F)).L (K (F := F)).lev ⊢ Transfers.MayWaits (V d (cV L) (jV L)) (default : HIx 1) O from
      (K (F := F)).mayWaits_none (thr := (V d (cV L) (jV L))) hO) $$ Hlv
    -- the buffers as the task addresses them; the index vector's share in two halves (two copies read it at a time);
    -- the index scratch as the two pieces the two copies fill
    ihave Hx' := (Entails.of_eq (pts_x (F := F) d L _ _).symm) $$ Hx
    ihave Hx2 := (x_halves (F := F) m d L _) $$ Hx'
    icases Hx2 with ⟨Hxa, Hxb⟩
    ihave Ht' := (Entails.of_eq (pts_t (F := F) d L _ _).symm) $$ Ht
    ihave Hshw' := (Entails.of_eq (pts_sh (F := F) d L _ _).symm) $$ Hshw
    ihave Hi' := (Entails.of_eq ((pts_i (F := F) d L fi).symm.trans (idx_split (F := F) d L fi))) $$ Hi
    icases Hi' with ⟨HiA, HiB⟩
    ihave Hr0' := (Entails.of_eq (pts_r0 (F := F) d L f0).symm) $$ Hr0
    ihave Hr1' := (Entails.of_eq (pts_r1 (F := F) d L f1).symm) $$ Hr1
    ihave Ho0' := (Entails.of_eq (pts_o0 (F := F) d L _).symm) $$ Ho0
    ihave Ho1' := (Entails.of_eq (pts_o1 (F := F) d L _).symm) $$ Ho1
    ihave Ho2' := (Entails.of_eq (pts_o2 (F := F) d L _).symm) $$ Ho2
    ihave Ho3' := (Entails.of_eq (pts_o3 (F := F) d L _).symm) $$ Ho3
    ihave Ho4' := (Entails.of_eq (pts_o4 (F := F) d L _).symm) $$ Ho4
    ihave Ho5' := (Entails.of_eq (pts_o5 (F := F) d L _).symm) $$ Ho5
    ihave Ho6' := (Entails.of_eq (pts_o6 (F := F) d L _).symm) $$ Ho6
    ihave Ho7' := (Entails.of_eq (pts_o7 (F := F) d L _).symm) $$ Ho7
    -- the table into the shared copy, the two index copies, the first one's wait, the table copy's wait
    sl_exec
    -- the shared copy holds the table: one read share of it for each tile's round, the remainder kept
    sl_unfold_run_names
    ihave Hshl := (Entails.of_eq (sh_landed (F := F) m d L fsh)) $$ Hshw'
    ihave Hshs := (sh_toks (F := F) m d (cV L)) $$ Hshl
    icases Hshs with ⟨Hshrest, Hshtoks⟩
    ihave Hpays := (pays_intro_zero (F := F) m d (cV L) (jV L).val hz) $$ Hshtoks
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := (V d (cV L) (jV L))) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    -- leaving it, the tile's read share of the shared copy, in two halves: two gathers read it at a time
    ihave Hsh := (pays_elim (F := F) m d (cV L) (jV L)) $$ Hgot
    ihave Hsh2 := (sh_halves (F := F) m d L) $$ Hsh
    icases Hsh2 with ⟨Hsha, Hshb⟩
    -- the first list has landed: it holds the task's first 64 index words
    sl_unfold_run_names
    ihave HiA' := (Entails.of_eq (pointsTo_congr (q := fullShare) (ℓ := (iP0).view.loc (V d (cV L) (jV L))) (idx_A (F := F) m d L fi))) $$ HiA
    -- the first gather's issue; the second index copy's wait
    sl_exec
    -- the rest of the index scratch has landed: the remaining 448 index words, held as the seven lists the later gathers read
    sl_unfold_run_names
    ihave HiB' := (Entails.of_eq (pointsTo_congr (q := fullShare) (ℓ := (iB).view.loc (V d (cV L) (jV L))) (idx_B (F := F) m d L fi))) $$ HiB
    ihave Hps := (Entails.of_eq (iB_split (F := F) d L (idxF m d L))) $$ HiB'
    icases Hps with ⟨Hp1, Hp2, Hp3, Hp4, Hp5, Hp6, Hp7⟩
    -- the gathers, their waits, the copies out and theirs, to the end
    sl_exec
    sl_unfold_run_names
    sl_step
    -- what the task hands back
    isplitl [Hxa Hxb Ho0' Ho1' Ho2' Ho3' Ho4' Ho5' Ho6' Ho7' Hsha Hshb Ht' Hshrest]
    · isplitl [Hxa Hxb]
      · iapply (Entails.of_eq (pts_x (F := F) d L _ _))
        iapply (x_join (F := F) m d L _)
        isplitl [Hxa]; · iexact Hxa
        iexact Hxb
      isplitl [Ho0' Ho1' Ho2' Ho3' Ho4' Ho5' Ho6' Ho7']
      -- what the copies out left in the eight chunks is the lookup's value there
      · isplitl [Ho0']
        · iapply (Entails.of_eq (pts_o0 (F := F) d L _))
          iapply (Entails.of_eq (pointsTo_congr (q := fullShare) (ℓ := (oC0 L).view.loc (V d (cV L) (jV L)))
            (out_value_0 (F := F) m hr d L (r0V).view f0 [] hin0)))
          iexact Ho0'
        isplitl [Ho1']
        · iapply (Entails.of_eq (pts_o1 (F := F) d L _))
          iapply (Entails.of_eq (pointsTo_congr (q := fullShare) (ℓ := (oC1 L).view.loc (V d (cV L) (jV L)))
            (out_value_1 (F := F) m hr d L (r1V).view f1 [] hin1)))
          iexact Ho1'
        isplitl [Ho2']
        · iapply (Entails.of_eq (pts_o2 (F := F) d L _))
          iapply (Entails.of_eq (pointsTo_congr (q := fullShare) (ℓ := (oC2 L).view.loc (V d (cV L) (jV L)))
            (out_value_2 (F := F) m hr d L (r0V).view f0 [⟨Rect.whole S64x128, gPay (View.read (Elt F) shSl.view (tblSh m d (cV L))) (View.read (Elt F) (iP0).view (idxF m d L)) hin0⟩] hin2)))
          iexact Ho2'
        isplitl [Ho3']
        · iapply (Entails.of_eq (pts_o3 (F := F) d L _))
          iapply (Entails.of_eq (pointsTo_congr (q := fullShare) (ℓ := (oC3 L).view.loc (V d (cV L) (jV L)))
            (out_value_3 (F := F) m hr d L (r1V).view f1 [⟨Rect.whole S64x128, gPay (View.read (Elt F) shSl.view (tblSh m d (cV L))) (View.read (Elt F) (iP1).view (idxF m d L)) hin1⟩] hin3)))
          iexact Ho3'
        isplitl [Ho4']
        · iapply (Entails.of_eq (pts_o4 (F := F) d L _))
          iapply (Entails.of_eq (pointsTo_congr (q := fullShare) (ℓ := (oC4 L).view.loc (V d (cV L) (jV L)))
            (out_value_4 (F := F) m hr d L (r0V).view f0 [⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin4)))
          iexact Ho4'
        isplitl [Ho5']
        · iapply (Entails.of_eq (pts_o5 (F := F) d L _))
          iapply (Entails.of_eq (pointsTo_congr (q := fullShare) (ℓ := (oC5 L).view.loc (V d (cV L) (jV L)))
            (out_value_5 (F := F) m hr d L (r1V).view f1 [⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin5)))
          iexact Ho5'
        isplitl [Ho6']
        · iapply (Entails.of_eq (pts_o6 (F := F) d L _))
          iapply (Entails.of_eq (pointsTo_congr (q := fullShare) (ℓ := (oC6 L).view.loc (V d (cV L) (jV L)))
            (out_value_6 (F := F) m hr d L (r0V).view f0 [⟨Rect.whole S64x128, gPay (View.read (Elt F) shSl.view (tblSh m d (cV L))) (View.read (Elt F) (iP4).view (idxF m d L)) hin4⟩, ⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin6)))
          iexact Ho6'
        iapply (Entails.of_eq (pts_o7 (F := F) d L _))
        iapply (Entails.of_eq (pointsTo_congr (q := fullShare) (ℓ := (oC7 L).view.loc (V d (cV L) (jV L)))
          (out_value_7 (F := F) m hr d L (r1V).view f1 [⟨Rect.whole S64x128, gPay (View.read (Elt F) shSl.view (tblSh m d (cV L))) (View.read (Elt F) (iP5).view (idxF m d L)) hin5⟩, ⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin7)))
        iexact Ho7'
      isplitl [Hsha Hshb]
      · iapply (sh_join (F := F) m d L)
        isplitl [Hsha]; · iexact Hsha
        iexact Hshb
      isplitl [Ht']; · iapply (Entails.of_eq (pts_t (F := F) d L _ _)); iexact Ht'
      iexact Hshrest
    -- its scratch and its semaphores as it found them
    isplitl [HiA' Hp1 Hp2 Hp3 Hp4 Hp5 Hp6 Hp7 Hr0' Hr1' Hbufs]
    · isplitl [HiA' Hp1 Hp2 Hp3 Hp4 Hp5 Hp6 Hp7]
      · iexists (idxF m d L)
        iapply (Entails.of_eq ((pts_i (F := F) d L (idxF m d L)).symm.trans (idx_split (F := F) d L (idxF m d L))).symm)
        isplitl [HiA']; · iexact HiA'
        iapply (Entails.of_eq (iB_split (F := F) d L (idxF m d L)).symm)
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      isplitl [Hr0']; · iexists _; iapply (Entails.of_eq (pts_r0 (F := F) d L _)); iexact Hr0'
      isplitl [Hr1']; · iexists _; iapply (Entails.of_eq (pts_r1 (F := F) d L _)); iexact Hr1'
      iexact Hbufs
    isplitl [Hs4 Hs5 Hs6 Hs7 Hs8 Hs9 Hsc Hsems]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hsc]; · iexact Hsc
      iexact Hsems
    iexists _; isplitr
    swap; · iexact HO
    ipureintro; intro p hp
    repeat (rcases Finset.mem_insert.mp hp with hp | hp; · first | exact .inr (.inl (hp ▸ rfl)) | exact .inr (.inr (hp ▸ rfl)))
    exact .inl hp

  ·
    have h0 : ¬ (Scalar.cmpi .ne (Scalar.extui (Scalar.cmpi .eq (BitVec.ofNat 32 (L 1).val) 0#32) : BitVec 32) 0#32 = 1#1) := fun h => hz ((guard_iff L).mp h)
    rw [if_neg hz, if_neg hz]
    iintro ⟨#Hlv, ⟨⟨%κ, #Hinv⟩, Htoks, #Hrch, Hat, Hcred⟩, ⟨Hx, ⟨Ho0, Ho1, Ho2, Ho3, Ho4, Ho5, Ho6, Ho7⟩, -⟩, ⟨⟨%fi, Hi⟩, ⟨%f0, Hr0⟩, ⟨%f1, Hr1⟩, Hbufs⟩, ⟨Hs4, Hs5, Hs6, Hs7, Hs8, Hs9, Hsc, Hsems⟩, HO⟩
    -- the waits' evidence: at index `none`, under either debt
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := (V d (cV L) (jV L))) hO') $$ Hlv
    ihave Hmw2 := (show levAts (K (F := F)).L (K (F := F)).lev ⊢ Transfers.MayWaits (V d (cV L) (jV L)) (default : HIx 1) O from
      (K (F := F)).mayWaits_none (thr := (V d (cV L) (jV L))) hO) $$ Hlv
    -- the buffers as the task addresses them; the index vector's share in two halves (two copies read it at a time);
    -- the index scratch as the two pieces the two copies fill
    ihave Hx' := (Entails.of_eq (pts_x (F := F) d L _ _).symm) $$ Hx
    ihave Hx2 := (x_halves (F := F) m d L _) $$ Hx'
    icases Hx2 with ⟨Hxa, Hxb⟩
    ihave Hi' := (Entails.of_eq ((pts_i (F := F) d L fi).symm.trans (idx_split (F := F) d L fi))) $$ Hi
    icases Hi' with ⟨HiA, HiB⟩
    ihave Hr0' := (Entails.of_eq (pts_r0 (F := F) d L f0).symm) $$ Hr0
    ihave Hr1' := (Entails.of_eq (pts_r1 (F := F) d L f1).symm) $$ Hr1
    ihave Ho0' := (Entails.of_eq (pts_o0 (F := F) d L _).symm) $$ Ho0
    ihave Ho1' := (Entails.of_eq (pts_o1 (F := F) d L _).symm) $$ Ho1
    ihave Ho2' := (Entails.of_eq (pts_o2 (F := F) d L _).symm) $$ Ho2
    ihave Ho3' := (Entails.of_eq (pts_o3 (F := F) d L _).symm) $$ Ho3
    ihave Ho4' := (Entails.of_eq (pts_o4 (F := F) d L _).symm) $$ Ho4
    ihave Ho5' := (Entails.of_eq (pts_o5 (F := F) d L _).symm) $$ Ho5
    ihave Ho6' := (Entails.of_eq (pts_o6 (F := F) d L _).symm) $$ Ho6
    ihave Ho7' := (Entails.of_eq (pts_o7 (F := F) d L _).symm) $$ Ho7
    -- the two index copies, the first one's wait
    sl_exec
    -- the barrier: nothing handed over
    have hn0 : (jV L).val ≠ 0 := hz
    ihave Hpays := (pays_intro_other (F := F) m d (cV L) (jV L).val hn0) $$ []
    · iempintro
    rw [bind_assoc]
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := (V d (cV L) (jV L))) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    -- leaving it, the tile's read share of the shared copy, in two halves: two gathers read it at a time
    ihave Hsh := (pays_elim (F := F) m d (cV L) (jV L)) $$ Hgot
    ihave Hsh2 := (sh_halves (F := F) m d L) $$ Hsh
    icases Hsh2 with ⟨Hsha, Hshb⟩
    -- the first list has landed: it holds the task's first 64 index words
    sl_unfold_run_names
    ihave HiA' := (Entails.of_eq (pointsTo_congr (q := fullShare) (ℓ := (iP0).view.loc (V d (cV L) (jV L))) (idx_A (F := F) m d L fi))) $$ HiA
    -- the first gather's issue; the second index copy's wait
    sl_exec
    -- the rest of the index scratch has landed: the remaining 448 index words, held as the seven lists the later gathers read
    sl_unfold_run_names
    ihave HiB' := (Entails.of_eq (pointsTo_congr (q := fullShare) (ℓ := (iB).view.loc (V d (cV L) (jV L))) (idx_B (F := F) m d L fi))) $$ HiB
    ihave Hps := (Entails.of_eq (iB_split (F := F) d L (idxF m d L))) $$ HiB'
    icases Hps with ⟨Hp1, Hp2, Hp3, Hp4, Hp5, Hp6, Hp7⟩
    -- the gathers, their waits, the copies out and theirs, to the end
    sl_exec
    sl_unfold_run_names
    sl_step
    -- what the task hands back
    isplitl [Hxa Hxb Ho0' Ho1' Ho2' Ho3' Ho4' Ho5' Ho6' Ho7' Hsha Hshb]
    · isplitl [Hxa Hxb]
      · iapply (Entails.of_eq (pts_x (F := F) d L _ _))
        iapply (x_join (F := F) m d L _)
        isplitl [Hxa]; · iexact Hxa
        iexact Hxb
      isplitl [Ho0' Ho1' Ho2' Ho3' Ho4' Ho5' Ho6' Ho7']
      -- what the copies out left in the eight chunks is the lookup's value there
      · isplitl [Ho0']
        · iapply (Entails.of_eq (pts_o0 (F := F) d L _))
          iapply (Entails.of_eq (pointsTo_congr (q := fullShare) (ℓ := (oC0 L).view.loc (V d (cV L) (jV L)))
            (out_value_0 (F := F) m hr d L (r0V).view f0 [] hin0)))
          iexact Ho0'
        isplitl [Ho1']
        · iapply (Entails.of_eq (pts_o1 (F := F) d L _))
          iapply (Entails.of_eq (pointsTo_congr (q := fullShare) (ℓ := (oC1 L).view.loc (V d (cV L) (jV L)))
            (out_value_1 (F := F) m hr d L (r1V).view f1 [] hin1)))
          iexact Ho1'
        isplitl [Ho2']
        · iapply (Entails.of_eq (pts_o2 (F := F) d L _))
          iapply (Entails.of_eq (pointsTo_congr (q := fullShare) (ℓ := (oC2 L).view.loc (V d (cV L) (jV L)))
            (out_value_2 (F := F) m hr d L (r0V).view f0 [⟨Rect.whole S64x128, gPay (View.read (Elt F) shSl.view (tblSh m d (cV L))) (View.read (Elt F) (iP0).view (idxF m d L)) hin0⟩] hin2)))
          iexact Ho2'
        isplitl [Ho3']
        · iapply (Entails.of_eq (pts_o3 (F := F) d L _))
          iapply (Entails.of_eq (pointsTo_congr (q := fullShare) (ℓ := (oC3 L).view.loc (V d (cV L) (jV L)))
            (out_value_3 (F := F) m hr d L (r1V).view f1 [⟨Rect.whole S64x128, gPay (View.read (Elt F) shSl.view (tblSh m d (cV L))) (View.read (Elt F) (iP1).view (idxF m d L)) hin1⟩] hin3)))
          iexact Ho3'
        isplitl [Ho4']
        · iapply (Entails.of_eq (pts_o4 (F := F) d L _))
          iapply (Entails.of_eq (pointsTo_congr (q := fullShare) (ℓ := (oC4 L).view.loc (V d (cV L) (jV L)))
            (out_value_4 (F := F) m hr d L (r0V).view f0 [⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin4)))
          iexact Ho4'
        isplitl [Ho5']
        · iapply (Entails.of_eq (pts_o5 (F := F) d L _))
          iapply (Entails.of_eq (pointsTo_congr (q := fullShare) (ℓ := (oC5 L).view.loc (V d (cV L) (jV L)))
            (out_value_5 (F := F) m hr d L (r1V).view f1 [⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin5)))
          iexact Ho5'
        isplitl [Ho6']
        · iapply (Entails.of_eq (pts_o6 (F := F) d L _))
          iapply (Entails.of_eq (pointsTo_congr (q := fullShare) (ℓ := (oC6 L).view.loc (V d (cV L) (jV L)))
            (out_value_6 (F := F) m hr d L (r0V).view f0 [⟨Rect.whole S64x128, gPay (View.read (Elt F) shSl.view (tblSh m d (cV L))) (View.read (Elt F) (iP4).view (idxF m d L)) hin4⟩, ⟨Rect.whole S64x128, gPay (View.read (Elt F) shSl.view (tblSh m d (cV L))) (View.read (Elt F) (iP2).view (idxF m d L)) hin2⟩, ⟨Rect.whole S64x128, gPay (View.read (Elt F) shSl.view (tblSh m d (cV L))) (View.read (Elt F) (iP0).view (idxF m d L)) hin0⟩] hin6)))
          iexact Ho6'
        iapply (Entails.of_eq (pts_o7 (F := F) d L _))
        iapply (Entails.of_eq (pointsTo_congr (q := fullShare) (ℓ := (oC7 L).view.loc (V d (cV L) (jV L)))
          (out_value_7 (F := F) m hr d L (r1V).view f1 [⟨Rect.whole S64x128, gPay (View.read (Elt F) shSl.view (tblSh m d (cV L))) (View.read (Elt F) (iP5).view (idxF m d L)) hin5⟩, ⟨Rect.whole S64x128, gPay (View.read (Elt F) shSl.view (tblSh m d (cV L))) (View.read (Elt F) (iP3).view (idxF m d L)) hin3⟩, ⟨Rect.whole S64x128, gPay (View.read (Elt F) shSl.view (tblSh m d (cV L))) (View.read (Elt F) (iP1).view (idxF m d L)) hin1⟩] hin7)))
        iexact Ho7'
      isplitl [Hsha Hshb]
      · iapply (sh_join (F := F) m d L)
        isplitl [Hsha]; · iexact Hsha
        iexact Hshb
      iempintro
    -- its scratch and its semaphores as it found them
    isplitl [HiA' Hp1 Hp2 Hp3 Hp4 Hp5 Hp6 Hp7 Hr0' Hr1' Hbufs]
    · isplitl [HiA' Hp1 Hp2 Hp3 Hp4 Hp5 Hp6 Hp7]
      · iexists (idxF m d L)
        iapply (Entails.of_eq ((pts_i (F := F) d L (idxF m d L)).symm.trans (idx_split (F := F) d L (idxF m d L))).symm)
        isplitl [HiA']; · iexact HiA'
        iapply (Entails.of_eq (iB_split (F := F) d L (idxF m d L)).symm)
        isplitl [Hp1]; · iexact Hp1
        isplitl [Hp2]; · iexact Hp2
        isplitl [Hp3]; · iexact Hp3
        isplitl [Hp4]; · iexact Hp4
        isplitl [Hp5]; · iexact Hp5
        isplitl [Hp6]; · iexact Hp6
        iexact Hp7
      isplitl [Hr0']; · iexists _; iapply (Entails.of_eq (pts_r0 (F := F) d L _)); iexact Hr0'
      isplitl [Hr1']; · iexists _; iapply (Entails.of_eq (pts_r1 (F := F) d L _)); iexact Hr1'
      iexact Hbufs
    isplitl [Hs4 Hs5 Hs6 Hs7 Hs8 Hs9 Hsc Hsems]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hsc]; · iexact Hsc
      iexact Hsems
    iexists _; isplitr
    swap; · iexact HO
    ipureintro; intro p hp
    repeat (rcases Finset.mem_insert.mp hp with hp | hp; · first | exact .inr (.inl (hp ▸ rfl)) | exact .inr (.inr (hp ▸ rfl)))
    exact .inl hp

end Tile

end Cert.Proof.KB

end
-- ==== Proof.lean ====
/-
  The certificate's claim. Both kernels — the one at machine words and the idealized one — are the same lookup
  program: their runs end with the result array holding row x r of the table in row r, for every r, and the two
  argument arrays unchanged; each frame is that run with the result's value dropped. On the domain of the claim every
  index word is a table row number, which is what the task's body needs of the index vector. The reference's run
  ends with the same lookup of its own arguments, so from memories that agree on the arguments the two results are
  equal, element by element.
-/
import proofs.«205415_g38302518346492_cont_8to1_b_1778_12_alg».proof.Defs
import proofs.«205415_g38302518346492_cont_8to1_b_1778_12_alg».proof.Proof.Gen.Kernel
import proofs.«205415_g38302518346492_cont_8to1_b_1778_12_alg».proof.Proof.Gen.Kernel.Skeleton
import proofs.«205415_g38302518346492_cont_8to1_b_1778_12_alg».proof.Proof.Gen.KernelIdeal
import proofs.«205415_g38302518346492_cont_8to1_b_1778_12_alg».proof.Proof.Gen.KernelIdeal.Skeleton
import proofs.«205415_g38302518346492_cont_8to1_b_1778_12_alg».proof.Proof.Gen.ReferenceIdeal
import proofs.«205415_g38302518346492_cont_8to1_b_1778_12_alg».proof.Proof.Gen.Pre_input_domain
import proofs.«205415_g38302518346492_cont_8to1_b_1778_12_alg».proof.Proof.PreRange
import proofs.«205415_g38302518346492_cont_8to1_b_1778_12_alg».proof.Proof.RefValue
import proofs.«205415_g38302518346492_cont_8to1_b_1778_12_alg».proof.Proof.KI.Launch
import proofs.«205415_g38302518346492_cont_8to1_b_1778_12_alg».proof.Proof.KI.Body
import proofs.«205415_g38302518346492_cont_8to1_b_1778_12_alg».proof.Proof.KB.Launch
import proofs.«205415_g38302518346492_cont_8to1_b_1778_12_alg».proof.Proof.KB.Body
import Idealize.ShloMosaic.Adequacy
import Idealize.ShloMosaic.Init

noncomputable section

namespace Cert.Proof

open Idealize.ShloMosaic Idealize.SL.Sem

/-- `Cert.frame_Kernel` (Defs.lean): the kernel's run at machine words, the result's value dropped. -/
theorem frame_Kernel : Cert.frame_Kernel := fun m ρ hpre =>
  (θ_run Cert.Kernel.defs _ _).mono (fun _ h c => (h c).2)
    (Cert.Proof.KB.run_main (F := Bits) m ρ
      (Cert.Proof.KB.tile_body m fun d r => Cert.PreRange.range_of_pre (F := Bits) _ _ (hpre d) r))

/-- `Cert.frame_KernelIdeal` (Defs.lean): the idealized kernel's run, the result's value dropped. -/
theorem frame_KernelIdeal : Cert.frame_KernelIdeal := fun m ρ hpre =>
  (θ_run Cert.KernelIdeal.defs _ _).mono (fun _ h c => (h c).2)
    (Cert.Proof.KI.run_main (F := Ideal) m ρ
      (Cert.Proof.KI.tile_body m fun d r => Cert.PreRange.range_of_pre (F := Ideal) _ _ (hpre d) r))

/-- `Cert.frame_ReferenceIdeal` (Defs.lean): the reference's run, the result's value dropped. -/
theorem frame_ReferenceIdeal : Cert.frame_ReferenceIdeal := fun m g h =>
  (θ_run Cert.ReferenceIdeal.defs _ _).mono (fun _ h c => (h c).2) (Cert.ReferenceIdeal.RefValue.run_spec m g h)

/-- `Cert.algebraic_KernelIdeal_ReferenceIdeal` (Defs.lean): the shared value is the lookup of the kernel's arguments;
    the reference's arguments are the kernel's, so its lookup is the same and its precondition is the kernel's. -/
theorem algebraic : Cert.algebraic_KernelIdeal_ReferenceIdeal := by
  intro m g m' g' hpre hagree
  have hpre' : Cert.Pre_ReferenceIdeal m' := fun c => by
    have h := hpre c
    rw [← (hagree c).1, ← (hagree c).2] at h
    exact h
  refine ⟨fun c => Cert.Proof.KI.Gout m c, ?_, ?_⟩
  · exact (θ_run Cert.KernelIdeal.defs _ _).mono (fun _ h c => h c)
      (Cert.Proof.KI.run_main (F := Ideal) m g
        (Cert.Proof.KI.tile_body m fun d r => Cert.PreRange.range_of_pre (F := Ideal) _ _ (hpre d) r))
  · refine (θ_run Cert.ReferenceIdeal.defs _ _).mono (fun _ h c => ⟨(h c).1.trans ?_, (h c).2⟩)
      (Cert.ReferenceIdeal.RefValue.run_spec m' g' hpre')
    rw [(hagree c).1, (hagree c).2]

/-- `Cert.Claim` (Defs.lean). -/
theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
